-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024 : Shape := ⟨1, ![1024]⟩
abbrev S3072x1024 : Shape := ⟨2, ![3072, 1024]⟩
abbrev S3072 : Shape := ⟨1, ![3072]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S3072x1024 .f32) (main_arg5 : FVec F S3072 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S3072x1024 .f32 := Host.absf main_arg4
  let main_cst_6 : FVec F S_ .f32 := constant S_ .f32 0x7F800000#32
  let main_v20 : FVec F S3072x1024 .f32 := broadcastInDim S3072x1024 ![] bcast_S_S3072x1024 main_cst_6
  let main_v21 : IVec S3072x1024 1 := cmpf .olt main_v19 main_v20
  let main_c_7 : IVec S_ 1 := constantI S_ 1 1#1
  let main_v22 : IVec S_ 1 := (fun x v => Host.reduce IntOp.andi x v reducesTo_S3072x1024_S_d0_1 h_S_) main_v21 main_c_7
  let main_v23 : IVec S_ 1 := andi main_v18 main_v22
  let main_v24 : FVec F S3072 .f32 := Host.absf main_arg5
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S2x2048x1024 .f32) (main_arg1 : FVec F S2x2048x1024 .f32) (main_arg2 : FVec F S1024 .f32) (main_arg3 : FVec F S1024 .f32) (main_arg4 : FVec F S3072x1024 .f32) (main_arg5 : FVec F S3072 .f32) (main_arg6 : FVec F S1024x1024 .f32) (main_arg7 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S2x2048x1024 : Shape := ⟨3, ![2, 2048, 1024]⟩
abbrev S1024 : Shape := ⟨1, ![1024]⟩
abbrev S3072x1024 : Shape := ⟨2, ![3072, 1024]⟩
abbrev S3072 : Shape := ⟨1, ![3072]⟩
abbrev S1024x1024 : Shape := ⟨2, ![1024, 1024]⟩
abbrev S1024x3072 : Shape := ⟨2, ![1024, 3072]⟩
abbrev S2x16x2048x64 : Shape := ⟨4, ![2, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S512x3072 : Shape := ⟨2, ![512, 3072]⟩
abbrev S1x3072 : Shape := ⟨2, ![1, 3072]⟩
abbrev S512x16x64 : Shape := ⟨3, ![512, 16, 64]⟩
abbrev S16x512x64 : Shape := ⟨3, ![16, 512, 64]⟩
abbrev S2x2048x2048 : Shape := ⟨3, ![2, 2048, 2048]⟩
abbrev S1x1x512x64 : Shape := ⟨4, ![1, 1, 512, 64]⟩
abbrev S1x16x2048x64 : Shape := ⟨4, ![1, 16, 2048, 64]⟩
abbrev S1x512x2048 : Shape := ⟨3, ![1, 512, 2048]⟩
abbrev S512x2048 : Shape := ⟨2, ![512, 2048]⟩
abbrev S512x64 : Shape := ⟨2, ![512, 64]⟩
abbrev S1x1x2048x64 : Shape := ⟨4, ![1, 1, 2048, 64]⟩
abbrev S2048x64 : Shape := ⟨2, ![2048, 64]⟩
abbrev S64x1024 : Shape := ⟨2, ![64, 1024]⟩

abbrev nBuf : Space → Nat
  | .hbm => 17
  | .vmem => 28
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024, .f32⟩
  | .hbm, ⟨3, _⟩ => ⟨S1024, .f32⟩
  | .hbm, ⟨4, _⟩ => ⟨S3072x1024, .f32⟩
  | .hbm, ⟨5, _⟩ => ⟨S3072, .f32⟩
  | .hbm, ⟨6, _⟩ => ⟨S1024x1024, .f32⟩
  | .hbm, ⟨7, _⟩ => ⟨S1024, .f32⟩
  | .hbm, ⟨8, _⟩ => ⟨S1024x3072, .f32⟩
  | .hbm, ⟨9, _⟩ => ⟨S1024x3072, .bf16⟩
  | .hbm, ⟨10, _⟩ => ⟨S2x16x2048x64, .f32⟩
  | .hbm, ⟨11, _⟩ => ⟨S2x16x2048x64, .f32⟩
  | .hbm, ⟨12, _⟩ => ⟨S2x16x2048x64, .bf16⟩
  | .hbm, ⟨13, _⟩ => ⟨S1024x1024, .f32⟩
  | .hbm, ⟨14, _⟩ => ⟨S1024x1024, .bf16⟩
  | .hbm, ⟨15, _⟩ => ⟨S2x2048x1024, .f32⟩
  | .hbm, ⟨16, _⟩ => ⟨S2x2048x2048, .f32⟩
  | .local _ .vmem, ⟨0, _⟩ => ⟨S1x512x1024, .f32⟩
  | .local _ .vmem, ⟨1, _⟩ => ⟨S1x512x1024, .f32⟩
  | .local _ .vmem, ⟨2, _⟩ => ⟨S1024, .f32⟩
  | .local _ .vmem, ⟨3, _⟩ => ⟨S1024, .f32⟩
  | .local _ .vmem, ⟨4, _⟩ => ⟨S1024x3072, .bf16⟩
  | .local _ .vmem, ⟨5, _⟩ => ⟨S3072, .f32⟩
  | .local _ .vmem, ⟨6, _⟩ => ⟨S1x16x512x64, .f32⟩
  | .local _ .vmem, ⟨7, _⟩ => ⟨S1x16x512x64, .f32⟩
  | .local _ .vmem, ⟨8, _⟩ => ⟨S1x16x512x64, .f32⟩
  | .local _ .vmem, ⟨9, _⟩ => ⟨S1x16x512x64, .f32⟩
  | .local _ .vmem, ⟨10, _⟩ => ⟨S1x16x512x64, .bf16⟩
  | .local _ .vmem, ⟨11, _⟩ => ⟨S1x16x512x64, .bf16⟩
  | .local _ .vmem, ⟨12, _⟩ => ⟨S1x1x512x64, .f32⟩
  | .local _ .vmem, ⟨13, _⟩ => ⟨S1x1x512x64, .f32⟩
  | .local _ .vmem, ⟨14, _⟩ => ⟨S1x16x2048x64, .f32⟩
  | .local _ .vmem, ⟨15, _⟩ => ⟨S1x16x2048x64, .f32⟩
  | .local _ .vmem, ⟨16, _⟩ => ⟨S1x16x2048x64, .bf16⟩
  | .local _ .vmem, ⟨17, _⟩ => ⟨S1x16x2048x64, .bf16⟩
  | .local _ .vmem, ⟨18, _⟩ => ⟨S1x512x1024, .f32⟩
  | .local _ .vmem, ⟨19, _⟩ => ⟨S1x512x1024, .f32⟩
  | .local _ .vmem, ⟨20, _⟩ => ⟨S1024x1024, .bf16⟩
  | .local _ .vmem, ⟨21, _⟩ => ⟨S1024, .f32⟩
  | .local _ .vmem, ⟨22, _⟩ => ⟨S1x512x1024, .f32⟩
  | .local _ .vmem, ⟨23, _⟩ => ⟨S1x512x1024, .f32⟩
  | .local _ .vmem, ⟨24, _⟩ => ⟨S1x512x2048, .f32⟩
  | .local _ .vmem, ⟨25, _⟩ => ⟨S1x512x2048, .f32⟩
  | .local _ .vmem, ⟨26, _⟩ => ⟨S512x1024, .f32⟩
  | .local _ .vmem, ⟨27, _⟩ => ⟨S512x2048, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_scratch0 : Ref sig .tc := ⟨.vmem, 26, rfl⟩
abbrev cc1_scratch1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨3, ![2, 4, 16], ![false, false, false]⟩

def k1_off1 (i : grid1.Coords) : Fin 4 → Nat :=
  let c0_4 : Index := 0#32
  let arg2 : BitVec 32 := BitVec.ofNat 32 (i 2).val
  let v5 : Index := Scalar.indexCast arg2
  let c0_5 : Index := 0#32
  let c0_6 : Index := 0#32
  ![0, v5.toNat, 0, 0]
def k1_mult1 (i : grid1.Coords) : BitVec 32 :=
  let arg2 : BitVec 32 := BitVec.ofNat 32 (i 2).val
  let c64_i32 : BitVec 32 := 64#32
  let v25 : BitVec 32 := Scalar.muli arg2 c64_i32
  v25
def k1_off2 (i : grid1.Coords) : Fin 2 → Nat :=
  let arg2 : BitVec 32 := BitVec.ofNat 32 (i 2).val
  let c64_i32 : BitVec 32 := 64#32
  let v25 : BitVec 32 := Scalar.muli arg2 c64_i32
  let v26 : BitVec 32 := v25
  let v27 : Index := Scalar.indexCast v26
  let c0_14 : Index := 0#32
  ![v27.toNat, 0]
def k1_cond2 (i : grid1.Coords) : BitVec 1 :=
  let arg2 : BitVec 32 := BitVec.ofNat 32 (i 2).val
  let c15_i32 : BitVec 32 := 15#32
  let v42 : BitVec 1 := Scalar.cmpi .eq arg2 c15_i32
  let v43 : BitVec 32 := Scalar.extui v42
  let c0_i32_24 : BitVec 32 := 0#32
  let v44 : BitVec 1 := Scalar.cmpi .ne v43 c0_i32_24
  v44

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x16x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x16x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S1x512x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

class Facts₀ : Prop where
  transposes_S3072x1024_S1024x3072_1_0 : S3072x1024.Transposes [1, 0] S1024x3072
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  slices_S512x3072_o0_0_S512x1024 : S512x3072.Slices ![0, 0] S512x1024
  shapeCasts_S512x1024_S512x16x64 : S512x1024.ShapeCasts S512x16x64
  transposes_S512x16x64_p1_0_2_S16x512x64 : S512x16x64.Transposes [1, 0, 2] S16x512x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  slices_S512x3072_o0_1024_S512x1024 : S512x3072.Slices ![0, 1024] S512x1024
  slices_S512x3072_o0_2048_S512x1024 : S512x3072.Slices ![0, 2048] S512x1024
  packedbf16_S1x16x512x64_S1x16x512x64_0_0_0_0 : (Rect.unit (s := S1x16x512x64) ![0, 0, 0, 0] S1x16x512x64.size inb_S1x16x512x64_S1x16x512x64_0_0_0_0).PackedRows (EltTy.packing .bf16)
  transposes_S1024x1024_S1024x1024_1_0 : S1024x1024.Transposes [1, 0] S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  h_S1x1x2048x64 : 0 < S1x1x2048x64.numel
  shapeCasts_S1x1x2048x64_S2048x64 : S1x1x2048x64.ShapeCasts S2048x64
  reduces_S512x2048_S512 : S512x2048.Reduces [1] S512
  broadcasts_S512x1_S512x2048 : S512x1.Broadcasts S512x2048
  h_S64x1024 : 0 < S64x1024.numel
  shapeCasts_S64x1024_S64x1024 : S64x1024.ShapeCasts S64x1024
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072.size a ≤ S3072.size a
  hwx0_4 : ∀ i : grid0.Coords, EltTy.bits .f32 = 32 ∨ (Rect.block (s := S3072) S3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512x64.size a ≤ S2x16x2048x64.size a
  hwx0_5 : ∀ i : grid0.Coords, EltTy.bits .f32 = 32 ∨ (Rect.block (s := S2x16x2048x64) S1x16x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x512x64.size a ≤ S2x16x2048x64.size a
  hwx0_6 : ∀ i : grid0.Coords, EltTy.bits .f32 = 32 ∨ (Rect.block (s := S2x16x2048x64) S1x16x512x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x512x64.size a ≤ S2x16x2048x64.size a
  hwx0_7 : ∀ i : grid0.Coords, EltTy.bits .bf16 = 32 ∨ (Rect.block (s := S2x16x2048x64) S1x16x512x64.size (cc0_transform_7 i) (hinb0_7 i)).WholeWords (EltTy.packing .bf16)
  hrank1 : 0 < grid1.rank
  k1_off1_inb : ∀ i : grid1.Coords, ∀ a, (k1_off1 i) a + S1x1x2048x64.size a ≤ S1x16x2048x64.size a
  k1_mult1_dvd : ∀ i : grid1.Coords, 64 ∣ (k1_mult1 i).toNat
  k1_off2_inb : ∀ i : grid1.Coords, ∀ a, (k1_off2 i) a + S64x1024.size a ≤ S1024x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S2x16x2048x64.size a
  hwx1_0 : ∀ i : grid1.Coords, EltTy.bits .f32 = 32 ∨ (Rect.block (s := S2x16x2048x64) S1x1x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x2048x64.size a ≤ S2x16x2048x64.size a
  hwx1_1 : ∀ i : grid1.Coords, EltTy.bits .f32 = 32 ∨ (Rect.block (s := S2x16x2048x64) S1x16x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x2048x64.size a ≤ S2x16x2048x64.size a
  hwx1_2 : ∀ i : grid1.Coords, EltTy.bits .bf16 = 32 ∨ (Rect.block (s := S2x16x2048x64) S1x16x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S2x2048x1024.size a
  hwx1_3 : ∀ i : grid1.Coords, EltTy.bits .f32 = 32 ∨ (Rect.block (s := S2x2048x1024) S1x512x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S1024.size a
  hwx1_5 : ∀ i : grid1.Coords, EltTy.bits .f32 = 32 ∨ (Rect.block (s := S1024) S1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x1024.size a ≤ S2x2048x1024.size a
  hwx1_6 : ∀ i : grid1.Coords, EltTy.bits .f32 = 32 ∨ (Rect.block (s := S2x2048x1024) S1x512x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x2048.size a ≤ S2x2048x2048.size a
  hwx1_7 : ∀ i : grid1.Coords, EltTy.bits .f32 = 32 ∨ (Rect.block (s := S2x2048x2048) S1x512x2048.size (cc1_transform_7 i) (hinb1_7 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x16x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x16x512x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S1x16x512x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2_0) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x16x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1x16x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5_0) S1x512x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v5_1) S1x512x2048.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S1024 : Shape := ⟨1, ![1024]⟩
abbrev S3072x1024 : Shape := ⟨2, ![3072, 1024]⟩
abbrev S3072 : Shape := ⟨1, ![3072]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x3072 : Shape := ⟨3, ![2, 2048, 3072]⟩
abbrev S1x1x3072 : Shape := ⟨3, ![1, 1, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x2048x2048 : Shape := ⟨3, ![2, 2048, 2048]⟩

abbrev nBuf : Space → Nat
  | .hbm => 81
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024, .f32⟩
  | .hbm, ⟨3, _⟩ => ⟨S1024, .f32⟩
  | .hbm, ⟨4, _⟩ => ⟨S3072x1024, .f32⟩
  | .hbm, ⟨5, _⟩ => ⟨S3072, .f32⟩
  | .hbm, ⟨6, _⟩ => ⟨S1024x1024, .f32⟩
  | .hbm, ⟨7, _⟩ => ⟨S1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S_, .f32⟩
  | .hbm, ⟨18, _⟩ => ⟨S2x2048, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1, .f32⟩
  | .hbm, ⟨29, _⟩ => ⟨S2x2048x1024, .f32⟩
  | .hbm, ⟨30, _⟩ => ⟨S2x2048x1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S1x1x1024, .f32⟩
  | .hbm, ⟨35, _⟩ => ⟨S2x2048x1024, .f32⟩
  | .hbm, ⟨36, _⟩ => ⟨S2x2048x1024, .f32⟩
  | .hbm, ⟨37, _⟩ => ⟨S2x2048x3072, .f32⟩
  | .hbm, ⟨38, _⟩ => ⟨S1x1x3072, .f32⟩
  | .hbm, ⟨39, _⟩ => ⟨S2x2048x3072, .f32⟩
  | .hbm, ⟨40, _⟩ => ⟨S2x2048x3072, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x16x64, .f32⟩
  | .hbm, ⟨45, _⟩ => ⟨S2x16x2048x64, .f32⟩
  | .hbm, ⟨46, _⟩ => ⟨S2x2048x16x64, .f32⟩
  | .hbm, ⟨47, _⟩ => ⟨S2x16x2048x64, .f32⟩
  | .hbm, ⟨48, _⟩ => ⟨S2x2048x16x64, .f32⟩
  | .hbm, ⟨49, _⟩ => ⟨S2x16x2048x64, .f32⟩
  | .hbm, ⟨50, _⟩ => ⟨S2x16x2048x2048, .f32⟩
  | .hbm, ⟨51, _⟩ => ⟨S_, .f32⟩
  | .hbm, ⟨52, _⟩ => ⟨S2x16x2048x2048, .f32⟩
  | .hbm, ⟨53, _⟩ => ⟨S2x16x2048x2048, .f32⟩
  | .hbm, ⟨54, _⟩ => ⟨S_, .f32⟩
  | .hbm, ⟨55, _⟩ => ⟨S2x16x2048, .f32⟩
  | .hbm, ⟨56, _⟩ => ⟨S_, .f32⟩
  | .hbm, ⟨57, _⟩ => ⟨S2x16x2048, .f32⟩
  | .hbm, ⟨58, _⟩ => ⟨S2x16x2048, .f32⟩
  | .hbm, ⟨59, _⟩ => ⟨S2x16x2048x1, .f32⟩
  | .hbm, ⟨60, _⟩ => ⟨S2x16x2048x2048, .f32⟩
  | .hbm, ⟨61, _⟩ => ⟨S2x16x2048x2048, .f32⟩
  | .hbm, ⟨62, _⟩ => ⟨S2x16x2048x2048, .f32⟩
  | .hbm, ⟨63, _⟩ => ⟨S_, .f32⟩
  | .hbm, ⟨64, _⟩ => ⟨S2x16x2048, .f32⟩
  | .hbm, ⟨65, _⟩ => ⟨S2x16x2048x1, .f32⟩
  | .hbm, ⟨66, _⟩ => ⟨S2x16x2048x2048, .f32⟩
  | .hbm, ⟨67, _⟩ => ⟨S2x16x2048x2048, .f32⟩
  | .hbm, ⟨68, _⟩ => ⟨S2x16x2048x64, .f32⟩
  | .hbm, ⟨69, _⟩ => ⟨S2x2048x16x64, .f32⟩
  | .hbm, ⟨70, _⟩ => ⟨S2x2048x1024, .f32⟩
  | .hbm, ⟨71, _⟩ => ⟨S2x2048x1024, .f32⟩
  | .hbm, ⟨72, _⟩ => ⟨S1x1x1024, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S_, .f32⟩
  | .hbm, ⟨77, _⟩ => ⟨S2x2048x2048, .f32⟩
  | .hbm, ⟨78, _⟩ => ⟨S_, .f32⟩
  | .hbm, ⟨79, _⟩ => ⟨S2x2048x2048, .f32⟩
  | .hbm, ⟨80, _⟩ => ⟨S2x2048x2048, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]

class Facts₀ : Prop where
  reducesTo_S2x2048x1024_S2x2048_d2 : S2x2048x1024.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x1024_0_1_2 : S2x2048x1.BroadcastsInDim S2x2048x1024 (![0, 1, 2] : Fin 3 → Fin S2x2048x1024.rank)
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  reducesTo_S2x16x2048x2048_S2x2048x2048_d1 : S2x16x2048x2048.ReducesTo [1] S2x2048x2048
  bcast_S_S2x2048x2048 : S_.BroadcastsInDim S2x2048x2048 (![] : Fin 0 → Fin S2x2048x2048.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.K.R0.lean ====
import proofs.«146015_j42408507080997_2_alg».proof.Proof.Gen.Kernel.Launch
import proofs.«146015_j42408507080997_2_alg».proof.Proof.Gen.Kernel.Skeleton
import proofs.«146015_j42408507080997_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The first region: layer normalisation and the q/k/v projection

Five input windows — the 512-row block of the activations, the normalisation's scale and shift, the bf16 projection
matrix and its bias — and three output windows, the head-major blocks of q, k (f32) and v (bf16). -/

/-- Window `w`'s block at grid point `t`, read off its array as the first region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's staging buffer holds its block at every point

Whether or not the window is fetched at the point: where it is not, its block index has not moved since the last
fetch, and the body leaves an input's buffer as it found it. One statement per input window, for any proof data whose
array is the entry contents and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through: each staging buffer whole -/

abbrev rX : Rect S1x512x1024 := Rect.unit (s := S1x512x1024) ![0, 0, 0] S1x512x1024.size inb_S1x512x1024_S1x512x1024_0_0_0
abbrev rG : Rect S1024 := Rect.unit (s := S1024) ![0] S1024.size inb_S1024_S1024_0
abbrev rW : Rect S1024x3072 := Rect.unit (s := S1024x3072) ![0, 0] S1024x3072.size inb_S1024x3072_S1024x3072_0_0
abbrev rB : Rect S3072 := Rect.unit (s := S3072) ![0] S3072.size inb_S3072_S3072_0
abbrev rO : Rect S1x16x512x64 := Rect.unit (s := S1x16x512x64) ![0, 0, 0, 0] S1x16x512x64.size inb_S1x16x512x64_S1x16x512x64_0_0_0_0

/-! ## What the body leaves in each output window's buffer

One whole-block store per output. The payloads: `k0_pay4` is the normalised block times the projection matrix plus
the bias (512 × 3072); `k0_pay5` its first 1024 columns regrouped head-major; `k0_pay1`, `k0_pay2`, `k0_pay3` the
q, k and v blocks cut from it. -/

/-- The q block after the body, from the five input blocks. -/
def out0_5 (x0 : Vec F S1x512x1024 .f32) (x1 x2 : Vec F S1024 .f32) (x3 : Vec F S1024x3072 .bf16) (x4 : Vec F S3072 .f32) : Vec F S1x16x512x64 .f32 :=
  View.canon [⟨rO, k0_pay1 (k0_pay5 (View.ld x0 rX) (View.ld x1 rG) (View.ld x2 rG) (View.ld x3 rW) (View.ld x4 rB))⟩]

/-- The k block after the body. -/
def out0_6 (x0 : Vec F S1x512x1024 .f32) (x1 x2 : Vec F S1024 .f32) (x3 : Vec F S1024x3072 .bf16) (x4 : Vec F S3072 .f32) : Vec F S1x16x512x64 .f32 :=
  View.canon [⟨rO, k0_pay2 (k0_pay4 (View.ld x0 rX) (View.ld x1 rG) (View.ld x2 rG) (View.ld x3 rW) (View.ld x4 rB))⟩]

/-- The v block after the body (bf16). -/
def out0_7 (x0 : Vec F S1x512x1024 .f32) (x1 x2 : Vec F S1024 .f32) (x3 : Vec F S1024x3072 .bf16) (x4 : Vec F S3072 .f32) : Vec F S1x16x512x64 .bf16 :=
  View.canon [⟨rO, k0_pay3 (k0_pay4 (View.ld x0 rX) (View.ld x1 rG) (View.ld x2 rG) (View.ld x3 rW) (View.ld x4 rB))⟩]

/-- A store through the whole-block rectangle covers the block, whatever the element type and the payload. -/
theorem cover0 {e : EltTy} (p0 : Vec F S1x16x512x64 e) (y : S1x16x512x64.Idx) :
    ∃ pc ∈ ([⟨rO, p0⟩] : List (View.Piece (Elt F) S1x16x512x64 e)), y ∈ pc.1.set :=
  View.cover_of_tiled [⟨rO, p0⟩] S1x16x512x64.size (by rfl) y

/-! ## The body's triple -/

set_option maxHeartbeats 1000000 in
/-- The body on whole staging buffers, the inputs' reading `x0 … x4` and the outputs' holding anything, runs to the
    continuation with the inputs' untouched and each output's holding `out0_W` of the inputs. The body reads each
    output buffer before overwriting it whole; what it reads is never used. -/
theorem sound_kernel0 (c : Dev nD) (E : Set ℕ) (i : grid0.Coords)
    (arg2 : Memref sig .tc .vmem S1x512x1024 .f32) (harg2 : arg2.IsWhole)
    (arg3 : Memref sig .tc .vmem S1024 .f32) (harg3 : arg3.IsWhole)
    (arg4 : Memref sig .tc .vmem S1024 .f32) (harg4 : arg4.IsWhole)
    (arg5 : Memref sig .tc .vmem S1024x3072 .bf16) (harg5 : arg5.IsWhole)
    (arg6 : Memref sig .tc .vmem S3072 .f32) (harg6 : arg6.IsWhole)
    (arg7 : Memref sig .tc .vmem S1x16x512x64 .f32) (harg7 : arg7.IsWhole)
    (arg8 : Memref sig .tc .vmem S1x16x512x64 .f32) (harg8 : arg8.IsWhole)
    (arg9 : Memref sig .tc .vmem S1x16x512x64 .bf16) (harg9 : arg9.IsWhole)
    (x0 : Vec F S1x512x1024 .f32) (x1 x2 : Vec F S1024 .f32) (x3 : Vec F S1024x3072 .bf16) (x4 : Vec F S3072 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out0_5 x0 x1 x2 x3 x4) ∗ owns (c : Thread nD τ) arg8 fullShare (out0_6 x0 x1 x2 x3 x4) ∗ owns (c : Thread nD τ) arg9 fullShare (out0_7 x0 x1 x2 x3 x4)) -∗ K ⟨⟩))
      ⊢ wp frame (wpE (defs₀ (F := F)) Variants.none c none) E (cc0__ln_qkv_kernel i arg2 harg2 arg3 harg3 arg4 harg4 arg5 harg5 arg6 harg6 arg7 harg7 arg8 harg8 arg9 harg9) K := by
  simp only [cc0__ln_qkv_kernel_eq_skeleton]; unfold cc0__ln_qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The pipeline's proof data -/

/-- The proof data of the first pipeline on core `c`: the arrays as the region finds them; after the body at point
    `t` each input's buffer at its block and each output's at `out0_W` of the five input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1s.lean ====
import proofs.«146015_j42408507080997_2_alg».proof.Proof.Gen.Kernel.Launch
import proofs.«146015_j42408507080997_2_alg».proof.Proof.Gen.Kernel.Skeleton
import proofs.«146015_j42408507080997_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid coordinates -/

/-- The head index (the last grid coordinate) is 0: the point zeroes both scratch buffers first. -/
abbrev cond1_0 (i : grid1.Coords) : Prop := (Scalar.cmpi .ne (Scalar.extui (Scalar.cmpi .eq (BitVec.ofNat 32 (i 2).val) 0#32)) 0#32) = 1#1
/-- It holds at the points ≡ 0 (mod 16) — decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-- The head index is 15: the point stores both output windows. -/
abbrev cond1_1 (i : grid1.Coords) : Prop := k1_cond2 i = 1#1
/-- It holds at the points ≡ 15 (mod 16) — decided over the grid. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Input window 0 is never idle. -/
theorem liveAt1_0 : ∀ t : Fin cfg1.N, cfg1.idle 0 (grid1.coords t) = false := fun _ => rfl
/-- Input window 1 is never idle. -/
theorem liveAt1_1 : ∀ t : Fin cfg1.N, cfg1.idle 1 (grid1.coords t) = false := fun _ => rfl
/-- Input window 2 is never idle. -/
theorem liveAt1_2 : ∀ t : Fin cfg1.N, cfg1.idle 2 (grid1.coords t) = false := fun _ => rfl
/-- Input window 3 is never idle. -/
theorem liveAt1_3 : ∀ t : Fin cfg1.N, cfg1.idle 3 (grid1.coords t) = false := fun _ => rfl
/-- Input window 4 is never idle. -/
theorem liveAt1_4 : ∀ t : Fin cfg1.N, cfg1.idle 4 (grid1.coords t) = false := fun _ => rfl
/-- Input window 5 is never idle. -/
theorem liveAt1_5 : ∀ t : Fin cfg1.N, cfg1.idle 5 (grid1.coords t) = false := fun _ => rfl
/-- Away from the last head the configuration calls output 6 idle: nothing is stored into it. -/
theorem idleAt1_6 : ∀ t : Fin cfg1.N, ¬cond1_1 (grid1.coords t) → cfg1.idle 6 (grid1.coords t) = true := by decide +kernel
/-- and the pipeline does not write its block back there. -/
theorem noFlush1_6 : ∀ t : Fin cfg1.N, ¬cond1_1 (grid1.coords t) → (cfg1.win 6).flush t = false := by decide +kernel
/-- At the last head output 6 is live: the point stores it whole. -/
theorem liveAt1_6 : ∀ t : Fin cfg1.N, cond1_1 (grid1.coords t) → cfg1.idle 6 (grid1.coords t) = false := by decide +kernel
/-- Away from the last head the configuration calls output 7 idle: nothing is stored into it. -/
theorem idleAt1_7 : ∀ t : Fin cfg1.N, ¬cond1_1 (grid1.coords t) → cfg1.idle 7 (grid1.coords t) = true := by decide +kernel
/-- and the pipeline does not write its block back there. -/
theorem noFlush1_7 : ∀ t : Fin cfg1.N, ¬cond1_1 (grid1.coords t) → (cfg1.win 7).flush t = false := by decide +kernel
/-- At the last head output 7 is live: the point stores it whole. -/
theorem liveAt1_7 : ∀ t : Fin cfg1.N, cond1_1 (grid1.coords t) → cfg1.idle 7 (grid1.coords t) = false := by decide +kernel

/-! ## The memrefs the body is called with -/

abbrev ms1_0 (t : Fin cfg1.N) : Memref sig .tc .vmem S1x1x512x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16x2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x16x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512x2048 .f32 := win1_7.stage (cfg1.slots t 7)
abbrev hs1_7 (t : Fin cfg1.N) : (ms1_7 t).IsWhole := hstage1_7 ((cfg1.slots t 7).cast nbuf1_7)
/-- The two scratch operands: whole scoped buffers of the kernel's own. -/
abbrev scM1_0 : Memref sig .tc .vmem S512x1024 .f32 := Memref.whole cc1_scratch0
abbrev scM1_1 : Memref sig .tc .vmem S512x2048 .f32 := Memref.whole cc1_scratch1
/-- The views through which the outputs' and the scratch buffers' contents are stated. -/
abbrev VO1_6 : View sig .tc .vmem S1x512x1024 .f32 := (Memref.whole cc1_stg6_0 : Memref sig .tc .vmem S1x512x1024 .f32).view
abbrev VO1_7 : View sig .tc .vmem S1x512x2048 .f32 := (Memref.whole cc1_stg7_0 : Memref sig .tc .vmem S1x512x2048 .f32).view
abbrev VS1_0 : View sig .tc .vmem S512x1024 .f32 := scM1_0.view
abbrev VS1_1 : View sig .tc .vmem S512x2048 .f32 := scM1_1.view

/-! ## The region invariant's scoped part, split at the two scratch buffers -/

/-- Every scoped buffer of the core that is neither a staging buffer of this call nor one of its two scratch
    buffers, at some contents: carried unopened. -/
abbrev Rest1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ Rest1 c) ∗ (∃ r, prngReg c r)) := by
  unfold Pipeline.ΦA
  rw [Pipeline.scopedRest_split_of_list spec1 c [cc1_scratch0, cc1_scratch1] (by decide) (by decide)]
  simp only [scM1_0, scM1_1, owns_whole]; try rfl

end Cert.Kernel.Hand

end
-- ==== Proof.K.R1a.lean ====
import proofs.«146015_j42408507080997_2_alg».proof.Proof.K.R1s

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the first head (the scratch buffers zeroed first, the outputs not stored): on whole memrefs — the
    inputs' at their contents, the two outputs' at contents handed back untouched, the two scratch buffers at anything —
    it runs to the continuation holding the inputs and the outputs as they were and each scratch buffer with the
    pieces its stores wrote. -/
noncomputable def kernelRun1_A (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) :
    Σ' (LS0 : List (View.Piece (Elt F) S512x1024 .f32)), { LS1 : List (View.Piece (Elt F) S512x2048 .f32) //
      ∀ (xi6 : Vec F S1x512x1024 .f32) (xi7 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10 arg11 harg11 arg12 harg12) K } := by
  refine ⟨?_, ?_, fun xi6 xi7 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    iexists _; iexact HS1

end Cert.Kernel.Hand

end
-- ==== Proof.K.R1b.lean ====
import proofs.«146015_j42408507080997_2_alg».proof.Proof.K.R1s

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of a middle head (nothing zeroed, the outputs not stored): on whole memrefs — the inputs' at their
    contents, the two outputs' at contents handed back untouched, the two scratch buffers at what the point before left —
    it runs to the continuation holding the inputs and the outputs as they were and each scratch buffer with the
    pieces its stores wrote. -/
noncomputable def kernelRun1_B (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) :
    Σ' (LS0 : List (View.Piece (Elt F) S512x1024 .f32)), { LS1 : List (View.Piece (Elt F) S512x2048 .f32) //
      ∀ (xi6 : Vec F S1x512x1024 .f32) (xi7 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10 arg11 harg11 arg12 harg12) K } := by
  refine ⟨?_, ?_, fun xi6 xi7 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7
    obtain rfl := harg11.eq_unread hfs0; obtain rfl := harg12.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    iexists _; iexact HS1

end Cert.Kernel.Hand

end
-- ==== Proof.K.R1c.lean ====
import proofs.«146015_j42408507080997_2_alg».proof.Proof.K.R1s

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the last head (nothing zeroed, both outputs stored whole): on whole memrefs — the inputs' at
    their contents, the two outputs' at anything, the two scratch buffers at what the point before left — it runs to
    the continuation holding the inputs as they were and each output and each scratch buffer with the pieces its
    stores wrote. -/
noncomputable def kernelRun1_C (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) :
    Σ' (L6 : List (View.Piece (Elt F) S1x512x1024 .f32)) (L7 : List (View.Piece (Elt F) S1x512x2048 .f32)) (LS0 : List (View.Piece (Elt F) S512x1024 .f32)), { LS1 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg11.eq_unread hfs0; obtain rfl := harg12.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [HS0]; · iexists _; iexact HS0
    iexists _; iexact HS1

end Cert.Kernel.Hand

end
-- ==== Proof.K.R1.lean ====
import proofs.«146015_j42408507080997_2_alg».proof.Proof.K.R1a
import proofs.«146015_j42408507080997_2_alg».proof.Proof.K.R1b
import proofs.«146015_j42408507080997_2_alg».proof.Proof.K.R1c

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the second region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is the region-entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is the region-entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is the region-entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is the region-entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof data
    whose array is the region-entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the scratch buffers and the outputs -/

/-- Case A's pieces for the first scratch buffer cover it (whole-shape stores: the pieces tile the shape). -/
theorem scover1_A_0 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (y : S512x1024.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).1 S512x1024.size (by sl_kernel_rfl) y

/-- What case A leaves in the first scratch buffer: its pieces read back. -/
def sout1_A_0 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) : Vec F S512x1024 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3 x4 x5).1)

/-- Case A's pieces for the second scratch buffer cover it (whole-shape stores: the pieces tile the shape). -/
theorem scover1_A_1 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (y : S512x2048.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.1 S512x2048.size (by sl_kernel_rfl) y

/-- What case A leaves in the second scratch buffer: its pieces read back. -/
def sout1_A_1 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) : Vec F S512x2048 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 hc0 hc1 x0 x1 x2 x3 x4 x5).2.1)

/-- Case B's pieces for the first scratch buffer cover it (whole-shape stores: the pieces tile the shape). -/
theorem scover1_B_0 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) (y : S512x1024.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1).1 S512x1024.size (by sl_kernel_rfl) y

/-- What case B leaves in the first scratch buffer: its pieces read back. -/
def sout1_B_0 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) : Vec F S512x1024 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1).1)

/-- Case B's pieces for the second scratch buffer cover it (whole-shape stores: the pieces tile the shape). -/
theorem scover1_B_1 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) (y : S512x2048.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1).2.1 S512x2048.size (by sl_kernel_rfl) y

/-- What case B leaves in the second scratch buffer: its pieces read back. -/
def sout1_B_1 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) : Vec F S512x2048 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for output window 6's staging buffer cover it (whole-shape stores: the pieces tile the shape). -/
theorem cover1_C_6 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) (y : S1x512x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).1 S1x512x1024.size (by sl_kernel_rfl) y

/-- What case C leaves in output window 6's staging buffer: its pieces read back. -/
def out1_C_6 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) : Vec F S1x512x1024 .f32 :=
  VO1_6.read (Elt F) (VO1_6.writes (Elt F) VO1_6.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).1)

/-- Case C's pieces for output window 7's staging buffer cover it (whole-shape stores: the pieces tile the shape). -/
theorem cover1_C_7 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) (y : S1x512x2048.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.1 S1x512x2048.size (by sl_kernel_rfl) y

/-- What case C leaves in output window 7's staging buffer: its pieces read back. -/
def out1_C_7 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) : Vec F S1x512x2048 .f32 :=
  VO1_7.read (Elt F) (VO1_7.writes (Elt F) VO1_7.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for the first scratch buffer cover it (whole-shape stores: the pieces tile the shape). -/
theorem scover1_C_0 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) (y : S512x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.2.1 S512x1024.size (by sl_kernel_rfl) y

/-- What case C leaves in the first scratch buffer: its pieces read back. -/
def sout1_C_0 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) : Vec F S512x1024 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case C's pieces for the second scratch buffer cover it (whole-shape stores: the pieces tile the shape). -/
theorem scover1_C_1 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) (y : S512x2048.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.2.2.1 S512x2048.size (by sl_kernel_rfl) y

/-- What case C leaves in the second scratch buffer: its pieces read back. -/
def sout1_C_1 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) : Vec F S512x2048 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-! ## What the scratch buffers hold after each point -/

/-- At a point of the first head the last-head condition fails. -/
theorem not15_of_0 (t : Fin cfg1.N) (h0 : t.val % 16 = 0) : ¬cond1_1 (grid1.coords t) :=
  fun h => by have := (hcond1_1 t).mp h; omega

/-- THE ACCUMULATION. What the two scratch buffers hold after the body at position `n`: the case the closed forms
    select there, run at the point's memrefs and input blocks; away from the first head over what the point before
    left (at the first head the body zeroes both before reading them). -/
def scAt1 (c : Dev nD) : (n : ℕ) → n < cfg1.N → Vec F S512x1024 .f32 × Vec F S512x2048 .f32
  | 0, hn => (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (not15_of_0 ⟨0, hn⟩ (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (not15_of_0 ⟨0, hn⟩ (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      (sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (not15_of_0 ⟨n + 1, hn⟩ h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (not15_of_0 ⟨n + 1, hn⟩ h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (scAt1 c n (Nat.lt_of_succ_lt hn)).1 (scAt1 c n (Nat.lt_of_succ_lt hn)).2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (scAt1 c n (Nat.lt_of_succ_lt hn)).1 (scAt1 c n (Nat.lt_of_succ_lt hn)).2)
      else
        (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (scAt1 c n (Nat.lt_of_succ_lt hn)).1 (scAt1 c n (Nat.lt_of_succ_lt hn)).2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (scAt1 c n (Nat.lt_of_succ_lt hn)).1 (scAt1 c n (Nat.lt_of_succ_lt hn)).2)

/-- `scAt1` at a point of the first head. -/
theorem scAt1_A (c : Dev nD) (t : Fin cfg1.N) (h0 : t.val % 16 = 0) :
    scAt1 V c t.val t.isLt = (sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (not15_of_0 t h0) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (not15_of_0 t h0) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans rfl

/-- `scAt1` at a point of a middle head: over what the point before left. -/
theorem scAt1_B (c : Dev nD) (t : Fin cfg1.N) (h0 : ¬t.val % 16 = 0) (h1 : ¬t.val % 16 = 15) :
    scAt1 V c t.val t.isLt = (sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `scAt1` at a point of the last head: over what the point before left. -/
theorem scAt1_C (c : Dev nD) (t : Fin cfg1.N) (h0 : ¬t.val % 16 = 0) (h1 : t.val % 16 = 15) :
    scAt1 V c t.val t.isLt = (sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What output window 6's staging buffer holds after the body at point `t`: at the last head what the stores
    leave, over the scratch of the point before; elsewhere nothing is stored (a placeholder nothing consults). -/
def outAt1_6 (c : Dev nD) (t : Fin cfg1.N) : Vec F S1x512x1024 .f32 :=
  if h1 : t.val % 16 = 15 then
    out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => (fun h0 : t.val % 16 = 0 => by omega) ((hcond1_0 t).mp h)) ((hcond1_1 t).mpr h1) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2
  else VO1_6.read (Elt F) VO1_6.junk
/-- The same for output window 7. -/
def outAt1_7 (c : Dev nD) (t : Fin cfg1.N) : Vec F S1x512x2048 .f32 :=
  if h1 : t.val % 16 = 15 then
    out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => (fun h0 : t.val % 16 = 0 => by omega) ((hcond1_0 t).mp h)) ((hcond1_1 t).mpr h1) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2
  else VO1_7.read (Elt F) VO1_7.junk

theorem outAt1_6_C (c : Dev nD) (t : Fin cfg1.N) (h0 : ¬t.val % 16 = 0) (h1 : t.val % 16 = 15) :
    outAt1_6 V c t = out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2 :=
  dif_pos h1
theorem outAt1_7_C (c : Dev nD) (t : Fin cfg1.N) (h0 : ¬t.val % 16 = 0) (h1 : t.val % 16 = 15) :
    outAt1_7 V c t = out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2 :=
  dif_pos h1

/-! ## The region invariant, tracking the two scratch buffers -/

/-- Before the first point the class's invariant (every scratch at anything); afterwards the two scratch buffers at what
    the point before left, the other scoped buffers at anything, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((scAt1 V c n hn).1) ∗ owns (c : Thread nD τ) scM1_1 fullShare ((scAt1 V c n hn).2)) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((scAt1 V c n hn).1) ∗ owns (c : Thread nD τ) scM1_1 fullShare ((scAt1 V c n hn).2)) ∗ Rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((scAt1 V c (n - 1) (by omega)).1) ∗ owns (c : Thread nD τ) scM1_1 fullShare ((scAt1 V c (n - 1) (by omega)).2)) ∗ Rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1_6 V c t
    | ⟨7, _⟩ => outAt1_7 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1_6 V c t := by dsimp only [dat1]
theorem after1_7 (c : Dev nD) (t : Fin cfg1.N) : (dat1 V c).after 7 t = outAt1_7 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at a point of the first head: the invariant hands over the two scratch buffers at anything (the class's
    invariant at the first point, what the point before left elsewhere) and takes them back at this point's contents;
    the two outputs are handed back untouched. -/
theorem sound_body1_A (c : Dev nD) (t : Fin cfg1.N) (h0 : t.val % 16 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6 t (not15_of_0 t h0)) (noFlush1_6 t (not15_of_0 t h0))]
  rw [Dat.leavesExact_idle (dat1 V c) 7 t (idleAt1_7 t (not15_of_0 t h0)) (noFlush1_7 t (not15_of_0 t h0))]
  rw [scAt1_A V c t h0]
  unfold sout1_A_0 sout1_A_1; (try dsimp only)
  by_cases hz : t.val = 0
  · rw [PhiS1_castSucc V c t, PhiS1_zero V c _ _ hz, PhiA1_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ _ _ ((hcond1_0 t).mpr h0) (not15_of_0 t h0) (iblk1 V c 0 t) (iblk1 V c 1 t) (iblk1 V c 2 t) (iblk1 V c 3 t) (iblk1 V c 4 t) (iblk1 V c 5 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · rw [PhiS1_castSucc V c t, PhiS1_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ _ _ ((hcond1_0 t).mpr h0) (not15_of_0 t h0) (iblk1 V c 0 t) (iblk1 V c 1 t) (iblk1 V c 2 t) (iblk1 V c 3 t) (iblk1 V c 4 t) (iblk1 V c 5 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    isplitl [HS1]; · iexists _; iexact HS1
    iintro ⟨H0, H1, H2, H3, H4, H5, H6, H7, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

set_option maxHeartbeats 4800000 in
/-- The body at a point of a middle head: the invariant hands over the two scratch buffers at what the point before left
    and takes them back at this point's contents; the two outputs are handed back untouched. -/
theorem sound_body1_B (c : Dev nD) (t : Fin cfg1.N) (h0 : ¬t.val % 16 = 0) (h1 : ¬t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6 t (fun h => h1 ((hcond1_1 t).mp h))) (noFlush1_6 t (fun h => h1 ((hcond1_1 t).mp h)))]
  rw [Dat.leavesExact_idle (dat1 V c) 7 t (idleAt1_7 t (fun h => h1 ((hcond1_1 t).mp h))) (noFlush1_7 t (fun h => h1 ((hcond1_1 t).mp h)))]
  rw [scAt1_B V c t h0 h1]
  unfold sout1_B_0 sout1_B_1; (try dsimp only)
  have hz : t.val ≠ 0 := fun e => h0 (by rw [e])
  rw [PhiS1_castSucc V c t, PhiS1_pos V c _ _ hz]
  iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, ⟨%es0, HS0⟩, ⟨%es1, HS1⟩⟩
  isplitl [HS0 HS1 Hr Hg]
  · isplitl [HS0 HS1 Hr]
    · isplitl [HS0 HS1]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _)
        unfold owns; iexists _; isplitr
        swap; · iexact HS1
        ipureintro; exact View.read_writes_of_cover _ _ _ _ _ (scover1_B_1 c _ _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 4800000 in
/-- The body at a point of the last head: the invariant hands over the two scratch buffers at what the point before left
    and takes them back at this point's contents; both outputs are stored whole. -/
theorem sound_body1_C (c : Dev nD) (t : Fin cfg1.N) (h0 : ¬t.val % 16 = 0) (h1 : t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t ((hcond1_1 t).mpr h1)], after1_6, outAt1_6_C V c t h0 h1]
  rw [show (dat1 V c).leavesExact 7 t = owns (c : Thread nD τ) (ms1_7 t) fullShare ((dat1 V c).after 7 t) from by
    unfold Dat.leavesExact; rw [liveAt1_7 t ((hcond1_1 t).mpr h1)], after1_7, outAt1_7_C V c t h0 h1]
  rw [scAt1_C V c t h0 h1]
  unfold out1_C_6 out1_C_7 sout1_C_0 sout1_C_1; (try dsimp only)
  have hz : t.val ≠ 0 := fun e => h0 (by rw [e])
  rw [PhiS1_castSucc V c t, PhiS1_pos V c _ _ hz]
  iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, ⟨%e6, H6⟩, ⟨%e7, H7⟩, ⟨%es0, HS0⟩, ⟨%es1, HS1⟩⟩
  isplitl [HS0 HS1 Hr Hg]
  · isplitl [HS0 HS1 Hr]
    · isplitl [HS0 HS1]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ _)
        unfold owns; iexists _; isplitr
        swap; · iexact HS1
        ipureintro; exact View.read_writes_of_cover _ _ _ _ _ (scover1_C_1 c _ _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover1_C_6 c _ _ _ _ _ _ _ _ _ _ _ _ _ _ _ _ _ _ _ _ _ _ _ _ _ _ _ _ _ _ _)
  unfold owns; iexists _; isplitr
  swap; · iexact H7
  ipureintro; exact View.read_writes_of_cover _ _ _ _ _ (cover1_C_7 c _ _ _ _ _ _ _ _ _ _ _ _ _ _ _ _ _ _ _ _ _ _ _ _ _ _ _ _ _ _ _)

/-- The body at any point: the closed forms say which case the point is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 16 = 0
  · exact sound_body1_A V c t h0
  · by_cases h1 : t.val % 16 = 15
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- After the last point the invariant gives the class's back. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.K.Run.lean ====
import proofs.«146015_j42408507080997_2_alg».proof.Proof.Gen.Kernel.Launch
import proofs.«146015_j42408507080997_2_alg».proof.Proof.Gen.Kernel.Skeleton
import proofs.«146015_j42408507080997_2_alg».proof.Proof.Gen.Kernel.Points
import proofs.«146015_j42408507080997_2_alg».proof.Proof.Gen.Kernel.Regions
import proofs.«146015_j42408507080997_2_alg».proof.Proof.K.R0
import proofs.«146015_j42408507080997_2_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a host stretch, the first region, a host stretch, the second region

## The buffer contents at each boundary: a fold through @main -/

/-- Core `c`'s buffers at launch. -/
abbrev W0 : Dev nD → Valuation τ sig (Elt F) := fun c b => (s₀ m ρ).mem ((c : Dev nD), b)
/-- After the first host stretch (the transposed, narrowed projection weights): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the transposed, narrowed output weights): the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

/-- Argument 0 reaches the end as launched: no host operation writes it and each region only reads it or passes it by. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 3).trans (((dat1 (V3 m ρ) c).arrAt_in 3 rfl _).trans (A_eq1 (V3 m ρ) c 3))
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

/-- Argument 1 reaches the end as launched: no host operation writes it and each region only reads it or passes it by. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- Argument 2 reaches the end as launched: no host operation writes it and each region only reads it or passes it by. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl

/-- Argument 3 reaches the end as launched: no host operation writes it and each region only reads it or passes it by. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_writes_sub hostOps0 _ hostOps0_writes (by decide)
    _ = m ((c : Thread nD τ).loc main_arg3) := rfl

/-- Argument 4 reaches the end as launched: no host operation writes it and each region only reads it or passes it by. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- Argument 5 reaches the end as launched: no host operation writes it and each region only reads it or passes it by. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 4).trans (((dat0 (V1 m ρ) c).arrAt_in 4 rfl _).trans (A_eq0 (V1 m ρ) c 4))
    _ = W0 m ρ c (Proc.devRef .tc main_arg5) := StableHlo.after_of_writes_sub hostOps0 _ hostOps0_writes (by decide)
    _ = m ((c : Thread nD τ).loc main_arg5) := rfl

/-- Argument 6 reaches the end as launched: no host operation writes it and each region only reads it or passes it by. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- Argument 7 reaches the end as launched: no host operation writes it and each region only reads it or passes it by. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 5).trans (((dat1 (V3 m ρ) c).arrAt_in 5 rfl _).trans (A_eq1 (V3 m ρ) c 5))
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ## The proof data family and the thread state -/

/-- No pipeline has a prefetched table. -/
abbrev adm : (p : Fin 2) → (pcfgs (F := F) p).Adm := fun p => (cfgs p).toPCfg_adm
/-- Every pipeline's proof data, each at its region's entry contents — a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-- The first region's invariant is the plain one at every point; the second region's names its two accumulators. -/
theorem hinΦ0 (c : Dev nD) : Pipeline.ΦA spec0 c ⊢ (pdats m ρ 0 c).Φ 0 := BI.Entails.refl _
theorem houtΦ0 (c : Dev nD) : (pdats m ρ 0 c).Φ (Fin.last _) ⊢ Pipeline.ΦA spec0 c := BI.Entails.refl _
theorem hinΦ1 (c : Dev nD) : Pipeline.ΦA spec1 c ⊢ (pdats m ρ 1 c).Φ 0 := hin1 (V3 m ρ) c
theorem houtΦ1 (c : Dev nD) : (pdats m ρ 1 c).Φ (Fin.last _) ⊢ Pipeline.ΦA spec1 c := hout1 (V3 m ρ) c

/-! ## The regions as segments -/

-- the region's layout facts are stated over the pinned configuration, which is the printed one by unfolding
set_option backward.isDefEq.respectTransparency.types false in
/-- Region 0 over the thread state: entered from every unscoped buffer at the contents before it, left at the contents
    after it; its arrays split out of the unscoped buffers and put back at what the write-backs leave; the generator
    register into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hinΦ0 m ρ c)
    unfold Pipeline.ΦA
    iintro ⟨Hp, -, Hr⟩
    isplitl [Hr]; · iexact Hr
    iexact Hp
  hout c := by
    refine (houtΦ0 m ρ c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the region's layout facts are stated over the pinned configuration, which is the printed one by unfolding
set_option backward.isDefEq.respectTransparency.types false in
/-- Region 1 over the thread state: entered from every unscoped buffer at the contents before it, left at the contents
    after it; its arrays split out of the unscoped buffers and put back at what the write-backs leave; the generator
    register into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hinΦ1 m ρ c)
    unfold Pipeline.ΦA
    iintro ⟨Hp, -, Hr⟩
    isplitl [Hr]; · iexact Hr
    iexact Hp
  hout c := by
    refine (houtΦ1 m ρ c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates without a fault, and the final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

/-- The run with the two results named: after the run the first result holds what the second region's write-backs leave in
    its window 6's array and the second what they leave in window 7's; the arguments are unchanged. -/
theorem run_vals : θ_run defs (onTc (τ := τ) (main (F := F))) ⟨m, fun _ => 0, ρ⟩ (fun r => ∀ c : Dev nD,
      r.2.mem ((c.tc : Thread nD τ).loc main_v5_0) = (dat1 (V3 m ρ) c).arrAt 6 cfg1.N
      ∧ r.2.mem ((c.tc : Thread nD τ).loc main_v5_1) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v5_0 (by decide))).trans (W4_arr m ρ c 6),
     (h c _ (mem_uc main_v5_1 (by decide))).trans (W4_arr m ρ c 7),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

end Cert.Kernel.Hand

end
-- ==== Proof.KI.R0.lean ====
import proofs.«146015_j42408507080997_2_alg».proof.Proof.Gen.KernelIdeal.Launch
import proofs.«146015_j42408507080997_2_alg».proof.Proof.Gen.KernelIdeal.Skeleton
import proofs.«146015_j42408507080997_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The first region: layer normalisation and the q/k/v projection

Five input windows — the 512-row block of the activations, the normalisation's scale and shift, the bf16 projection
matrix and its bias — and three output windows, the head-major blocks of q, k (f32) and v (bf16). -/

/-- Window `w`'s block at grid point `t`, read off its array as the first region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's staging buffer holds its block at every point

Whether or not the window is fetched at the point: where it is not, its block index has not moved since the last
fetch, and the body leaves an input's buffer as it found it. One statement per input window, for any proof data whose
array is the entry contents and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through: each staging buffer whole -/

abbrev rX : Rect S1x512x1024 := Rect.unit (s := S1x512x1024) ![0, 0, 0] S1x512x1024.size inb_S1x512x1024_S1x512x1024_0_0_0
abbrev rG : Rect S1024 := Rect.unit (s := S1024) ![0] S1024.size inb_S1024_S1024_0
abbrev rW : Rect S1024x3072 := Rect.unit (s := S1024x3072) ![0, 0] S1024x3072.size inb_S1024x3072_S1024x3072_0_0
abbrev rB : Rect S3072 := Rect.unit (s := S3072) ![0] S3072.size inb_S3072_S3072_0
abbrev rO : Rect S1x16x512x64 := Rect.unit (s := S1x16x512x64) ![0, 0, 0, 0] S1x16x512x64.size inb_S1x16x512x64_S1x16x512x64_0_0_0_0

/-! ## What the body leaves in each output window's buffer

One whole-block store per output. The payloads: `k0_pay4` is the normalised block times the projection matrix plus
the bias (512 × 3072); `k0_pay5` its first 1024 columns regrouped head-major; `k0_pay1`, `k0_pay2`, `k0_pay3` the
q, k and v blocks cut from it. -/

/-- The q block after the body, from the five input blocks. -/
def out0_5 (x0 : Vec F S1x512x1024 .f32) (x1 x2 : Vec F S1024 .f32) (x3 : Vec F S1024x3072 .bf16) (x4 : Vec F S3072 .f32) : Vec F S1x16x512x64 .f32 :=
  View.canon [⟨rO, k0_pay1 (k0_pay5 (View.ld x0 rX) (View.ld x1 rG) (View.ld x2 rG) (View.ld x3 rW) (View.ld x4 rB))⟩]

/-- The k block after the body. -/
def out0_6 (x0 : Vec F S1x512x1024 .f32) (x1 x2 : Vec F S1024 .f32) (x3 : Vec F S1024x3072 .bf16) (x4 : Vec F S3072 .f32) : Vec F S1x16x512x64 .f32 :=
  View.canon [⟨rO, k0_pay2 (k0_pay4 (View.ld x0 rX) (View.ld x1 rG) (View.ld x2 rG) (View.ld x3 rW) (View.ld x4 rB))⟩]

/-- The v block after the body (bf16). -/
def out0_7 (x0 : Vec F S1x512x1024 .f32) (x1 x2 : Vec F S1024 .f32) (x3 : Vec F S1024x3072 .bf16) (x4 : Vec F S3072 .f32) : Vec F S1x16x512x64 .bf16 :=
  View.canon [⟨rO, k0_pay3 (k0_pay4 (View.ld x0 rX) (View.ld x1 rG) (View.ld x2 rG) (View.ld x3 rW) (View.ld x4 rB))⟩]

/-- A store through the whole-block rectangle covers the block, whatever the element type and the payload. -/
theorem cover0 {e : EltTy} (p0 : Vec F S1x16x512x64 e) (y : S1x16x512x64.Idx) :
    ∃ pc ∈ ([⟨rO, p0⟩] : List (View.Piece (Elt F) S1x16x512x64 e)), y ∈ pc.1.set :=
  View.cover_of_tiled [⟨rO, p0⟩] S1x16x512x64.size (by rfl) y

/-! ## The body's triple -/

set_option maxHeartbeats 1000000 in
/-- The body on whole staging buffers, the inputs' reading `x0 … x4` and the outputs' holding anything, runs to the
    continuation with the inputs' untouched and each output's holding `out0_W` of the inputs. The body reads each
    output buffer before overwriting it whole; what it reads is never used. -/
theorem sound_kernel0 (c : Dev nD) (E : Set ℕ) (i : grid0.Coords)
    (arg2 : Memref sig .tc .vmem S1x512x1024 .f32) (harg2 : arg2.IsWhole)
    (arg3 : Memref sig .tc .vmem S1024 .f32) (harg3 : arg3.IsWhole)
    (arg4 : Memref sig .tc .vmem S1024 .f32) (harg4 : arg4.IsWhole)
    (arg5 : Memref sig .tc .vmem S1024x3072 .bf16) (harg5 : arg5.IsWhole)
    (arg6 : Memref sig .tc .vmem S3072 .f32) (harg6 : arg6.IsWhole)
    (arg7 : Memref sig .tc .vmem S1x16x512x64 .f32) (harg7 : arg7.IsWhole)
    (arg8 : Memref sig .tc .vmem S1x16x512x64 .f32) (harg8 : arg8.IsWhole)
    (arg9 : Memref sig .tc .vmem S1x16x512x64 .bf16) (harg9 : arg9.IsWhole)
    (x0 : Vec F S1x512x1024 .f32) (x1 x2 : Vec F S1024 .f32) (x3 : Vec F S1024x3072 .bf16) (x4 : Vec F S3072 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out0_5 x0 x1 x2 x3 x4) ∗ owns (c : Thread nD τ) arg8 fullShare (out0_6 x0 x1 x2 x3 x4) ∗ owns (c : Thread nD τ) arg9 fullShare (out0_7 x0 x1 x2 x3 x4)) -∗ K ⟨⟩))
      ⊢ wp frame (wpE (defs₀ (F := F)) Variants.none c none) E (cc0__ln_qkv_kernel i arg2 harg2 arg3 harg3 arg4 harg4 arg5 harg5 arg6 harg6 arg7 harg7 arg8 harg8 arg9 harg9) K := by
  simp only [cc0__ln_qkv_kernel_eq_skeleton]; unfold cc0__ln_qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The pipeline's proof data -/

/-- The proof data of the first pipeline on core `c`: the arrays as the region finds them; after the body at point
    `t` each input's buffer at its block and each output's at `out0_W` of the five input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1s.lean ====
import proofs.«146015_j42408507080997_2_alg».proof.Proof.Gen.KernelIdeal.Launch
import proofs.«146015_j42408507080997_2_alg».proof.Proof.Gen.KernelIdeal.Skeleton
import proofs.«146015_j42408507080997_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid coordinates -/

/-- The head index (the last grid coordinate) is 0: the point zeroes both scratch buffers first. -/
abbrev cond1_0 (i : grid1.Coords) : Prop := (Scalar.cmpi .ne (Scalar.extui (Scalar.cmpi .eq (BitVec.ofNat 32 (i 2).val) 0#32)) 0#32) = 1#1
/-- It holds at the points ≡ 0 (mod 16) — decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-- The head index is 15: the point stores both output windows. -/
abbrev cond1_1 (i : grid1.Coords) : Prop := k1_cond2 i = 1#1
/-- It holds at the points ≡ 15 (mod 16) — decided over the grid. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Input window 0 is never idle. -/
theorem liveAt1_0 : ∀ t : Fin cfg1.N, cfg1.idle 0 (grid1.coords t) = false := fun _ => rfl
/-- Input window 1 is never idle. -/
theorem liveAt1_1 : ∀ t : Fin cfg1.N, cfg1.idle 1 (grid1.coords t) = false := fun _ => rfl
/-- Input window 2 is never idle. -/
theorem liveAt1_2 : ∀ t : Fin cfg1.N, cfg1.idle 2 (grid1.coords t) = false := fun _ => rfl
/-- Input window 3 is never idle. -/
theorem liveAt1_3 : ∀ t : Fin cfg1.N, cfg1.idle 3 (grid1.coords t) = false := fun _ => rfl
/-- Input window 4 is never idle. -/
theorem liveAt1_4 : ∀ t : Fin cfg1.N, cfg1.idle 4 (grid1.coords t) = false := fun _ => rfl
/-- Input window 5 is never idle. -/
theorem liveAt1_5 : ∀ t : Fin cfg1.N, cfg1.idle 5 (grid1.coords t) = false := fun _ => rfl
/-- Away from the last head the configuration calls output 6 idle: nothing is stored into it. -/
theorem idleAt1_6 : ∀ t : Fin cfg1.N, ¬cond1_1 (grid1.coords t) → cfg1.idle 6 (grid1.coords t) = true := by decide +kernel
/-- and the pipeline does not write its block back there. -/
theorem noFlush1_6 : ∀ t : Fin cfg1.N, ¬cond1_1 (grid1.coords t) → (cfg1.win 6).flush t = false := by decide +kernel
/-- At the last head output 6 is live: the point stores it whole. -/
theorem liveAt1_6 : ∀ t : Fin cfg1.N, cond1_1 (grid1.coords t) → cfg1.idle 6 (grid1.coords t) = false := by decide +kernel
/-- Away from the last head the configuration calls output 7 idle: nothing is stored into it. -/
theorem idleAt1_7 : ∀ t : Fin cfg1.N, ¬cond1_1 (grid1.coords t) → cfg1.idle 7 (grid1.coords t) = true := by decide +kernel
/-- and the pipeline does not write its block back there. -/
theorem noFlush1_7 : ∀ t : Fin cfg1.N, ¬cond1_1 (grid1.coords t) → (cfg1.win 7).flush t = false := by decide +kernel
/-- At the last head output 7 is live: the point stores it whole. -/
theorem liveAt1_7 : ∀ t : Fin cfg1.N, cond1_1 (grid1.coords t) → cfg1.idle 7 (grid1.coords t) = false := by decide +kernel

/-! ## The memrefs the body is called with -/

abbrev ms1_0 (t : Fin cfg1.N) : Memref sig .tc .vmem S1x1x512x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16x2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x16x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512x2048 .f32 := win1_7.stage (cfg1.slots t 7)
abbrev hs1_7 (t : Fin cfg1.N) : (ms1_7 t).IsWhole := hstage1_7 ((cfg1.slots t 7).cast nbuf1_7)
/-- The two scratch operands: whole scoped buffers of the kernel's own. -/
abbrev scM1_0 : Memref sig .tc .vmem S512x1024 .f32 := Memref.whole cc1_scratch0
abbrev scM1_1 : Memref sig .tc .vmem S512x2048 .f32 := Memref.whole cc1_scratch1
/-- The views through which the outputs' and the scratch buffers' contents are stated. -/
abbrev VO1_6 : View sig .tc .vmem S1x512x1024 .f32 := (Memref.whole cc1_stg6_0 : Memref sig .tc .vmem S1x512x1024 .f32).view
abbrev VO1_7 : View sig .tc .vmem S1x512x2048 .f32 := (Memref.whole cc1_stg7_0 : Memref sig .tc .vmem S1x512x2048 .f32).view
abbrev VS1_0 : View sig .tc .vmem S512x1024 .f32 := scM1_0.view
abbrev VS1_1 : View sig .tc .vmem S512x2048 .f32 := scM1_1.view

/-! ## The region invariant's scoped part, split at the two scratch buffers -/

/-- Every scoped buffer of the core that is neither a staging buffer of this call nor one of its two scratch
    buffers, at some contents: carried unopened. -/
abbrev Rest1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ Rest1 c) ∗ (∃ r, prngReg c r)) := by
  unfold Pipeline.ΦA
  rw [Pipeline.scopedRest_split_of_list spec1 c [cc1_scratch0, cc1_scratch1] (by decide) (by decide)]
  simp only [scM1_0, scM1_1, owns_whole]; try rfl

end Cert.KernelIdeal.Hand

end
-- ==== Proof.KI.R1a.lean ====
import proofs.«146015_j42408507080997_2_alg».proof.Proof.KI.R1s

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the first head (the scratch buffers zeroed first, the outputs not stored): on whole memrefs — the
    inputs' at their contents, the two outputs' at contents handed back untouched, the two scratch buffers at anything —
    it runs to the continuation holding the inputs and the outputs as they were and each scratch buffer with the
    pieces its stores wrote. -/
noncomputable def kernelRun1_A (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) :
    Σ' (LS0 : List (View.Piece (Elt F) S512x1024 .f32)), { LS1 : List (View.Piece (Elt F) S512x2048 .f32) //
      ∀ (xi6 : Vec F S1x512x1024 .f32) (xi7 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10 arg11 harg11 arg12 harg12) K } := by
  refine ⟨?_, ?_, fun xi6 xi7 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    iexists _; iexact HS1

end Cert.KernelIdeal.Hand

end
-- ==== Proof.KI.R1b.lean ====
import proofs.«146015_j42408507080997_2_alg».proof.Proof.KI.R1s

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of a middle head (nothing zeroed, the outputs not stored): on whole memrefs — the inputs' at their
    contents, the two outputs' at contents handed back untouched, the two scratch buffers at what the point before left —
    it runs to the continuation holding the inputs and the outputs as they were and each scratch buffer with the
    pieces its stores wrote. -/
noncomputable def kernelRun1_B (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) :
    Σ' (LS0 : List (View.Piece (Elt F) S512x1024 .f32)), { LS1 : List (View.Piece (Elt F) S512x2048 .f32) //
      ∀ (xi6 : Vec F S1x512x1024 .f32) (xi7 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10 arg11 harg11 arg12 harg12) K } := by
  refine ⟨?_, ?_, fun xi6 xi7 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7
    obtain rfl := harg11.eq_unread hfs0; obtain rfl := harg12.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    iexists _; iexact HS1

end Cert.KernelIdeal.Hand

end
-- ==== Proof.KI.R1c.lean ====
import proofs.«146015_j42408507080997_2_alg».proof.Proof.KI.R1s

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the last head (nothing zeroed, both outputs stored whole): on whole memrefs — the inputs' at
    their contents, the two outputs' at anything, the two scratch buffers at what the point before left — it runs to
    the continuation holding the inputs as they were and each output and each scratch buffer with the pieces its
    stores wrote. -/
noncomputable def kernelRun1_C (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) :
    Σ' (L6 : List (View.Piece (Elt F) S1x512x1024 .f32)) (L7 : List (View.Piece (Elt F) S1x512x2048 .f32)) (LS0 : List (View.Piece (Elt F) S512x1024 .f32)), { LS1 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg11.eq_unread hfs0; obtain rfl := harg12.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [HS0]; · iexists _; iexact HS0
    iexists _; iexact HS1

end Cert.KernelIdeal.Hand

end
-- ==== Proof.KI.R1.lean ====
import proofs.«146015_j42408507080997_2_alg».proof.Proof.KI.R1a
import proofs.«146015_j42408507080997_2_alg».proof.Proof.KI.R1b
import proofs.«146015_j42408507080997_2_alg».proof.Proof.KI.R1c

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the second region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is the region-entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is the region-entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is the region-entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is the region-entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof data
    whose array is the region-entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the scratch buffers and the outputs -/

/-- Case A's pieces for the first scratch buffer cover it (whole-shape stores: the pieces tile the shape). -/
theorem scover1_A_0 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (y : S512x1024.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).1 S512x1024.size (by sl_kernel_rfl) y

/-- What case A leaves in the first scratch buffer: its pieces read back. -/
def sout1_A_0 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) : Vec F S512x1024 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3 x4 x5).1)

/-- Case A's pieces for the second scratch buffer cover it (whole-shape stores: the pieces tile the shape). -/
theorem scover1_A_1 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (y : S512x2048.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.1 S512x2048.size (by sl_kernel_rfl) y

/-- What case A leaves in the second scratch buffer: its pieces read back. -/
def sout1_A_1 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) : Vec F S512x2048 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 hc0 hc1 x0 x1 x2 x3 x4 x5).2.1)

/-- Case B's pieces for the first scratch buffer cover it (whole-shape stores: the pieces tile the shape). -/
theorem scover1_B_0 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) (y : S512x1024.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1).1 S512x1024.size (by sl_kernel_rfl) y

/-- What case B leaves in the first scratch buffer: its pieces read back. -/
def sout1_B_0 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) : Vec F S512x1024 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1).1)

/-- Case B's pieces for the second scratch buffer cover it (whole-shape stores: the pieces tile the shape). -/
theorem scover1_B_1 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) (y : S512x2048.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1).2.1 S512x2048.size (by sl_kernel_rfl) y

/-- What case B leaves in the second scratch buffer: its pieces read back. -/
def sout1_B_1 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) : Vec F S512x2048 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for output window 6's staging buffer cover it (whole-shape stores: the pieces tile the shape). -/
theorem cover1_C_6 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) (y : S1x512x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).1 S1x512x1024.size (by sl_kernel_rfl) y

/-- What case C leaves in output window 6's staging buffer: its pieces read back. -/
def out1_C_6 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) : Vec F S1x512x1024 .f32 :=
  VO1_6.read (Elt F) (VO1_6.writes (Elt F) VO1_6.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).1)

/-- Case C's pieces for output window 7's staging buffer cover it (whole-shape stores: the pieces tile the shape). -/
theorem cover1_C_7 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) (y : S1x512x2048.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.1 S1x512x2048.size (by sl_kernel_rfl) y

/-- What case C leaves in output window 7's staging buffer: its pieces read back. -/
def out1_C_7 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) : Vec F S1x512x2048 .f32 :=
  VO1_7.read (Elt F) (VO1_7.writes (Elt F) VO1_7.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for the first scratch buffer cover it (whole-shape stores: the pieces tile the shape). -/
theorem scover1_C_0 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) (y : S512x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.2.1 S512x1024.size (by sl_kernel_rfl) y

/-- What case C leaves in the first scratch buffer: its pieces read back. -/
def sout1_C_0 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) : Vec F S512x1024 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case C's pieces for the second scratch buffer cover it (whole-shape stores: the pieces tile the shape). -/
theorem scover1_C_1 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) (y : S512x2048.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.2.2.1 S512x2048.size (by sl_kernel_rfl) y

/-- What case C leaves in the second scratch buffer: its pieces read back. -/
def sout1_C_1 (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) : Vec F S512x2048 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-! ## What the scratch buffers hold after each point -/

/-- At a point of the first head the last-head condition fails. -/
theorem not15_of_0 (t : Fin cfg1.N) (h0 : t.val % 16 = 0) : ¬cond1_1 (grid1.coords t) :=
  fun h => by have := (hcond1_1 t).mp h; omega

/-- THE ACCUMULATION. What the two scratch buffers hold after the body at position `n`: the case the closed forms
    select there, run at the point's memrefs and input blocks; away from the first head over what the point before
    left (at the first head the body zeroes both before reading them). -/
def scAt1 (c : Dev nD) : (n : ℕ) → n < cfg1.N → Vec F S512x1024 .f32 × Vec F S512x2048 .f32
  | 0, hn => (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (not15_of_0 ⟨0, hn⟩ (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (not15_of_0 ⟨0, hn⟩ (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      (sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (not15_of_0 ⟨n + 1, hn⟩ h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (not15_of_0 ⟨n + 1, hn⟩ h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (scAt1 c n (Nat.lt_of_succ_lt hn)).1 (scAt1 c n (Nat.lt_of_succ_lt hn)).2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (scAt1 c n (Nat.lt_of_succ_lt hn)).1 (scAt1 c n (Nat.lt_of_succ_lt hn)).2)
      else
        (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (scAt1 c n (Nat.lt_of_succ_lt hn)).1 (scAt1 c n (Nat.lt_of_succ_lt hn)).2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (scAt1 c n (Nat.lt_of_succ_lt hn)).1 (scAt1 c n (Nat.lt_of_succ_lt hn)).2)

/-- `scAt1` at a point of the first head. -/
theorem scAt1_A (c : Dev nD) (t : Fin cfg1.N) (h0 : t.val % 16 = 0) :
    scAt1 V c t.val t.isLt = (sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (not15_of_0 t h0) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (not15_of_0 t h0) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans rfl

/-- `scAt1` at a point of a middle head: over what the point before left. -/
theorem scAt1_B (c : Dev nD) (t : Fin cfg1.N) (h0 : ¬t.val % 16 = 0) (h1 : ¬t.val % 16 = 15) :
    scAt1 V c t.val t.isLt = (sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `scAt1` at a point of the last head: over what the point before left. -/
theorem scAt1_C (c : Dev nD) (t : Fin cfg1.N) (h0 : ¬t.val % 16 = 0) (h1 : t.val % 16 = 15) :
    scAt1 V c t.val t.isLt = (sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What output window 6's staging buffer holds after the body at point `t`: at the last head what the stores
    leave, over the scratch of the point before; elsewhere nothing is stored (a placeholder nothing consults). -/
def outAt1_6 (c : Dev nD) (t : Fin cfg1.N) : Vec F S1x512x1024 .f32 :=
  if h1 : t.val % 16 = 15 then
    out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => (fun h0 : t.val % 16 = 0 => by omega) ((hcond1_0 t).mp h)) ((hcond1_1 t).mpr h1) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2
  else VO1_6.read (Elt F) VO1_6.junk
/-- The same for output window 7. -/
def outAt1_7 (c : Dev nD) (t : Fin cfg1.N) : Vec F S1x512x2048 .f32 :=
  if h1 : t.val % 16 = 15 then
    out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => (fun h0 : t.val % 16 = 0 => by omega) ((hcond1_0 t).mp h)) ((hcond1_1 t).mpr h1) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2
  else VO1_7.read (Elt F) VO1_7.junk

theorem outAt1_6_C (c : Dev nD) (t : Fin cfg1.N) (h0 : ¬t.val % 16 = 0) (h1 : t.val % 16 = 15) :
    outAt1_6 V c t = out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2 :=
  dif_pos h1
theorem outAt1_7_C (c : Dev nD) (t : Fin cfg1.N) (h0 : ¬t.val % 16 = 0) (h1 : t.val % 16 = 15) :
    outAt1_7 V c t = out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2 :=
  dif_pos h1

/-! ## The region invariant, tracking the two scratch buffers -/

/-- Before the first point the class's invariant (every scratch at anything); afterwards the two scratch buffers at what
    the point before left, the other scoped buffers at anything, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((scAt1 V c n hn).1) ∗ owns (c : Thread nD τ) scM1_1 fullShare ((scAt1 V c n hn).2)) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((scAt1 V c n hn).1) ∗ owns (c : Thread nD τ) scM1_1 fullShare ((scAt1 V c n hn).2)) ∗ Rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((scAt1 V c (n - 1) (by omega)).1) ∗ owns (c : Thread nD τ) scM1_1 fullShare ((scAt1 V c (n - 1) (by omega)).2)) ∗ Rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1_6 V c t
    | ⟨7, _⟩ => outAt1_7 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1_6 V c t := by dsimp only [dat1]
theorem after1_7 (c : Dev nD) (t : Fin cfg1.N) : (dat1 V c).after 7 t = outAt1_7 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at a point of the first head: the invariant hands over the two scratch buffers at anything (the class's
    invariant at the first point, what the point before left elsewhere) and takes them back at this point's contents;
    the two outputs are handed back untouched. -/
theorem sound_body1_A (c : Dev nD) (t : Fin cfg1.N) (h0 : t.val % 16 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6 t (not15_of_0 t h0)) (noFlush1_6 t (not15_of_0 t h0))]
  rw [Dat.leavesExact_idle (dat1 V c) 7 t (idleAt1_7 t (not15_of_0 t h0)) (noFlush1_7 t (not15_of_0 t h0))]
  rw [scAt1_A V c t h0]
  unfold sout1_A_0 sout1_A_1; (try dsimp only)
  by_cases hz : t.val = 0
  · rw [PhiS1_castSucc V c t, PhiS1_zero V c _ _ hz, PhiA1_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ _ _ ((hcond1_0 t).mpr h0) (not15_of_0 t h0) (iblk1 V c 0 t) (iblk1 V c 1 t) (iblk1 V c 2 t) (iblk1 V c 3 t) (iblk1 V c 4 t) (iblk1 V c 5 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · rw [PhiS1_castSucc V c t, PhiS1_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ _ _ ((hcond1_0 t).mpr h0) (not15_of_0 t h0) (iblk1 V c 0 t) (iblk1 V c 1 t) (iblk1 V c 2 t) (iblk1 V c 3 t) (iblk1 V c 4 t) (iblk1 V c 5 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    isplitl [HS1]; · iexists _; iexact HS1
    iintro ⟨H0, H1, H2, H3, H4, H5, H6, H7, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

set_option maxHeartbeats 4800000 in
/-- The body at a point of a middle head: the invariant hands over the two scratch buffers at what the point before left
    and takes them back at this point's contents; the two outputs are handed back untouched. -/
theorem sound_body1_B (c : Dev nD) (t : Fin cfg1.N) (h0 : ¬t.val % 16 = 0) (h1 : ¬t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6 t (fun h => h1 ((hcond1_1 t).mp h))) (noFlush1_6 t (fun h => h1 ((hcond1_1 t).mp h)))]
  rw [Dat.leavesExact_idle (dat1 V c) 7 t (idleAt1_7 t (fun h => h1 ((hcond1_1 t).mp h))) (noFlush1_7 t (fun h => h1 ((hcond1_1 t).mp h)))]
  rw [scAt1_B V c t h0 h1]
  unfold sout1_B_0 sout1_B_1; (try dsimp only)
  have hz : t.val ≠ 0 := fun e => h0 (by rw [e])
  rw [PhiS1_castSucc V c t, PhiS1_pos V c _ _ hz]
  iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, ⟨%es0, HS0⟩, ⟨%es1, HS1⟩⟩
  isplitl [HS0 HS1 Hr Hg]
  · isplitl [HS0 HS1 Hr]
    · isplitl [HS0 HS1]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _)
        unfold owns; iexists _; isplitr
        swap; · iexact HS1
        ipureintro; exact View.read_writes_of_cover _ _ _ _ _ (scover1_B_1 c _ _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 4800000 in
/-- The body at a point of the last head: the invariant hands over the two scratch buffers at what the point before left
    and takes them back at this point's contents; both outputs are stored whole. -/
theorem sound_body1_C (c : Dev nD) (t : Fin cfg1.N) (h0 : ¬t.val % 16 = 0) (h1 : t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t ((hcond1_1 t).mpr h1)], after1_6, outAt1_6_C V c t h0 h1]
  rw [show (dat1 V c).leavesExact 7 t = owns (c : Thread nD τ) (ms1_7 t) fullShare ((dat1 V c).after 7 t) from by
    unfold Dat.leavesExact; rw [liveAt1_7 t ((hcond1_1 t).mpr h1)], after1_7, outAt1_7_C V c t h0 h1]
  rw [scAt1_C V c t h0 h1]
  unfold out1_C_6 out1_C_7 sout1_C_0 sout1_C_1; (try dsimp only)
  have hz : t.val ≠ 0 := fun e => h0 (by rw [e])
  rw [PhiS1_castSucc V c t, PhiS1_pos V c _ _ hz]
  iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, ⟨%e6, H6⟩, ⟨%e7, H7⟩, ⟨%es0, HS0⟩, ⟨%es1, HS1⟩⟩
  isplitl [HS0 HS1 Hr Hg]
  · isplitl [HS0 HS1 Hr]
    · isplitl [HS0 HS1]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ _)
        unfold owns; iexists _; isplitr
        swap; · iexact HS1
        ipureintro; exact View.read_writes_of_cover _ _ _ _ _ (scover1_C_1 c _ _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover1_C_6 c _ _ _ _ _ _ _ _ _ _ _ _ _ _ _ _ _ _ _ _ _ _ _ _ _ _ _ _ _ _ _)
  unfold owns; iexists _; isplitr
  swap; · iexact H7
  ipureintro; exact View.read_writes_of_cover _ _ _ _ _ (cover1_C_7 c _ _ _ _ _ _ _ _ _ _ _ _ _ _ _ _ _ _ _ _ _ _ _ _ _ _ _ _ _ _ _)

/-- The body at any point: the closed forms say which case the point is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 16 = 0
  · exact sound_body1_A V c t h0
  · by_cases h1 : t.val % 16 = 15
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- After the last point the invariant gives the class's back. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KI.Run.lean ====
import proofs.«146015_j42408507080997_2_alg».proof.Proof.Gen.KernelIdeal.Launch
import proofs.«146015_j42408507080997_2_alg».proof.Proof.Gen.KernelIdeal.Skeleton
import proofs.«146015_j42408507080997_2_alg».proof.Proof.Gen.KernelIdeal.Points
import proofs.«146015_j42408507080997_2_alg».proof.Proof.Gen.KernelIdeal.Regions
import proofs.«146015_j42408507080997_2_alg».proof.Proof.KI.R0
import proofs.«146015_j42408507080997_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a host stretch, the first region, a host stretch, the second region

## The buffer contents at each boundary: a fold through @main -/

/-- Core `c`'s buffers at launch. -/
abbrev W0 : Dev nD → Valuation τ sig (Elt F) := fun c b => (s₀ m ρ).mem ((c : Dev nD), b)
/-- After the first host stretch (the transposed, narrowed projection weights): the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the transposed, narrowed output weights): the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

/-- Argument 0 reaches the end as launched: no host operation writes it and each region only reads it or passes it by. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 3).trans (((dat1 (V3 m ρ) c).arrAt_in 3 rfl _).trans (A_eq1 (V3 m ρ) c 3))
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

/-- Argument 1 reaches the end as launched: no host operation writes it and each region only reads it or passes it by. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- Argument 2 reaches the end as launched: no host operation writes it and each region only reads it or passes it by. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl

/-- Argument 3 reaches the end as launched: no host operation writes it and each region only reads it or passes it by. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_writes_sub hostOps0 _ hostOps0_writes (by decide)
    _ = m ((c : Thread nD τ).loc main_arg3) := rfl

/-- Argument 4 reaches the end as launched: no host operation writes it and each region only reads it or passes it by. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- Argument 5 reaches the end as launched: no host operation writes it and each region only reads it or passes it by. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 4).trans (((dat0 (V1 m ρ) c).arrAt_in 4 rfl _).trans (A_eq0 (V1 m ρ) c 4))
    _ = W0 m ρ c (Proc.devRef .tc main_arg5) := StableHlo.after_of_writes_sub hostOps0 _ hostOps0_writes (by decide)
    _ = m ((c : Thread nD τ).loc main_arg5) := rfl

/-- Argument 6 reaches the end as launched: no host operation writes it and each region only reads it or passes it by. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- Argument 7 reaches the end as launched: no host operation writes it and each region only reads it or passes it by. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 5).trans (((dat1 (V3 m ρ) c).arrAt_in 5 rfl _).trans (A_eq1 (V3 m ρ) c 5))
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ## The proof data family and the thread state -/

/-- No pipeline has a prefetched table. -/
abbrev adm : (p : Fin 2) → (pcfgs (F := F) p).Adm := fun p => (cfgs p).toPCfg_adm
/-- Every pipeline's proof data, each at its region's entry contents — a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-- The first region's invariant is the plain one at every point; the second region's names its two accumulators. -/
theorem hinΦ0 (c : Dev nD) : Pipeline.ΦA spec0 c ⊢ (pdats m ρ 0 c).Φ 0 := BI.Entails.refl _
theorem houtΦ0 (c : Dev nD) : (pdats m ρ 0 c).Φ (Fin.last _) ⊢ Pipeline.ΦA spec0 c := BI.Entails.refl _
theorem hinΦ1 (c : Dev nD) : Pipeline.ΦA spec1 c ⊢ (pdats m ρ 1 c).Φ 0 := hin1 (V3 m ρ) c
theorem houtΦ1 (c : Dev nD) : (pdats m ρ 1 c).Φ (Fin.last _) ⊢ Pipeline.ΦA spec1 c := hout1 (V3 m ρ) c

/-! ## The regions as segments -/

-- the region's layout facts are stated over the pinned configuration, which is the printed one by unfolding
set_option backward.isDefEq.respectTransparency.types false in
/-- Region 0 over the thread state: entered from every unscoped buffer at the contents before it, left at the contents
    after it; its arrays split out of the unscoped buffers and put back at what the write-backs leave; the generator
    register into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hinΦ0 m ρ c)
    unfold Pipeline.ΦA
    iintro ⟨Hp, -, Hr⟩
    isplitl [Hr]; · iexact Hr
    iexact Hp
  hout c := by
    refine (houtΦ0 m ρ c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the region's layout facts are stated over the pinned configuration, which is the printed one by unfolding
set_option backward.isDefEq.respectTransparency.types false in
/-- Region 1 over the thread state: entered from every unscoped buffer at the contents before it, left at the contents
    after it; its arrays split out of the unscoped buffers and put back at what the write-backs leave; the generator
    register into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hinΦ1 m ρ c)
    unfold Pipeline.ΦA
    iintro ⟨Hp, -, Hr⟩
    isplitl [Hr]; · iexact Hr
    iexact Hp
  hout c := by
    refine (houtΦ1 m ρ c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates without a fault, and the final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

/-- The run with the two results named: after the run the first result holds what the second region's write-backs leave in
    its window 6's array and the second what they leave in window 7's; the arguments are unchanged. -/
theorem run_vals : θ_run defs (onTc (τ := τ) (main (F := F))) ⟨m, fun _ => 0, ρ⟩ (fun r => ∀ c : Dev nD,
      r.2.mem ((c.tc : Thread nD τ).loc main_v5_0) = (dat1 (V3 m ρ) c).arrAt 6 cfg1.N
      ∧ r.2.mem ((c.tc : Thread nD τ).loc main_v5_1) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v5_0 (by decide))).trans (W4_arr m ρ c 6),
     (h c _ (mem_uc main_v5_1 (by decide))).trans (W4_arr m ρ c 7),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

end Cert.KernelIdeal.Hand

end
-- ==== Proof.KI.Entry.lean ====
import proofs.«146015_j42408507080997_2_alg».proof.Proof.Gen.KernelIdeal.Launch
import proofs.«146015_j42408507080997_2_alg».proof.Proof.Gen.KernelIdeal.Skeleton
import proofs.«146015_j42408507080997_2_alg».proof.Proof.Gen.KernelIdeal.Points
import proofs.«146015_j42408507080997_2_alg».proof.Proof.KI.Run
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-! # What each region finds in its arrays, at the ideal instance

The first host stretch leaves the arguments alone and writes the transposed projection weights (the narrowing to bf16 is
the identity on the extended reals): entry (d, e) of the weights the first region reads is entry (e, d) of the argument.
The second stretch does the same for the output weights; between the stretches the first region's three results are what
its write-backs left, and nothing else changed. -/

theorem V1_arg0 (c : Dev nD) : V1 m ρ c main_arg0 = m ((c : Thread nD τ).loc main_arg0) :=
  StableHlo.after_of_writes_sub hostOps0 _ hostOps0_writes (by decide)
theorem V1_arg2 (c : Dev nD) : V1 m ρ c main_arg2 = m ((c : Thread nD τ).loc main_arg2) :=
  StableHlo.after_of_writes_sub hostOps0 _ hostOps0_writes (by decide)
theorem V1_arg3 (c : Dev nD) : V1 m ρ c main_arg3 = m ((c : Thread nD τ).loc main_arg3) :=
  StableHlo.after_of_writes_sub hostOps0 _ hostOps0_writes (by decide)
theorem V1_arg5 (c : Dev nD) : V1 m ρ c main_arg5 = m ((c : Thread nD τ).loc main_arg5) :=
  StableHlo.after_of_writes_sub hostOps0 _ hostOps0_writes (by decide)

/-- The weights the first region reads are the argument transposed. -/
theorem V1_v1 (c : Dev nD) (d : Fin 1024) (e : Fin 3072) :
    (V1 m ρ c main_v1 : S1024x3072.Idx → EReal) (ix2 d e)
      = (m ((c : Thread nD τ).loc main_arg4) : S3072x1024.Idx → EReal) (ix2 e d) := by
  have h : (V1 m ρ c main_v1 : S1024x3072.Idx → EReal)
      = (truncf (F := Ideal) .bf16 (transpose S1024x3072 [1, 0] (m ((c : Thread nD τ).loc main_arg4) : FVec Ideal S3072x1024 .f32)
          transposes_S3072x1024_S1024x3072_1_0) bitsLt_bf16_f32 : FVec Ideal S1024x3072 .bf16) := by
    show StableHlo.after hostOps0 (W0 m ρ c) (Proc.devRef .tc main_v1) = _
    after_results
  rw [h]
  exact transpose_ix2_apply _ _ d e

/-- The second region reads the layer's input as launched, -/
theorem V3_arg0 (c : Dev nD) : V3 m ρ c main_arg0 = m ((c : Thread nD τ).loc main_arg0) :=
  calc W3 m ρ c (Proc.devRef .tc main_arg0)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
/-- the output bias as launched, -/
theorem V3_arg7 (c : Dev nD) : V3 m ρ c main_arg7 = m ((c : Thread nD τ).loc main_arg7) :=
  calc W3 m ρ c (Proc.devRef .tc main_arg7)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
/-- the queries, keys and values as the first region's write-backs left them, -/
theorem V3_q (c : Dev nD) : V3 m ρ c main_v2_0 = (dat0 (V1 m ρ) c).arrAt 5 cfg0.N :=
  (StableHlo.after_of_writes_sub hostOps1 _ hostOps1_writes (by decide)).trans (W2_arr m ρ c 5)
theorem V3_k (c : Dev nD) : V3 m ρ c main_v2_1 = (dat0 (V1 m ρ) c).arrAt 6 cfg0.N :=
  (StableHlo.after_of_writes_sub hostOps1 _ hostOps1_writes (by decide)).trans (W2_arr m ρ c 6)
theorem V3_v (c : Dev nD) : V3 m ρ c main_v2_2 = (dat0 (V1 m ρ) c).arrAt 7 cfg0.N :=
  (StableHlo.after_of_writes_sub hostOps1 _ hostOps1_writes (by decide)).trans (W2_arr m ρ c 7)

/-- and the output weights transposed. -/
theorem V3_v4 (c : Dev nD) (n e : Fin 1024) :
    (V3 m ρ c main_v4 : S1024x1024.Idx → EReal) (ix2 n e)
      = (m ((c : Thread nD τ).loc main_arg6) : S1024x1024.Idx → EReal) (ix2 e n) := by
  have h6 : W2 m ρ c (Proc.devRef .tc main_arg6) = m ((c : Thread nD τ).loc main_arg6) :=
    (W2_of_ne m ρ c main_arg6 (by decide)).trans (StableHlo.after_of_writes_sub hostOps0 _ hostOps0_writes (by decide))
  have h : (V3 m ρ c main_v4 : S1024x1024.Idx → EReal)
      = (truncf (F := Ideal) .bf16 (transpose S1024x1024 [1, 0] (W2 m ρ c (Proc.devRef .tc main_arg6) : FVec Ideal S1024x1024 .f32)
          transposes_S1024x1024_S1024x1024_1_0) bitsLt_bf16_f32 : FVec Ideal S1024x1024 .bf16) := by
    show StableHlo.after hostOps1 (W2 m ρ c) (Proc.devRef .tc main_v4) = _
    after_results
  rw [h, h6]
  exact transpose_ix2_apply _ _ n e

end Cert.KernelIdeal.Hand

end
-- ==== Proof.RowSpec.lean ====
/-
  The two row-level functions the layer is made of, on the extended reals.
  One row's LayerNorm: the mean is the sum over the 1024 features divided by 1024, the variance the mean of the squared
  deviations, and the normalised row is (x − mean) · (var + ε)^(−1/2) · γ + β; ε and 1024 are kept as the 32-bit float words
  the programs spell them with, never evaluated.
  One row's softmax over its 2048 scores: the maximum is the fold of max from −∞ (the float word of −∞), the weights are
  exp (s − max) divided by their sum.
-/
import Idealize.ShloMosaic.PureOps.Ideal
import Idealize.ShloMosaic.PureOps.Ideal.Laws

noncomputable section

namespace Cert.Spec

open Idealize.ShloMosaic

/-- The float word of 1024. -/
abbrev w1024 : EReal := Ideal.ofBits .f32 0x44800000#32
/-- The float word of the LayerNorm's ε. -/
abbrev wEps : EReal := Ideal.ofBits .f32 0x3727C5AC#32
/-- The float word of −∞. -/
abbrev wNegInf : EReal := Ideal.ofBits .f32 0xFF800000#32

/-- A row's mean over its 1024 features. -/
def rowMean (x : Fin 1024 → EReal) : EReal := Ideal.div (∑ d : Fin 1024, x d) w1024

/-- A row's variance: the mean of the squared deviations from the mean. -/
def rowVar (x : Fin 1024 → EReal) : EReal :=
  Ideal.div (∑ d : Fin 1024, (x d - rowMean x) * (x d - rowMean x)) w1024

/-- One row's LayerNorm with scale `γ` and shift `β`. -/
def lnRow (x γ β : Fin 1024 → EReal) : Fin 1024 → EReal := fun d =>
  (x d - rowMean x) * Ideal.rsqrt (rowVar x + wEps) * γ d + β d

/-- A row's maximum over its 2048 scores, folded from −∞. -/
def rowMax (s : Fin 2048 → EReal) : EReal := (Finset.univ : Finset (Fin 2048)).fold max wNegInf s

/-- A row's unnormalised softmax weights. -/
def expRow (s : Fin 2048 → EReal) : Fin 2048 → EReal := fun k => Ideal.exp (s k - rowMax s)

/-- One row's softmax. -/
def softmaxRow (s : Fin 2048 → EReal) : Fin 2048 → EReal := fun k =>
  Ideal.div (expRow s k) (∑ k' : Fin 2048, expRow s k')

end Cert.Spec

end
-- ==== Proof.Spec.lean ====
/-
  The mathematics both programs compute, as plain functions on the extended reals.

  A pre-LayerNorm self-attention layer over a batch of 2 sequences of 2048 rows of width 1024, with 16 heads of
  width 64, built on the two row-level functions (one row's LayerNorm `lnRow`, one row's softmax `softmaxRow`).
  Every stage is its own definition, a function of the argument arrays it depends on (the arrays are functions of
  literal `Fin` coordinates), so that a proof about either program can be cut stage by stage:

    mean, cen, var   the mean, the centred row and the variance of row (b, s) of x
    xn               lnRow (x b s) γ β:  cen · rsqrt (var + ε) · γ + β
    qkv              the fused projection: (Σ_d xn · W[e, d]) + bias[e], 3072 columns
    q, kk, v         its three thirds, split head-major: column 64·h + j of each third is component j of head h
    sc               the scores: (Σ_j q · kk) / 8
    mx, ex, den      the maximum (from −∞) of the score row (b, h, s), exp (sc − mx), and its sum over the keys
    p                softmaxRow (the score row):  ex / den
    ctx              the context: Σ_k p · v
    out              (Σ_n ctx[head n / 64, component n % 64] · Wo[e, n]) + ob[e] + x        (the residual added last)
    attnW            the attention weights averaged over the heads: (Σ_h p) / 16

  Every operation is the exact extended-real one (`Ideal.div`, `Ideal.rsqrt`, `Ideal.exp`, EReal's +, −, ·, max).
  The float literals 1024, ε, −∞, 8, 16 stay the words the programs carry (`Ideal.ofBits .f32 …`): the same word on
  two sides is never evaluated. Sums are `∑` over `Finset.univ` with no leading zero.
-/
import proofs.«146015_j42408507080997_2_alg».proof.Proof.RowSpec
import Idealize.ShloMosaic.Lib.ValueIdx

noncomputable section

open scoped BigOperators

namespace Cert.Spec

open Idealize.ShloMosaic

/-- The float word of 8 (the square root of the head width). -/
abbrev w8 : EReal := Ideal.ofBits .f32 0x41000000#32
/-- The float word of 16 (the number of heads). -/
abbrev w16 : EReal := Ideal.ofBits .f32 0x41800000#32

/-- The float word of −∞ is the bottom of the extended reals. -/
theorem wNegInf_eq_bot : wNegInf = (⊥ : EReal) := by
  simp [wNegInf, Ideal.ofBits, Ideal.ieee]

/-- The maximum with −∞ on the left is the other operand. -/
theorem max_wNegInf (y : EReal) : max wNegInf y = y := by
  rw [wNegInf_eq_bot]; exact max_eq_right bot_le

/-! ## Columns of the fused projection, and the head and component of a context column -/

/-- The column of the fused projection that holds component `j` of head `h` of the query. -/
def colQ (h : Fin 16) (j : Fin 64) : Fin 3072 :=
  ⟨64 * h.val + j.val, by have := h.isLt; have := j.isLt; omega⟩
/-- … of the key: the second third of the columns. -/
def colK (h : Fin 16) (j : Fin 64) : Fin 3072 :=
  ⟨1024 + (64 * h.val + j.val), by have := h.isLt; have := j.isLt; omega⟩
/-- … of the value: the last third. -/
def colV (h : Fin 16) (j : Fin 64) : Fin 3072 :=
  ⟨2048 + (64 * h.val + j.val), by have := h.isLt; have := j.isLt; omega⟩
/-- The head a column of the concatenated context belongs to. -/
def headOf (n : Fin 1024) : Fin 16 := ⟨n.val / 64, by have := n.isLt; omega⟩
/-- The component, within its head, of a column of the concatenated context. -/
def compOf (n : Fin 1024) : Fin 64 := ⟨n.val % 64, Nat.mod_lt _ (by decide)⟩

@[simp] theorem colQ_val (h : Fin 16) (j : Fin 64) : (colQ h j).val = 64 * h.val + j.val := rfl
@[simp] theorem colK_val (h : Fin 16) (j : Fin 64) : (colK h j).val = 1024 + (64 * h.val + j.val) := rfl
@[simp] theorem colV_val (h : Fin 16) (j : Fin 64) : (colV h j).val = 2048 + (64 * h.val + j.val) := rfl
@[simp] theorem headOf_val (n : Fin 1024) : (headOf n).val = n.val / 64 := rfl
@[simp] theorem compOf_val (n : Fin 1024) : (compOf n).val = n.val % 64 := rfl

/-! ## LayerNorm of the input -/

/-- The mean of row `(b, s)`. -/
def mean (x : Fin 2 → Fin 2048 → Fin 1024 → EReal) (b : Fin 2) (s : Fin 2048) : EReal := rowMean (x b s)

/-- The centred row. -/
def cen (x : Fin 2 → Fin 2048 → Fin 1024 → EReal) (b : Fin 2) (s : Fin 2048) (d : Fin 1024) : EReal :=
  x b s d - mean x b s

/-- The (biased) variance of row `(b, s)`. -/
def var (x : Fin 2 → Fin 2048 → Fin 1024 → EReal) (b : Fin 2) (s : Fin 2048) : EReal := rowVar (x b s)

/-- The normalised row, scaled by `γ` and shifted by `β`. -/
def xn (x : Fin 2 → Fin 2048 → Fin 1024 → EReal) (γ β : Fin 1024 → EReal)
    (b : Fin 2) (s : Fin 2048) : Fin 1024 → EReal :=
  lnRow (x b s) γ β

/-! ## The fused projection and its three head-major thirds -/

/-- The fused query/key/value projection of the normalised row (`W e d`: output column `e`, input feature `d`). -/
def qkv (x : Fin 2 → Fin 2048 → Fin 1024 → EReal) (γ β : Fin 1024 → EReal)
    (W : Fin 3072 → Fin 1024 → EReal) (bias : Fin 3072 → EReal)
    (b : Fin 2) (s : Fin 2048) (e : Fin 3072) : EReal :=
  (∑ d : Fin 1024, xn x γ β b s d * W e d) + bias e

/-- The query, head-major. -/
def q (x : Fin 2 → Fin 2048 → Fin 1024 → EReal) (γ β : Fin 1024 → EReal)
    (W : Fin 3072 → Fin 1024 → EReal) (bias : Fin 3072 → EReal)
    (b : Fin 2) (h : Fin 16) (s : Fin 2048) (j : Fin 64) : EReal :=
  qkv x γ β W bias b s (colQ h j)

/-- The key, head-major. -/
def kk (x : Fin 2 → Fin 2048 → Fin 1024 → EReal) (γ β : Fin 1024 → EReal)
    (W : Fin 3072 → Fin 1024 → EReal) (bias : Fin 3072 → EReal)
    (b : Fin 2) (h : Fin 16) (s : Fin 2048) (j : Fin 64) : EReal :=
  qkv x γ β W bias b s (colK h j)

/-- The value, head-major. -/
def v (x : Fin 2 → Fin 2048 → Fin 1024 → EReal) (γ β : Fin 1024 → EReal)
    (W : Fin 3072 → Fin 1024 → EReal) (bias : Fin 3072 → EReal)
    (b : Fin 2) (h : Fin 16) (s : Fin 2048) (j : Fin 64) : EReal :=
  qkv x γ β W bias b s (colV h j)

/-! ## Attention -/

/-- The score of query row `s` against key row `k` in head `h`. -/
def sc (x : Fin 2 → Fin 2048 → Fin 1024 → EReal) (γ β : Fin 1024 → EReal)
    (W : Fin 3072 → Fin 1024 → EReal) (bias : Fin 3072 → EReal)
    (b : Fin 2) (h : Fin 16) (s k : Fin 2048) : EReal :=
  Ideal.div (∑ j : Fin 64, q x γ β W bias b h s j * kk x γ β W bias b h k j) w8

/-- The maximum score of a query row, from −∞. -/
def mx (x : Fin 2 → Fin 2048 → Fin 1024 → EReal) (γ β : Fin 1024 → EReal)
    (W : Fin 3072 → Fin 1024 → EReal) (bias : Fin 3072 → EReal)
    (b : Fin 2) (h : Fin 16) (s : Fin 2048) : EReal :=
  rowMax (fun k => sc x γ β W bias b h s k)

/-- The exponential of a score below its row's maximum. -/
def ex (x : Fin 2 → Fin 2048 → Fin 1024 → EReal) (γ β : Fin 1024 → EReal)
    (W : Fin 3072 → Fin 1024 → EReal) (bias : Fin 3072 → EReal)
    (b : Fin 2) (h : Fin 16) (s : Fin 2048) : Fin 2048 → EReal :=
  expRow (fun k => sc x γ β W bias b h s k)

/-- The softmax denominator of a query row. -/
def den (x : Fin 2 → Fin 2048 → Fin 1024 → EReal) (γ β : Fin 1024 → EReal)
    (W : Fin 3072 → Fin 1024 → EReal) (bias : Fin 3072 → EReal)
    (b : Fin 2) (h : Fin 16) (s : Fin 2048) : EReal :=
  ∑ k : Fin 2048, ex x γ β W bias b h s k

/-- The attention probabilities of query row `s` in head `h`: the softmax of its score row. -/
def p (x : Fin 2 → Fin 2048 → Fin 1024 → EReal) (γ β : Fin 1024 → EReal)
    (W : Fin 3072 → Fin 1024 → EReal) (bias : Fin 3072 → EReal)
    (b : Fin 2) (h : Fin 16) (s : Fin 2048) : Fin 2048 → EReal :=
  softmaxRow (fun k => sc x γ β W bias b h s k)

/-- The context of query row `s` in head `h`. -/
def ctx (x : Fin 2 → Fin 2048 → Fin 1024 → EReal) (γ β : Fin 1024 → EReal)
    (W : Fin 3072 → Fin 1024 → EReal) (bias : Fin 3072 → EReal)
    (b : Fin 2) (h : Fin 16) (s : Fin 2048) (j : Fin 64) : EReal :=
  ∑ k : Fin 2048, p x γ β W bias b h s k * v x γ β W bias b h k j

/-! ## The two results -/

/-- The layer's output: the output projection of the concatenated heads (`Wo e n`: output column `e`, context
    column `n`), plus its bias, plus the residual. -/
def out (x : Fin 2 → Fin 2048 → Fin 1024 → EReal) (γ β : Fin 1024 → EReal)
    (W : Fin 3072 → Fin 1024 → EReal) (bias : Fin 3072 → EReal)
    (Wo : Fin 1024 → Fin 1024 → EReal) (ob : Fin 1024 → EReal)
    (b : Fin 2) (s : Fin 2048) (e : Fin 1024) : EReal :=
  (∑ n : Fin 1024, ctx x γ β W bias b (headOf n) s (compOf n) * Wo e n) + ob e + x b s e

/-- The attention weights averaged over the 16 heads. -/
def attnW (x : Fin 2 → Fin 2048 → Fin 1024 → EReal) (γ β : Fin 1024 → EReal)
    (W : Fin 3072 → Fin 1024 → EReal) (bias : Fin 3072 → EReal)
    (b : Fin 2) (s k : Fin 2048) : EReal :=
  Ideal.div (∑ h : Fin 16, p x γ β W bias b h s k) w16

/-! ## The stages written out (all by definition) -/

theorem mean_eq (x : Fin 2 → Fin 2048 → Fin 1024 → EReal) (b : Fin 2) (s : Fin 2048) :
    mean x b s = Ideal.div (∑ d : Fin 1024, x b s d) w1024 := rfl

theorem var_eq (x : Fin 2 → Fin 2048 → Fin 1024 → EReal) (b : Fin 2) (s : Fin 2048) :
    var x b s = Ideal.div (∑ d : Fin 1024, cen x b s d * cen x b s d) w1024 := rfl

theorem xn_eq (x : Fin 2 → Fin 2048 → Fin 1024 → EReal) (γ β : Fin 1024 → EReal) (b : Fin 2) (s : Fin 2048) (d : Fin 1024) :
    xn x γ β b s d = cen x b s d * Ideal.rsqrt (var x b s + wEps) * γ d + β d := rfl

theorem mx_eq (x : Fin 2 → Fin 2048 → Fin 1024 → EReal) (γ β : Fin 1024 → EReal)
    (W : Fin 3072 → Fin 1024 → EReal) (bias : Fin 3072 → EReal) (b : Fin 2) (h : Fin 16) (s : Fin 2048) :
    mx x γ β W bias b h s = (Finset.univ : Finset (Fin 2048)).fold max wNegInf (fun k => sc x γ β W bias b h s k) := rfl

theorem ex_eq (x : Fin 2 → Fin 2048 → Fin 1024 → EReal) (γ β : Fin 1024 → EReal)
    (W : Fin 3072 → Fin 1024 → EReal) (bias : Fin 3072 → EReal) (b : Fin 2) (h : Fin 16) (s k : Fin 2048) :
    ex x γ β W bias b h s k = Ideal.exp (sc x γ β W bias b h s k - mx x γ β W bias b h s) := rfl

theorem p_eq (x : Fin 2 → Fin 2048 → Fin 1024 → EReal) (γ β : Fin 1024 → EReal)
    (W : Fin 3072 → Fin 1024 → EReal) (bias : Fin 3072 → EReal) (b : Fin 2) (h : Fin 16) (s k : Fin 2048) :
    p x γ β W bias b h s k = Ideal.div (ex x γ β W bias b h s k) (den x γ β W bias b h s) := rfl

end Cert.Spec

end
-- ==== Proof.RefSpec.lean ====
/-
  The reference program computes the specification.

  The reference's two results, read one operation at a time (the generated stages `val_main_vN` and their
  `_apply` lemmas), are the functions `Cert.Spec.out` and `Cert.Spec.attnW` of its argument arrays. One lemma per
  stage of the specification, each at an index written by its literal coordinates: the row mean and variance are the
  host's sums (initial value zero) divided by the word of 1024; the fused projection and the three contractions of
  the attention are `dot_general`s read as sums over the one contracted axis; the head-major thirds are a slice, a
  reshape of the 1024 columns into 16 × 64 and a transpose, so that component j of head h is column 64·h + j of its
  third; the row maximum is the host's reduce with a maximum body, the fold of max from the word of −∞, and the
  maximum of that with −∞ again is itself; the head average is the host's sum over the head axis divided by the
  word of 16.
-/
import proofs.«146015_j42408507080997_2_alg».proof.Proof.Gen.ReferenceIdeal.Read
import proofs.«146015_j42408507080997_2_alg».proof.Proof.Spec

noncomputable section

open scoped BigOperators

namespace Cert.ReferenceIdeal.Hand

open Cert.ReferenceIdeal Cert.ReferenceIdeal.Gen Cert.ReferenceIdeal.Read Idealize.ShloMosaic Idealize.ShloMosaic.ValueIdx

/-! ## The argument arrays as functions of their coordinates -/

/-- A rank-3 array by coordinates. -/
abbrev arr3 {n0 n1 n2 : Nat} (x : (⟨3, ![n0, n1, n2]⟩ : Shape).Idx → EReal) : Fin n0 → Fin n1 → Fin n2 → EReal :=
  fun a b c => x (ix3 a b c)
/-- A rank-2 array by coordinates. -/
abbrev arr2 {n0 n1 : Nat} (x : (⟨2, ![n0, n1]⟩ : Shape).Idx → EReal) : Fin n0 → Fin n1 → EReal :=
  fun a b => x (ix2 a b)
/-- A rank-1 array by its coordinate. -/
abbrev arr1 {n : Nat} (x : (⟨1, ![n]⟩ : Shape).Idx → EReal) : Fin n → EReal := fun a => x (ix1 a)

variable (x0 : (⟨S2x2048x1024, .f32⟩ : BufTy).Contents (Elt Ideal))
  (x2 x3 : (⟨S1024, .f32⟩ : BufTy).Contents (Elt Ideal))
  (x4 : (⟨S3072x1024, .f32⟩ : BufTy).Contents (Elt Ideal))
  (x5 : (⟨S3072, .f32⟩ : BufTy).Contents (Elt Ideal))
  (x6 : (⟨S1024x1024, .f32⟩ : BufTy).Contents (Elt Ideal))
  (x7 : (⟨S1024, .f32⟩ : BufTy).Contents (Elt Ideal))

/-! ## LayerNorm -/

/-- The mean: the host's sum over the features from zero, broadcast and divided by the word of 1024. -/
theorem ref_mean (b : Fin 2) (s : Fin 2048) (z : Fin 1) :
    val_main_v3 (F := Ideal) x0 (ix3 b s z) = Cert.Spec.mean (arr3 x0) b s := by
  rw [val_main_v3_apply, val_main_v1_apply, val_main_v0_apply, val_main_v2_apply, val_main_cst_0_apply, val_main_cst_apply]
  simp only [Ideal.hostDivf_def, Ideal.ofBits_def, Ideal.ofBits_zero_f32, zero_add]
  refine congrArg (fun t => Ideal.div t _) (Finset.sum_congr rfl fun k _ => congrArg x0 ?_)
  exact funext fun a => Fin.ext (by match a with | ⟨0, _⟩ => rfl | ⟨1, _⟩ => rfl | ⟨2, _⟩ => rfl)

/-- The centred row (the copy the variance is taken of). -/
theorem ref_cen5 (b : Fin 2) (s : Fin 2048) (d : Fin 1024) :
    val_main_v5 (F := Ideal) x0 (ix3 b s d) = Cert.Spec.cen (arr3 x0) b s d := by
  rw [val_main_v5_apply, val_main_v4_apply]
  have e : idx_main_v4 (ix3 b s d) = ix3 b s (0 : Fin 1) :=
    funext fun a => Fin.ext (by match a with | ⟨0, _⟩ => rfl | ⟨1, _⟩ => rfl | ⟨2, _⟩ => rfl)
  rw [e, ref_mean]
  rfl

/-- The centred row (the copy that is normalised). -/
theorem ref_cen12 (b : Fin 2) (s : Fin 2048) (d : Fin 1024) :
    val_main_v12 (F := Ideal) x0 (ix3 b s d) = Cert.Spec.cen (arr3 x0) b s d := by
  rw [val_main_v12_apply, val_main_v11_apply]
  have e : idx_main_v11 (ix3 b s d) = ix3 b s (0 : Fin 1) :=
    funext fun a => Fin.ext (by match a with | ⟨0, _⟩ => rfl | ⟨1, _⟩ => rfl | ⟨2, _⟩ => rfl)
  rw [e, ref_mean]
  rfl

/-- The variance: the host's sum of the squared deviations from zero, divided by the word of 1024. -/
theorem ref_var (b : Fin 2) (s : Fin 2048) (z : Fin 1) :
    val_main_v10 (F := Ideal) x0 (ix3 b s z) = Cert.Spec.var (arr3 x0) b s := by
  rw [val_main_v10_apply, val_main_v8_apply, val_main_v7_apply, val_main_v9_apply, val_main_cst_2_apply, val_main_cst_1_apply]
  simp only [Ideal.hostDivf_def, Ideal.ofBits_def, Ideal.ofBits_zero_f32, zero_add]
  rw [Cert.Spec.var_eq]
  refine congrArg (fun t => Ideal.div t _) (Finset.sum_congr rfl fun k _ => ?_)
  have e : idx_main_v7 (idx_main_v8 (ix3 b s z)) k = ix3 b s k :=
    funext fun a => Fin.ext (by match a with | ⟨0, _⟩ => rfl | ⟨1, _⟩ => rfl | ⟨2, _⟩ => rfl)
  rw [e, val_main_v6_apply, ref_cen5]
  rfl

/-- The normalised row. -/
theorem ref_xn (b : Fin 2) (s : Fin 2048) (d : Fin 1024) :
    val_main_v23 (F := Ideal) x0 x2 x3 (ix3 b s d) = Cert.Spec.xn (arr3 x0) (arr1 x2) (arr1 x3) b s d := by
  rw [val_main_v23_apply, val_main_v20_apply, val_main_v17_apply, ref_cen12, val_main_v16_apply, val_main_v15_apply,
    val_main_v14_apply, val_main_v13_apply, val_main_cst_3_apply, val_main_v19_apply, val_main_v18_apply,
    val_main_v22_apply, val_main_v21_apply]
  have e16 : idx_main_v16 (ix3 b s d) = ix3 b s (0 : Fin 1) :=
    funext fun a => Fin.ext (by match a with | ⟨0, _⟩ => rfl | ⟨1, _⟩ => rfl | ⟨2, _⟩ => rfl)
  have e18 : idx_main_v18 (idx_main_v19 (ix3 b s d)) = ix1 d :=
    funext fun a => Fin.ext (by match a with | ⟨0, _⟩ => rfl)
  have e21 : idx_main_v21 (idx_main_v22 (ix3 b s d)) = ix1 d :=
    funext fun a => Fin.ext (by match a with | ⟨0, _⟩ => rfl)
  rw [e16, ref_var, e18, e21, Cert.Spec.xn_eq]
  rfl

/-! ## The fused projection and its head-major thirds -/

/-- The fused projection: a contraction over the 1024 features, plus the broadcast bias. -/
theorem ref_qkv (b : Fin 2) (s : Fin 2048) (e : Fin 3072) :
    val_main_v27 (F := Ideal) x0 x2 x3 x4 x5 (ix3 b s e)
      = Cert.Spec.qkv (arr3 x0) (arr1 x2) (arr1 x3) (arr2 x4) (arr1 x5) b s e := by
  rw [val_main_v27_apply, val_main_v24_apply, val_main_v26_apply, val_main_v25_apply]
  have e25 : idx_main_v25 (idx_main_v26 (ix3 b s e)) = ix1 e :=
    funext fun a => Fin.ext (by match a with | ⟨0, _⟩ => rfl)
  rw [e25]
  simp only [Ideal.addf_def]
  refine congrArg (fun t => t + _) (Finset.sum_congr rfl fun k _ => ?_)
  have el : lidx_main_v24 (ix3 b s e) k = ix3 b s k :=
    funext fun a => Fin.ext (by match a with | ⟨0, _⟩ => rfl | ⟨1, _⟩ => rfl | ⟨2, _⟩ => rfl)
  have er : ridx_main_v24 (ix3 b s e) k = ix2 e k :=
    funext fun a => Fin.ext (by match a with | ⟨0, _⟩ => rfl | ⟨1, _⟩ => rfl)
  rw [el, er, ref_xn]

/-- Splitting the 1024 columns of a third into 16 heads of 64: column 64·h + j. -/
theorem split_idx (b : Fin 2) (s : Fin 2048) (h : Fin 16) (j : Fin 64) :
    (((b.val * 2048 + s.val) * 16 + h.val) * 64 + j.val) / 2097152 = b.val
    ∧ (((b.val * 2048 + s.val) * 16 + h.val) * 64 + j.val) / 1024 % 2048 = s.val
    ∧ (((b.val * 2048 + s.val) * 16 + h.val) * 64 + j.val) % 1024 = 64 * h.val + j.val := by
  have := b.isLt; have := s.isLt; have := h.isLt; have := j.isLt
  omega

/-- The query, head-major: the first third, reshaped and transposed. -/
theorem ref_q (b : Fin 2) (h : Fin 16) (s : Fin 2048) (j : Fin 64) :
    val_main_v32 (F := Ideal) x0 x2 x3 x4 x5 (ix4 b h s j)
      = Cert.Spec.q (arr3 x0) (arr1 x2) (arr1 x3) (arr2 x4) (arr1 x5) b h s j := by
  rw [val_main_v32_apply, val_main_v31_apply, val_main_v28_apply]
  have e : idx_main_v28 (idx_main_v31 (idx_main_v32 (ix4 b h s j))) = ix3 b s (Cert.Spec.colQ h j) := by
    obtain ⟨h0, h1, h2⟩ := split_idx b s h j
    exact funext fun a => Fin.ext (by
      match a with
      | ⟨0, _⟩ => exact h0
      | ⟨1, _⟩ => exact h1
      | ⟨2, _⟩ => exact h2)
  rw [e, ref_qkv]
  rfl

/-- The key, head-major: the second third. -/
theorem ref_kk (b : Fin 2) (h : Fin 16) (s : Fin 2048) (j : Fin 64) :
    val_main_v34 (F := Ideal) x0 x2 x3 x4 x5 (ix4 b h s j)
      = Cert.Spec.kk (arr3 x0) (arr1 x2) (arr1 x3) (arr2 x4) (arr1 x5) b h s j := by
  rw [val_main_v34_apply, val_main_v33_apply, val_main_v29_apply]
  have e : idx_main_v29 (idx_main_v33 (idx_main_v34 (ix4 b h s j))) = ix3 b s (Cert.Spec.colK h j) := by
    obtain ⟨h0, h1, h2⟩ := split_idx b s h j
    exact funext fun a => Fin.ext (by
      match a with
      | ⟨0, _⟩ => exact h0
      | ⟨1, _⟩ => exact h1
      | ⟨2, _⟩ => exact congrArg (1024 + ·) h2)
  rw [e, ref_qkv]
  rfl

/-- The value, head-major: the last third. -/
theorem ref_v (b : Fin 2) (h : Fin 16) (s : Fin 2048) (j : Fin 64) :
    val_main_v36 (F := Ideal) x0 x2 x3 x4 x5 (ix4 b h s j)
      = Cert.Spec.v (arr3 x0) (arr1 x2) (arr1 x3) (arr2 x4) (arr1 x5) b h s j := by
  rw [val_main_v36_apply, val_main_v35_apply, val_main_v30_apply]
  have e : idx_main_v30 (idx_main_v35 (idx_main_v36 (ix4 b h s j))) = ix3 b s (Cert.Spec.colV h j) := by
    obtain ⟨h0, h1, h2⟩ := split_idx b s h j
    exact funext fun a => Fin.ext (by
      match a with
      | ⟨0, _⟩ => exact h0
      | ⟨1, _⟩ => exact h1
      | ⟨2, _⟩ => exact congrArg (2048 + ·) h2)
  rw [e, ref_qkv]
  rfl

/-! ## Attention -/

/-- The scores: a contraction over the 64 components of a head, divided by the word of 8. -/
theorem ref_sc (b : Fin 2) (h : Fin 16) (s k : Fin 2048) :
    val_main_v39 (F := Ideal) x0 x2 x3 x4 x5 (ix4 b h s k) = Cert.Spec.sc (arr3 x0) (arr1 x2) (arr1 x3) (arr2 x4) (arr1 x5) b h s k := by
  rw [val_main_v39_apply, val_main_v37_apply, val_main_v38_apply, val_main_cst_4_apply]
  simp only [Ideal.hostDivf_def, Ideal.ofBits_def]
  refine congrArg (fun t => Ideal.div t _) (Finset.sum_congr rfl fun j _ => ?_)
  have el : lidx_main_v37 (ix4 b h s k) j = ix4 b h s j :=
    funext fun a => Fin.ext (by match a with | ⟨0, _⟩ => rfl | ⟨1, _⟩ => rfl | ⟨2, _⟩ => rfl | ⟨3, _⟩ => rfl)
  have er : ridx_main_v37 (ix4 b h s k) j = ix4 b h k j :=
    funext fun a => Fin.ext (by match a with | ⟨0, _⟩ => rfl | ⟨1, _⟩ => rfl | ⟨2, _⟩ => rfl | ⟨3, _⟩ => rfl)
  rw [el, er, ref_q, ref_kk]

/-- The row maximum: the host's reduce with a maximum body over the key axis is the fold of max from the word
    of −∞ over the 2048 keys, and its maximum with −∞ is itself. -/
theorem ref_mx (b : Fin 2) (h : Fin 16) (s : Fin 2048) :
    val_main_v42 (F := Ideal) x0 x2 x3 x4 x5 (ix3 b h s) = Cert.Spec.mx (arr3 x0) (arr1 x2) (arr1 x3) (arr2 x4) (arr1 x5) b h s := by
  rw [val_main_v42_apply, val_main_v41_apply, val_main_cst_6_apply]
  simp only [Ideal.maximumf_def, Ideal.ofBits_def]
  refine (Cert.Spec.max_wNegInf _).trans ?_
  unfold val_main_v40
  have hR : S2x16x2048x2048.Reduces [3] S2x16x2048 := by decide
  refine (Host.reduce_eq_fold_single FloatOps.maximumf _ _ reducesTo_S2x16x2048x2048_S2x16x2048_d3 hR h_S_ (ix3 b h s)).trans ?_
  have hl : ∀ k : Fin 2048, hR.lift (ix3 b h s) k = ix4 b h s k := fun k =>
    funext fun a => Fin.ext (by match a with | ⟨0, _⟩ => rfl | ⟨1, _⟩ => rfl | ⟨2, _⟩ => rfl | ⟨3, _⟩ => rfl)
  have hf : (val_main_v39 (F := Ideal) x0 x2 x3 x4 x5 ∘ hR.lift (ix3 b h s))
      = fun k : Fin 2048 => Cert.Spec.sc (arr3 x0) (arr1 x2) (arr1 x3) (arr2 x4) (arr1 x5) b h s k :=
    funext fun k => (congrArg (val_main_v39 (F := Ideal) x0 x2 x3 x4 x5) (hl k)).trans (ref_sc x0 x2 x3 x4 x5 b h s k)
  rw [Cert.Spec.mx_eq]
  exact congrArg (fun f => Finset.fold max Cert.Spec.wNegInf f (Finset.univ : Finset (Fin 2048))) hf

/-- The exponential of a score below its row's maximum. -/
theorem ref_ex (b : Fin 2) (h : Fin 16) (s k : Fin 2048) :
    val_main_v46 (F := Ideal) x0 x2 x3 x4 x5 (ix4 b h s k) = Cert.Spec.ex (arr3 x0) (arr1 x2) (arr1 x3) (arr2 x4) (arr1 x5) b h s k := by
  rw [val_main_v46_apply, val_main_v45_apply, ref_sc, val_main_v44_apply, val_main_v43_apply]
  have e : idx_main_v43 (idx_main_v44 (ix4 b h s k)) = ix3 b h s :=
    funext fun a => Fin.ext (by match a with | ⟨0, _⟩ => rfl | ⟨1, _⟩ => rfl | ⟨2, _⟩ => rfl)
  rw [e, ref_mx, Cert.Spec.ex_eq]
  rfl

/-- The softmax denominator: the host's sum over the keys from zero. -/
theorem ref_den (b : Fin 2) (h : Fin 16) (s : Fin 2048) :
    val_main_v47 (F := Ideal) x0 x2 x3 x4 x5 (ix3 b h s) = Cert.Spec.den (arr3 x0) (arr1 x2) (arr1 x3) (arr2 x4) (arr1 x5) b h s := by
  rw [val_main_v47_apply, val_main_cst_7_apply]
  simp only [Ideal.ofBits_def, Ideal.ofBits_zero_f32, zero_add]
  unfold Cert.Spec.den
  refine Finset.sum_congr rfl fun k _ => ?_
  have e : idx_main_v47 (ix3 b h s) k = ix4 b h s k :=
    funext fun a => Fin.ext (by match a with | ⟨0, _⟩ => rfl | ⟨1, _⟩ => rfl | ⟨2, _⟩ => rfl | ⟨3, _⟩ => rfl)
  rw [e, ref_ex]

/-- The attention probabilities. -/
theorem ref_p (b : Fin 2) (h : Fin 16) (s k : Fin 2048) :
    val_main_v50 (F := Ideal) x0 x2 x3 x4 x5 (ix4 b h s k) = Cert.Spec.p (arr3 x0) (arr1 x2) (arr1 x3) (arr2 x4) (arr1 x5) b h s k := by
  rw [val_main_v50_apply, ref_ex, val_main_v49_apply, val_main_v48_apply]
  have e : idx_main_v48 (idx_main_v49 (ix4 b h s k)) = ix3 b h s :=
    funext fun a => Fin.ext (by match a with | ⟨0, _⟩ => rfl | ⟨1, _⟩ => rfl | ⟨2, _⟩ => rfl)
  rw [e, ref_den, Cert.Spec.p_eq]
  rfl

/-- The context: a contraction over the 2048 keys. -/
theorem ref_ctx (b : Fin 2) (h : Fin 16) (s : Fin 2048) (j : Fin 64) :
    val_main_v51 (F := Ideal) x0 x2 x3 x4 x5 (ix4 b h s j) = Cert.Spec.ctx (arr3 x0) (arr1 x2) (arr1 x3) (arr2 x4) (arr1 x5) b h s j := by
  rw [val_main_v51_apply]
  unfold Cert.Spec.ctx
  refine Finset.sum_congr rfl fun k _ => ?_
  have el : lidx_main_v51 (ix4 b h s j) k = ix4 b h s k :=
    funext fun a => Fin.ext (by match a with | ⟨0, _⟩ => rfl | ⟨1, _⟩ => rfl | ⟨2, _⟩ => rfl | ⟨3, _⟩ => rfl)
  have er : ridx_main_v51 (ix4 b h s j) k = ix4 b h k j :=
    funext fun a => Fin.ext (by match a with | ⟨0, _⟩ => rfl | ⟨1, _⟩ => rfl | ⟨2, _⟩ => rfl | ⟨3, _⟩ => rfl)
  rw [el, er, ref_p, ref_v]

/-! ## The two results -/

/-- Merging 16 heads of 64 components into 1024 columns: column n is component n % 64 of head n / 64. -/
theorem merge_idx (b : Fin 2) (s : Fin 2048) (n : Fin 1024) :
    ((b.val * 2048 + s.val) * 1024 + n.val) / 2097152 = b.val
    ∧ ((b.val * 2048 + s.val) * 1024 + n.val) / 1024 % 2048 = s.val
    ∧ ((b.val * 2048 + s.val) * 1024 + n.val) / 64 % 16 = n.val / 64
    ∧ ((b.val * 2048 + s.val) * 1024 + n.val) % 64 = n.val % 64 := by
  have := b.isLt; have := s.isLt; have := n.isLt
  omega

/-- The first result at an index: the output projection of the merged heads, the bias, the residual. -/
theorem ref_out_at (b : Fin 2) (s : Fin 2048) (e : Fin 1024) :
    val_main_v58 (F := Ideal) x0 x2 x3 x4 x5 x6 x7 (ix3 b s e)
      = Cert.Spec.out (arr3 x0) (arr1 x2) (arr1 x3) (arr2 x4) (arr1 x5) (arr2 x6) (arr1 x7) b s e := by
  rw [val_main_v58_apply, val_main_v57_apply, val_main_v54_apply, val_main_v56_apply, val_main_v55_apply]
  have e55 : idx_main_v55 (idx_main_v56 (ix3 b s e)) = ix1 e :=
    funext fun a => Fin.ext (by match a with | ⟨0, _⟩ => rfl)
  rw [e55]
  simp only [Ideal.addf_def]
  unfold Cert.Spec.out
  refine congrArg (fun t => t + _ + _) (Finset.sum_congr rfl fun n _ => ?_)
  have el : lidx_main_v54 (ix3 b s e) n = ix3 b s n :=
    funext fun a => Fin.ext (by match a with | ⟨0, _⟩ => rfl | ⟨1, _⟩ => rfl | ⟨2, _⟩ => rfl)
  have er : ridx_main_v54 (ix3 b s e) n = ix2 e n :=
    funext fun a => Fin.ext (by match a with | ⟨0, _⟩ => rfl | ⟨1, _⟩ => rfl)
  rw [el, er, val_main_v53_apply, val_main_v52_apply]
  have em : idx_main_v52 (idx_main_v53 (ix3 b s n)) = ix4 b (Cert.Spec.headOf n) s (Cert.Spec.compOf n) := by
    obtain ⟨h0, h1, h2, h3⟩ := merge_idx b s n
    exact funext fun a => Fin.ext (by
      match a with
      | ⟨0, _⟩ => exact h0
      | ⟨1, _⟩ => exact h2
      | ⟨2, _⟩ => exact h1
      | ⟨3, _⟩ => exact h3)
  rw [em, ref_ctx]

/-- The second result at an index: the host's sum over the heads from zero, divided by the word of 16. -/
theorem ref_attnW_at (b : Fin 2) (s k : Fin 2048) :
    val_main_v61 (F := Ideal) x0 x2 x3 x4 x5 (ix3 b s k) = Cert.Spec.attnW (arr3 x0) (arr1 x2) (arr1 x3) (arr2 x4) (arr1 x5) b s k := by
  rw [val_main_v61_apply, val_main_v59_apply, val_main_v60_apply, val_main_cst_9_apply, val_main_cst_8_apply]
  simp only [Ideal.hostDivf_def, Ideal.ofBits_def, Ideal.ofBits_zero_f32, zero_add]
  refine congrArg (fun t => Ideal.div t _) (Finset.sum_congr rfl fun h _ => ?_)
  have e : idx_main_v59 (ix3 b s k) h = ix4 b h s k :=
    funext fun a => Fin.ext (by match a with | ⟨0, _⟩ => rfl | ⟨1, _⟩ => rfl | ⟨2, _⟩ => rfl | ⟨3, _⟩ => rfl)
  rw [e, ref_p]

/-- The reference's first result is the specification's output. -/
theorem ref_out :
    val_main_v58 (F := Ideal) x0 x2 x3 x4 x5 x6 x7
      = fun i => Cert.Spec.out (arr3 x0) (arr1 x2) (arr1 x3) (arr2 x4) (arr1 x5) (arr2 x6) (arr1 x7) (i 0) (i 1) (i 2) := by
  funext i
  obtain ⟨b, s, e, rfl⟩ : ∃ (b : Fin 2) (s : Fin 2048) (e : Fin 1024), i = ix3 b s e := ⟨i 0, i 1, i 2, eq_ix3 i⟩
  exact ref_out_at x0 x2 x3 x4 x5 x6 x7 b s e

/-- The reference's second result is the specification's averaged attention weights. -/
theorem ref_attnW :
    val_main_v61 (F := Ideal) x0 x2 x3 x4 x5
      = fun i => Cert.Spec.attnW (arr3 x0) (arr1 x2) (arr1 x3) (arr2 x4) (arr1 x5) (i 0) (i 1) (i 2) := by
  funext i
  obtain ⟨b, s, k, rfl⟩ : ∃ (b : Fin 2) (s : Fin 2048) (k : Fin 2048), i = ix3 b s k := ⟨i 0, i 1, i 2, eq_ix3 i⟩
  exact ref_attnW_at x0 x2 x3 x4 x5 b s k

end Cert.ReferenceIdeal.Hand

end
-- ==== Proof.KI.V0Pay.lean ====
/-
  The first region's payloads read at an index, on the extended reals.
  The body normalises each of the block's 512 rows (mean and variance over the 1024 features, the float words of 1024 and
  ε kept as words), scales by γ and shifts by β, multiplies by the 1024 × 3072 projection matrix and adds the bias row;
  then it cuts the 3072 columns into three bands of 1024 — q, k, v —, regroups each band as 16 heads of 64 features and
  stores it head-major. Read at one entry: the projection at (r, e) is the sum over the features d of the row's
  LayerNorm at d times the matrix at (d, e), plus the bias at e; the head-major block at (h, r, j) is the projection at
  (r, off + 64 h + j), off the band's first column. A change of float format is the identity on extended reals.
-/
import proofs.«146015_j42408507080997_2_alg».proof.Proof.Gen.KernelIdeal.Skeleton
import proofs.«146015_j42408507080997_2_alg».proof.Proof.RowSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.First

open Cert.KernelIdeal Cert.KernelIdeal.Gen
open Idealize.ShloMosaic Idealize.ShloMosaic.ValueIdx
open scoped BigOperators

/-! ## Layout steps of a row-wise reduction, read at an index

A row statistic is computed as a vector of one entry per row, turned into a one-column matrix and spread over the
row's columns. -/

section Layout
variable {α : Type}

/-- A vector `[a]` cast to a one-column matrix `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix `[a, 1]` spread over `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over row `r` of a row-wise reduction, with column `k` put back, is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  show h.liftVal (ix1 r) k.val c = (ix2 r k c).val
  unfold Shape.Reduces.liftVal
  match c with
  | ⟨0, _⟩ => rfl
  | ⟨1, _⟩ => rfl

end Layout

/-- A row-wise sum at the ideal instance: the sum of the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

/-! ## The projection of the normalised block, step by step

The payload `k0_pay4` is, on the 512 rows of the block: the row mean, the row variance, the normalised rows scaled by
`γ` and shifted by `β`, their product with the 1024 × 3072 matrix, plus the bias row. Each step is named here and read
at an index; the payload is their composition by unfolding. -/

/-- The block's 512 rows. -/
def blkRows (v0 : Vec Ideal S1x512x1024 .f32) : FVec Ideal S512x1024 .f32 :=
  shapeCast S512x1024 v0 shapeCasts_S1x512x1024_S512x1024

/-- The column of row means. -/
def meanCol (v1 : FVec Ideal S512x1024 .f32) : FVec Ideal S512x1 .f32 :=
  divf (shapeCast S512x1 (multiReduction .add [1] S512 v1 0x00000000#32 reduces_S512x1024_S512 (.inl rfl) rfl) shapeCasts_S512_S512x1)
    (broadcast S512x1 (Scalar.ofBits .f32 0x44800000#32))

/-- The rows less their means. -/
def centred (v1 : FVec Ideal S512x1024 .f32) : FVec Ideal S512x1024 .f32 :=
  subf v1 (broadcastTo S512x1024 (meanCol v1) broadcasts_S512x1_S512x1024)

/-- The column of row variances. -/
def varCol (v1 : FVec Ideal S512x1024 .f32) : FVec Ideal S512x1 .f32 :=
  divf (shapeCast S512x1 (multiReduction .add [1] S512 (mulf (centred v1) (centred v1)) 0x00000000#32 reduces_S512x1024_S512 (.inl rfl) rfl) shapeCasts_S512_S512x1)
    (broadcast S512x1 (Scalar.ofBits .f32 0x44800000#32))

/-- The normalised rows, scaled and shifted. -/
def normBlk (v1 : FVec Ideal S512x1024 .f32) (v20 v24 : Vec Ideal S1024 .f32) : FVec Ideal S512x1024 .f32 :=
  addf (mulf (mulf (centred v1)
      (broadcastTo S512x1024 (rsqrt (addf (varCol v1) (broadcast S512x1 (Scalar.ofBits .f32 0x3727C5AC#32)))) broadcasts_S512x1_S512x1024))
      (broadcastTo S512x1024 (shapeCast S1x1024 v20 shapeCasts_S1024_S1x1024) broadcasts_S1x1024_S512x1024))
    (broadcastTo S512x1024 (shapeCast S1x1024 v24 shapeCasts_S1024_S1x1024) broadcasts_S1x1024_S512x1024)

/-- The payload is the composition of these steps. -/
theorem pay4_eq (v0 : Vec Ideal S1x512x1024 .f32) (v20 v24 : Vec Ideal S1024 .f32) (v29 : Vec Ideal S1024x3072 .bf16) (v32 : Vec Ideal S3072 .f32) :
    k0_pay4 v0 v20 v24 v29 v32
      = addf (matmul dot_S512x1024_S1024x3072_S512x3072_1_0_0_1_n_n none
            (truncf .bf16 (normBlk (blkRows v0) v20 v24) bitsLt_bf16_f32)
            (shapeCast S1024x3072 v29 shapeCasts_S1024x3072_S1024x3072 : FVec Ideal S1024x3072 .bf16) (constant S512x3072 .f32 0x00000000#32))
          (broadcastTo S512x3072 (shapeCast S1x3072 v32 shapeCasts_S3072_S1x3072) broadcasts_S1x3072_S512x3072) := rfl

theorem blkRows_apply (v0 : Vec Ideal S1x512x1024 .f32) (r : Fin 512) (k : Fin 1024) :
    blkRows v0 (ix2 r k) = v0 (ix3 (0 : Fin 1) r k) :=
  shapeCast_1ab_ab_apply v0 shapeCasts_S1x512x1024_S512x1024 r k

/-- The mean column at row `r` is the row's mean. -/
theorem meanCol_apply (v1 : FVec Ideal S512x1024 .f32) (r : Fin 512) (u : Fin 1) :
    meanCol v1 (ix2 r u) = Cert.Spec.rowMean (fun k => v1 (ix2 r k)) := by
  show Ideal.div (shapeCast S512x1 (multiReduction .add [1] S512 v1 0x00000000#32 reduces_S512x1024_S512 (.inl rfl) rfl) shapeCasts_S512_S512x1 (ix2 r u)) Cert.Spec.w1024
    = Ideal.div (∑ k : Fin 1024, v1 (ix2 r k)) Cert.Spec.w1024
  refine congrArg (fun s => Ideal.div s Cert.Spec.w1024) ?_
  refine (shapeCast_a_a1_apply _ shapeCasts_S512_S512x1 r u).trans ?_
  exact rowSum_apply v1 reduces_S512x1024_S512 (.inl rfl) rfl r

theorem centred_apply (v1 : FVec Ideal S512x1024 .f32) (r : Fin 512) (k : Fin 1024) :
    centred v1 (ix2 r k) = v1 (ix2 r k) - Cert.Spec.rowMean (fun k => v1 (ix2 r k)) := by
  show v1 (ix2 r k) - broadcastTo S512x1024 (meanCol v1) broadcasts_S512x1_S512x1024 (ix2 r k) = _
  refine congrArg (fun s => v1 (ix2 r k) - s) ?_
  exact (broadcastTo_a1_ab_apply (meanCol v1) broadcasts_S512x1_S512x1024 r k).trans (meanCol_apply v1 r 0)

/-- The variance column at row `r` is the row's variance. -/
theorem varCol_apply (v1 : FVec Ideal S512x1024 .f32) (r : Fin 512) (u : Fin 1) :
    varCol v1 (ix2 r u) = Cert.Spec.rowVar (fun k => v1 (ix2 r k)) := by
  show Ideal.div (shapeCast S512x1 (multiReduction .add [1] S512 (mulf (centred v1) (centred v1)) 0x00000000#32 reduces_S512x1024_S512 (.inl rfl) rfl) shapeCasts_S512_S512x1 (ix2 r u)) Cert.Spec.w1024
    = Ideal.div (∑ k : Fin 1024, (v1 (ix2 r k) - Cert.Spec.rowMean (fun k => v1 (ix2 r k))) * (v1 (ix2 r k) - Cert.Spec.rowMean (fun k => v1 (ix2 r k)))) Cert.Spec.w1024
  refine congrArg (fun s => Ideal.div s Cert.Spec.w1024) ?_
  refine (shapeCast_a_a1_apply _ shapeCasts_S512_S512x1 r u).trans ?_
  refine (rowSum_apply _ reduces_S512x1024_S512 (.inl rfl) rfl r).trans ?_
  refine Finset.sum_congr rfl fun k _ => ?_
  show centred v1 (ix2 r k) * centred v1 (ix2 r k) = _
  rw [centred_apply]

/-- The normalised block at `(r, d)` is the row's LayerNorm at feature `d`. -/
theorem normBlk_apply (v1 : FVec Ideal S512x1024 .f32) (v20 v24 : Vec Ideal S1024 .f32) (r : Fin 512) (d : Fin 1024) :
    normBlk v1 v20 v24 (ix2 r d)
      = Cert.Spec.lnRow (fun k => v1 (ix2 r k)) (fun k => v20 (ix1 k)) (fun k => v24 (ix1 k)) d := by
  show centred v1 (ix2 r d)
        * broadcastTo S512x1024 (rsqrt (addf (varCol v1) (broadcast S512x1 (Scalar.ofBits .f32 0x3727C5AC#32)))) broadcasts_S512x1_S512x1024 (ix2 r d)
        * broadcastTo S512x1024 (shapeCast S1x1024 v20 shapeCasts_S1024_S1x1024) broadcasts_S1x1024_S512x1024 (ix2 r d)
      + broadcastTo S512x1024 (shapeCast S1x1024 v24 shapeCasts_S1024_S1x1024) broadcasts_S1x1024_S512x1024 (ix2 r d)
    = (v1 (ix2 r d) - Cert.Spec.rowMean (fun k => v1 (ix2 r k))) * Ideal.rsqrt (Cert.Spec.rowVar (fun k => v1 (ix2 r k)) + Cert.Spec.wEps) * v20 (ix1 d) + v24 (ix1 d)
  have e1 := centred_apply v1 r d
  have e2 : broadcastTo S512x1024 (rsqrt (addf (varCol v1) (broadcast S512x1 (Scalar.ofBits .f32 0x3727C5AC#32)))) broadcasts_S512x1_S512x1024 (ix2 r d)
      = Ideal.rsqrt (Cert.Spec.rowVar (fun k => v1 (ix2 r k)) + Cert.Spec.wEps) := by
    refine (broadcastTo_a1_ab_apply _ broadcasts_S512x1_S512x1024 r d).trans ?_
    show Ideal.rsqrt (varCol v1 (ix2 r 0) + Cert.Spec.wEps) = _
    rw [varCol_apply]
  have e3 : broadcastTo S512x1024 (shapeCast S1x1024 v20 shapeCasts_S1024_S1x1024) broadcasts_S1x1024_S512x1024 (ix2 r d) = v20 (ix1 d) :=
    (broadcastTo_1b_ab_apply _ broadcasts_S1x1024_S512x1024 r d).trans (shapeCast_a_1a_apply v20 shapeCasts_S1024_S1x1024 0 d)
  have e4 : broadcastTo S512x1024 (shapeCast S1x1024 v24 shapeCasts_S1024_S1x1024) broadcasts_S1x1024_S512x1024 (ix2 r d) = v24 (ix1 d) :=
    (broadcastTo_1b_ab_apply _ broadcasts_S1x1024_S512x1024 r d).trans (shapeCast_a_1a_apply v24 shapeCasts_S1024_S1x1024 0 d)
  rw [e1, e2, e3, e4]

/-! ## The product with the projection matrix, at an index -/

/-- The matrix product reads its left operand on the output's row (the non-contracted axis). -/
theorem dotL_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl
/-- The matrix product reads its left operand's second axis at the contraction's one coordinate. -/
theorem dotL_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
/-- The matrix product reads its right operand's first axis at the contraction's one coordinate. -/
theorem dotR_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
/-- The matrix product reads its right operand on the output's column (the non-contracted axis). -/
theorem dotR_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-- The product of a 512 × 1024 block with a 1024 × 3072 matrix, accumulated from zero, at `(r, e)`: the sum over the
    1024 features. The contraction's index set is its one coordinate. -/
theorem matmul_row_col (A : FVec Ideal S512x1024 .bf16) (B : FVec Ideal S1024x3072 .bf16) (r : Fin 512) (e : Fin 3072) :
    matmul dot_S512x1024_S1024x3072_S512x3072_1_0_0_1_n_n none A B (constant S512x3072 .f32 0x00000000#32) (ix2 r e)
      = ∑ d : Fin 1024, A (ix2 r d) * B (ix2 d e) := by
  refine (Ideal.matmul_constant_zero_apply dot_S512x1024_S1024x3072_S512x3072_1_0_0_1_n_n none A B (ix2 r e)).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 r e) ((contrEquiv1 dot_S512x1024_S1024x3072_S512x3072_1_0_0_1_n_n 1024 rfl rfl).symm k) = ix2 r k :=
    funext fun a => Fin.ext (by
      match a with
      | ⟨0, _⟩ => exact dotL_0 _ _
      | ⟨1, _⟩ => exact (dotL_1 _ _).trans hk)
  have er : dot_S512x1024_S1024x3072_S512x3072_1_0_0_1_n_n.rhsIdx (ix2 r e) ((contrEquiv1 dot_S512x1024_S1024x3072_S512x3072_1_0_0_1_n_n 1024 rfl rfl).symm k) = ix2 k e :=
    funext fun a => Fin.ext (by
      match a with
      | ⟨0, _⟩ => exact (dotR_0 _ _).trans hk
      | ⟨1, _⟩ => exact dotR_1 _ _)
  rw [el, er]

/-- THE PROJECTION AT AN INDEX: row `r`'s LayerNorm against column `e` of the matrix, plus the bias at `e`. -/
theorem pay4_apply (v0 : Vec Ideal S1x512x1024 .f32) (v20 v24 : Vec Ideal S1024 .f32) (v29 : Vec Ideal S1024x3072 .bf16) (v32 : Vec Ideal S3072 .f32)
    (r : Fin 512) (e : Fin 3072) :
    k0_pay4 v0 v20 v24 v29 v32 (ix2 r e)
      = (∑ d : Fin 1024, Cert.Spec.lnRow (fun d => v0 (ix3 (0 : Fin 1) r d)) (fun d => v20 (ix1 d)) (fun d => v24 (ix1 d)) d * v29 (ix2 d e))
        + v32 (ix1 e) := by
  rw [pay4_eq]
  show matmul dot_S512x1024_S1024x3072_S512x3072_1_0_0_1_n_n none
        (truncf .bf16 (normBlk (blkRows v0) v20 v24) bitsLt_bf16_f32)
        (shapeCast S1024x3072 v29 shapeCasts_S1024x3072_S1024x3072 : FVec Ideal S1024x3072 .bf16) (constant S512x3072 .f32 0x00000000#32) (ix2 r e)
      + broadcastTo S512x3072 (shapeCast S1x3072 v32 shapeCasts_S3072_S1x3072) broadcasts_S1x3072_S512x3072 (ix2 r e) = _
  have e2 : broadcastTo S512x3072 (shapeCast S1x3072 v32 shapeCasts_S3072_S1x3072) broadcasts_S1x3072_S512x3072 (ix2 r e) = v32 (ix1 e) :=
    (broadcastTo_1b_ab_apply _ broadcasts_S1x3072_S512x3072 r e).trans (shapeCast_a_1a_apply v32 shapeCasts_S3072_S1x3072 0 e)
  rw [matmul_row_col, e2]
  refine congrArg (· + v32 (ix1 e)) (Finset.sum_congr rfl fun d _ => ?_)
  show normBlk (blkRows v0) v20 v24 (ix2 r d) * (shapeCast S1024x3072 v29 shapeCasts_S1024x3072_S1024x3072 : FVec Ideal S1024x3072 .bf16) (ix2 d e) = _
  rw [normBlk_apply, shapeCast_self]
  simp only [blkRows_apply]

/-! ## The head-major regrouping, at an index -/

/-- A 1024-column band of the 512 × 3072 projection, starting at column `off`, regrouped as 16 heads of 64 features and
    put head-major: entry `(h, r, j)` is the projection's entry `(r, off + 64 h + j)`. -/
theorem headMajor_apply (off : ℕ) (X : FVec Ideal S512x3072 .f32) (hs : S512x3072.Slices ![0, off] S512x1024)
    (h : Fin 16) (r : Fin 512) (j : Fin 64) (c : Fin 3072) (hc : c.val = off + 64 * h.val + j.val) :
    transpose S16x512x64 [1, 0, 2]
        (shapeCast S512x16x64 (extractStridedSlice S512x1024 ![0, off] X hs) shapeCasts_S512x1024_S512x16x64)
        transposes_S512x16x64_p1_0_2_S16x512x64 (ix3 h r j)
      = X (ix2 r c) := by
  refine (transpose_apply [1, 0, 2] _ transposes_S512x16x64_p1_0_2_S16x512x64 (ix3 h r j) (ix3 r h j)
    fun b => match b with | ⟨0, _⟩ => rfl | ⟨1, _⟩ => rfl | ⟨2, _⟩ => rfl).trans ?_
  refine (shapeCast_apply _ shapeCasts_S512x1024_S512x16x64 (ix3 r h j) (ix2 r (⟨64 * h.val + j.val, by omega⟩ : Fin 1024)) ?_).trans ?_
  · rw [Shape.rowMajor_val_two, Shape.rowMajor_val_three]
    show r.val * 1024 + (64 * h.val + j.val) = (r.val * 16 + h.val) * 64 + j.val
    omega
  · exact extractStridedSlice_apply ![0, off] X hs (ix2 r (⟨64 * h.val + j.val, by omega⟩ : Fin 1024)) (ix2 r c) fun a =>
      match a with
      | ⟨0, _⟩ => by show r.val = 0 + r.val; omega
      | ⟨1, _⟩ => by show c.val = off + (64 * h.val + j.val); omega

/-- The q block's payload: the first band, head-major, under a unit leading axis. -/
theorem pay1_pay5_apply (v0 : Vec Ideal S1x512x1024 .f32) (v20 v24 : Vec Ideal S1024 .f32) (v29 : Vec Ideal S1024x3072 .bf16) (v32 : Vec Ideal S3072 .f32)
    (u : Fin 1) (h : Fin 16) (r : Fin 512) (j : Fin 64) (c : Fin 3072) (hc : c.val = 64 * h.val + j.val) :
    k0_pay1 (k0_pay5 v0 v20 v24 v29 v32) (ix4 u h r j) = k0_pay4 v0 v20 v24 v29 v32 (ix2 r c) := by
  refine (shapeCast_abc_1abc_apply (k0_pay5 v0 v20 v24 v29 v32) shapeCasts_S16x512x64_S1x16x512x64 u h r j).trans ?_
  exact headMajor_apply 0 (k0_pay4 v0 v20 v24 v29 v32) slices_S512x3072_o0_0_S512x1024 h r j c (by omega)

/-- The k block's payload: the second band. -/
theorem pay2_apply (v35 : FVec Ideal S512x3072 .f32) (u : Fin 1) (h : Fin 16) (r : Fin 512) (j : Fin 64) (c : Fin 3072)
    (hc : c.val = 1024 + 64 * h.val + j.val) : k0_pay2 v35 (ix4 u h r j) = v35 (ix2 r c) := by
  show shapeCast S1x16x512x64 (transpose S16x512x64 [1, 0, 2]
      (shapeCast S512x16x64 (extractStridedSlice S512x1024 ![0, 1024] v35 slices_S512x3072_o0_1024_S512x1024) shapeCasts_S512x1024_S512x16x64)
      transposes_S512x16x64_p1_0_2_S16x512x64) shapeCasts_S16x512x64_S1x16x512x64 (ix4 u h r j) = _
  refine (shapeCast_abc_1abc_apply _ shapeCasts_S16x512x64_S1x16x512x64 u h r j).trans ?_
  exact headMajor_apply 1024 v35 slices_S512x3072_o0_1024_S512x1024 h r j c hc

/-- The v block's payload: the third band (its change of format is the identity on extended reals). -/
theorem pay3_apply (v35 : FVec Ideal S512x3072 .f32) (u : Fin 1) (h : Fin 16) (r : Fin 512) (j : Fin 64) (c : Fin 3072)
    (hc : c.val = 2048 + 64 * h.val + j.val) : k0_pay3 v35 (ix4 u h r j) = v35 (ix2 r c) := by
  show shapeCast S1x16x512x64 (truncf .bf16 (transpose S16x512x64 [1, 0, 2]
      (shapeCast S512x16x64 (extractStridedSlice S512x1024 ![0, 2048] v35 slices_S512x3072_o0_2048_S512x1024) shapeCasts_S512x1024_S512x16x64)
      transposes_S512x16x64_p1_0_2_S16x512x64) bitsLt_bf16_f32 : FVec Ideal S16x512x64 .bf16) shapeCasts_S16x512x64_S1x16x512x64 (ix4 u h r j) = _
  refine (shapeCast_abc_1abc_apply _ shapeCasts_S16x512x64_S1x16x512x64 u h r j).trans ?_
  show transpose S16x512x64 [1, 0, 2]
      (shapeCast S512x16x64 (extractStridedSlice S512x1024 ![0, 2048] v35 slices_S512x3072_o0_2048_S512x1024) shapeCasts_S512x1024_S512x16x64)
      transposes_S512x16x64_p1_0_2_S16x512x64 (ix3 h r j) = _
  exact headMajor_apply 2048 v35 slices_S512x3072_o0_2048_S512x1024 h r j c hc

end Cert.KernelIdeal.Hand.First

end
-- ==== Proof.KI.V0.lean ====
/-
  What the three output arrays of the first region hold after it, on the extended reals, as functions of the arrays
  the region finds: entry (b, h, s, j) of q, k, v is row (b, s)'s LayerNorm against column off + 64 h + j of the
  projection matrix, plus the bias there, with off = 0, 1024, 2048.
  Point t of the 2 × 4 grid handles batch t / 4 and rows 512 (t % 4) … 512 (t % 4) + 511: it reads that block of the
  activations and the whole of the other four arrays, and writes back that block of rows of every head of each output.
  The blocks of the eight points tile each output array, so the array ends holding the function everywhere.
-/
import proofs.«146015_j42408507080997_2_alg».proof.Proof.KI.R0
import proofs.«146015_j42408507080997_2_alg».proof.Proof.KI.V0Pay

set_option maxRecDepth 16384

noncomputable section

namespace Cert.KernelIdeal.Hand.First

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

-- the TensorCore's buffer contents when the region is entered, on the extended reals
variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The grid has eight points. -/
theorem pt_lt (t : Fin cfg0.N) : t.val < 8 := lt_of_lt_of_eq t.isLt N_0

/-! ## One entry of q, k or v

Row `(b, s)` of the activations, normalised, against column `col` of the projection matrix, plus the bias at `col`. -/

def qkvAt (X : S2x2048x1024.Idx → EReal) (γ β : S1024.Idx → EReal) (W : S1024x3072.Idx → EReal) (bias : S3072.Idx → EReal)
    (col : Fin 3072) (b : Fin 2) (s : Fin 2048) : EReal :=
  (∑ d : Fin 1024, Cert.Spec.lnRow (fun d => X (ix3 b s d)) (fun d => γ (ix1 d)) (fun d => β (ix1 d)) d * W (ix2 d col))
    + bias (ix1 col)

/-- A whole head-major array of such entries, entry `(b, h, s, j)` at column `colOf h j`. -/
def Gof (colOf : Fin 16 → Fin 64 → Fin 3072) (X : S2x2048x1024.Idx → EReal) (γ β : S1024.Idx → EReal) (W : S1024x3072.Idx → EReal)
    (bias : S3072.Idx → EReal) : S2x16x2048x64.Idx → EReal :=
  fun i => qkvAt X γ β W bias (colOf (i 1) (i 3)) (i 0) (i 2)

/-! ## The printed index maps, decided over the grid's eight points

The activations' window and each output's move together: batch `t / 4`, row block `t % 4`; the other four windows
stay at block 0. -/

theorem idx_facts5 : ∀ t : Fin cfg0.N,
    win0_0.index t (0 : Fin 3) = t.val / 4 ∧ win0_0.index t (1 : Fin 3) = t.val % 4 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 4) = t.val / 4 ∧ win0_5.index t (1 : Fin 4) = 0
    ∧ win0_5.index t (2 : Fin 4) = t.val % 4 ∧ win0_5.index t (3 : Fin 4) = 0 :=
  (by decide +kernel : ∀ t : Fin grid0.N, _)

theorem idx_facts6 : ∀ t : Fin cfg0.N,
    win0_0.index t (0 : Fin 3) = t.val / 4 ∧ win0_0.index t (1 : Fin 3) = t.val % 4 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0 ∧ win0_4.index t (0 : Fin 1) = 0
    ∧ win0_6.index t (0 : Fin 4) = t.val / 4 ∧ win0_6.index t (1 : Fin 4) = 0
    ∧ win0_6.index t (2 : Fin 4) = t.val % 4 ∧ win0_6.index t (3 : Fin 4) = 0 :=
  (by decide +kernel : ∀ t : Fin grid0.N, _)

theorem idx_facts7 : ∀ t : Fin cfg0.N,
    win0_0.index t (0 : Fin 3) = t.val / 4 ∧ win0_0.index t (1 : Fin 3) = t.val % 4 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0 ∧ win0_4.index t (0 : Fin 1) = 0
    ∧ win0_7.index t (0 : Fin 4) = t.val / 4 ∧ win0_7.index t (1 : Fin 4) = 0
    ∧ win0_7.index t (2 : Fin 4) = t.val % 4 ∧ win0_7.index t (3 : Fin 4) = 0 :=
  (by decide +kernel : ∀ t : Fin grid0.N, _)

/-! ## The input blocks at a point, read at a local index -/

/-- The activations' block at point `t`: batch `t / 4`, rows from `512 (t % 4)`. -/
theorem iblk_x (c : Dev nD) (t : Fin cfg0.N) (r : Fin 512) (d : Fin 1024) :
    iblk0 V c 0 t (ix3 (0 : Fin 1) r d)
      = V c main_arg0 (ix3 (⟨t.val / 4, by have := pt_lt t; omega⟩ : Fin 2) (⟨512 * (t.val % 4) + r.val, by omega⟩ : Fin 2048) d) := by
  obtain ⟨e0, e1, e2, -⟩ := idx_facts5 t
  unfold iblk0
  rw [View.read_apply]
  show V c main_arg0 (((cfg0.win 0).blk t).view.emb (ix3 (0 : Fin 1) r d)) = V c main_arg0 _
  refine congrArg (V c main_arg0) (funext fun a => Fin.ext ?_)
  match a with
  | ⟨0, _⟩ => show win0_0.index t (0 : Fin 3) * 1 + 1 * 0 = t.val / 4; omega
  | ⟨1, _⟩ => show win0_0.index t (1 : Fin 3) * 512 + 1 * r.val = 512 * (t.val % 4) + r.val; omega
  | ⟨2, _⟩ => show win0_0.index t (2 : Fin 3) * 1024 + 1 * d.val = d.val; omega

/-- The scale's block is the whole vector, at every point. -/
theorem iblk_g (c : Dev nD) (t : Fin cfg0.N) (d : Fin 1024) : iblk0 V c 1 t (ix1 d) = V c main_arg2 (ix1 d) := by
  obtain ⟨-, -, -, e3, -⟩ := idx_facts5 t
  unfold iblk0
  rw [View.read_apply]
  show V c main_arg2 (((cfg0.win 1).blk t).view.emb (ix1 d)) = V c main_arg2 _
  refine congrArg (V c main_arg2) (funext fun a => Fin.ext ?_)
  match a with
  | ⟨0, _⟩ => show win0_1.index t (0 : Fin 1) * 1024 + 1 * d.val = d.val; omega

/-- The shift's block is the whole vector, at every point. -/
theorem iblk_b (c : Dev nD) (t : Fin cfg0.N) (d : Fin 1024) : iblk0 V c 2 t (ix1 d) = V c main_arg3 (ix1 d) := by
  obtain ⟨-, -, -, -, e4, -⟩ := idx_facts5 t
  unfold iblk0
  rw [View.read_apply]
  show V c main_arg3 (((cfg0.win 2).blk t).view.emb (ix1 d)) = V c main_arg3 _
  refine congrArg (V c main_arg3) (funext fun a => Fin.ext ?_)
  match a with
  | ⟨0, _⟩ => show win0_2.index t (0 : Fin 1) * 1024 + 1 * d.val = d.val; omega

/-- The projection matrix's block is the whole matrix, at every point. -/
theorem iblk_w (c : Dev nD) (t : Fin cfg0.N) (d : Fin 1024) (e : Fin 3072) : iblk0 V c 3 t (ix2 d e) = V c main_v1 (ix2 d e) := by
  obtain ⟨-, -, -, -, -, e5, e6, -⟩ := idx_facts5 t
  unfold iblk0
  rw [View.read_apply]
  show V c main_v1 (((cfg0.win 3).blk t).view.emb (ix2 d e)) = V c main_v1 _
  refine congrArg (V c main_v1) (funext fun a => Fin.ext ?_)
  match a with
  | ⟨0, _⟩ => show win0_3.index t (0 : Fin 2) * 1024 + 1 * d.val = d.val; omega
  | ⟨1, _⟩ => show win0_3.index t (1 : Fin 2) * 3072 + 1 * e.val = e.val; omega

/-- The bias's block is the whole vector, at every point. -/
theorem iblk_bias (c : Dev nD) (t : Fin cfg0.N) (e : Fin 3072) : iblk0 V c 4 t (ix1 e) = V c main_arg5 (ix1 e) := by
  obtain ⟨-, -, -, -, -, -, -, e7, -⟩ := idx_facts5 t
  unfold iblk0
  rw [View.read_apply]
  show V c main_arg5 (((cfg0.win 4).blk t).view.emb (ix1 e)) = V c main_arg5 _
  refine congrArg (V c main_arg5) (funext fun a => Fin.ext ?_)
  match a with
  | ⟨0, _⟩ => show win0_4.index t (0 : Fin 1) * 3072 + 1 * e.val = e.val; omega

/-! ## Output window 5: the q array -/

/-- Point `t`'s block of window 5 sits at batch `t / 4`, rows `512 (t % 4) …` of the array, all heads and features. -/
theorem emb5 (t : Fin cfg0.N) (u : Fin 1) (h : Fin 16) (r : Fin 512) (j : Fin 64) :
    ((cfg0.win 5).blk t).view.emb (ix4 u h r j)
      = ix4 (⟨t.val / 4, by have := pt_lt t; omega⟩ : Fin 2) h (⟨512 * (t.val % 4) + r.val, by omega⟩ : Fin 2048) j := by
  obtain ⟨-, -, -, -, -, -, -, -, e0, e1, e2, e3⟩ := idx_facts5 t
  funext a
  apply Fin.ext
  match a with
  | ⟨0, _⟩ => show win0_5.index t (0 : Fin 4) * 1 + 1 * u.val = t.val / 4; omega
  | ⟨1, _⟩ => show win0_5.index t (1 : Fin 4) * 16 + 1 * h.val = h.val; omega
  | ⟨2, _⟩ => show win0_5.index t (2 : Fin 4) * 512 + 1 * r.val = 512 * (t.val % 4) + r.val; omega
  | ⟨3, _⟩ => show win0_5.index t (3 : Fin 4) * 64 + 1 * j.val = j.val; omega

/-- What the q array holds after the region, as one function of the arrays the region finds. -/
abbrev G5 (c : Dev nD) : S2x16x2048x64.Idx → EReal :=
  Gof (fun h j => ⟨0 + 64 * h.val + j.val, by omega⟩) (V c main_arg0) (V c main_arg2) (V c main_arg3) (V c main_v1) (V c main_arg5)

/-- What the body leaves in window 5's buffer, at a local index, from the five input blocks. -/
theorem out0_5_apply (x0 : Vec Ideal S1x512x1024 .f32) (x1 x2 : Vec Ideal S1024 .f32) (x3 : Vec Ideal S1024x3072 .bf16) (x4 : Vec Ideal S3072 .f32)
    (u : Fin 1) (h : Fin 16) (r : Fin 512) (j : Fin 64) :
    out0_5 x0 x1 x2 x3 x4 (ix4 u h r j)
      = (∑ d : Fin 1024, Cert.Spec.lnRow (fun d => x0 (ix3 (0 : Fin 1) r d)) (fun d => x1 (ix1 d)) (fun d => x2 (ix1 d)) d
            * x3 (ix2 d (⟨0 + 64 * h.val + j.val, by omega⟩ : Fin 3072)))
          + x4 (ix1 (⟨0 + 64 * h.val + j.val, by omega⟩ : Fin 3072)) := by
  unfold out0_5
  rw [View.canon_unit_zero hz4]
  simp only [View.ld_unit_zero (S := S1x512x1024) hz3, View.ld_unit_zero (S := S1024) hz1, View.ld_unit_zero (S := S1024x3072) hz2,
    View.ld_unit_zero (S := S3072) hz1]
  rw [pay1_pay5_apply x0 x1 x2 x3 x4 u h r j (⟨0 + 64 * h.val + j.val, by omega⟩ : Fin 3072) (by show 0 + 64 * h.val + j.val = 64 * h.val + j.val; omega), pay4_apply]

/-- WHAT POINT `t` WRITES BACK is block `t` of `G5`. -/
theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  funext y
  obtain ⟨u, h, r, j, rfl⟩ : ∃ (u : Fin 1) (h : Fin 16) (r : Fin 512) (j : Fin 64), y = ix4 u h r j :=
    ⟨y 0, y 1, y 2, y 3, eq_ix4 (n0 := 1) (n1 := 16) (n2 := 512) (n3 := 64) y⟩
  rw [View.read_apply, emb5]
  show out0_5 (iblk0 V c 0 t) (iblk0 V c 1 t) (iblk0 V c 2 t) (iblk0 V c 3 t) (iblk0 V c 4 t) (ix4 u h r j) = _
  rw [out0_5_apply]
  simp only [iblk_x, iblk_g, iblk_b, iblk_w, iblk_bias]
  rfl

/-- An index of the array is in point `t`'s block iff each coordinate is in the block's range on its axis. -/
theorem mem_blk5 (t : Fin cfg0.N) (i : S2x16x2048x64.Idx) :
    i ∈ ((cfg0.win 5).blk t).view.set ↔ ∀ a : Fin 4, win0_5.index t a * S1x16x512x64.size a ≤ (i a).val ∧ (i a).val < win0_5.index t a * S1x16x512x64.size a + S1x16x512x64.size a := by
  show i ∈ ((View.whole main_v2_0).slice (win0_5.rect t)).set ↔ _
  rw [View.set_slice_whole, Rect.mem_set_unit]
  exact Iff.rfl

/-- Every entry of the array is in some point's block: entry `(b, h, s, j)` in point `4 b + s / 512`'s. -/
theorem cover5 (i : S2x16x2048x64.Idx) : ∃ t : Fin cfg0.N, (cfg0.win 5).flush t = true ∧ i ∈ ((cfg0.win 5).blk t).view.set := by
  have h0 : (i 0).val < 2 := (i 0).isLt
  have h1 : (i 1).val < 16 := (i 1).isLt
  have h2 : (i 2).val < 2048 := (i 2).isLt
  have h3 : (i 3).val < 64 := (i 3).isLt
  refine ⟨⟨4 * (i 0).val + (i 2).val / 512, lt_of_lt_of_eq (show 4 * (i 0).val + (i 2).val / 512 < 8 by omega) N_0.symm⟩, flush0_5 _, ?_⟩
  rw [mem_blk5]
  obtain ⟨-, -, -, -, -, -, -, -, e0, e1, e2, e3⟩ := idx_facts5 ⟨4 * (i 0).val + (i 2).val / 512, lt_of_lt_of_eq (show 4 * (i 0).val + (i 2).val / 512 < 8 by omega) N_0.symm⟩
  intro a
  match a with
  | ⟨0, _⟩ => show win0_5.index _ (0 : Fin 4) * 1 ≤ (i 0).val ∧ (i 0).val < win0_5.index _ (0 : Fin 4) * 1 + 1; simp only at e0; omega
  | ⟨1, _⟩ => show win0_5.index _ (1 : Fin 4) * 16 ≤ (i 1).val ∧ (i 1).val < win0_5.index _ (1 : Fin 4) * 16 + 16; omega
  | ⟨2, _⟩ => show win0_5.index _ (2 : Fin 4) * 512 ≤ (i 2).val ∧ (i 2).val < win0_5.index _ (2 : Fin 4) * 512 + 512; simp only at e2; omega
  | ⟨3, _⟩ => show win0_5.index _ (3 : Fin 4) * 64 ≤ (i 3).val ∧ (i 3).val < win0_5.index _ (3 : Fin 4) * 64 + 64; omega

/-- THE Q ARRAY after the region. -/
theorem final5 (c : Dev nD) : (dat0 V c).arrAt 5 cfg0.N = G5 V c :=
  (dat0 V c).arrAt_eq_of_cover 5 (G5 V c) (fun t _ => flushed5_eq V c t) cover5

/-! ## Output window 6: the k array -/

/-- Point `t`'s block of window 6 sits at batch `t / 4`, rows `512 (t % 4) …` of the array, all heads and features. -/
theorem emb6 (t : Fin cfg0.N) (u : Fin 1) (h : Fin 16) (r : Fin 512) (j : Fin 64) :
    ((cfg0.win 6).blk t).view.emb (ix4 u h r j)
      = ix4 (⟨t.val / 4, by have := pt_lt t; omega⟩ : Fin 2) h (⟨512 * (t.val % 4) + r.val, by omega⟩ : Fin 2048) j := by
  obtain ⟨-, -, -, -, -, -, -, -, e0, e1, e2, e3⟩ := idx_facts6 t
  funext a
  apply Fin.ext
  match a with
  | ⟨0, _⟩ => show win0_6.index t (0 : Fin 4) * 1 + 1 * u.val = t.val / 4; omega
  | ⟨1, _⟩ => show win0_6.index t (1 : Fin 4) * 16 + 1 * h.val = h.val; omega
  | ⟨2, _⟩ => show win0_6.index t (2 : Fin 4) * 512 + 1 * r.val = 512 * (t.val % 4) + r.val; omega
  | ⟨3, _⟩ => show win0_6.index t (3 : Fin 4) * 64 + 1 * j.val = j.val; omega

/-- What the k array holds after the region, as one function of the arrays the region finds. -/
abbrev G6 (c : Dev nD) : S2x16x2048x64.Idx → EReal :=
  Gof (fun h j => ⟨1024 + 64 * h.val + j.val, by omega⟩) (V c main_arg0) (V c main_arg2) (V c main_arg3) (V c main_v1) (V c main_arg5)

/-- What the body leaves in window 6's buffer, at a local index, from the five input blocks. -/
theorem out0_6_apply (x0 : Vec Ideal S1x512x1024 .f32) (x1 x2 : Vec Ideal S1024 .f32) (x3 : Vec Ideal S1024x3072 .bf16) (x4 : Vec Ideal S3072 .f32)
    (u : Fin 1) (h : Fin 16) (r : Fin 512) (j : Fin 64) :
    out0_6 x0 x1 x2 x3 x4 (ix4 u h r j)
      = (∑ d : Fin 1024, Cert.Spec.lnRow (fun d => x0 (ix3 (0 : Fin 1) r d)) (fun d => x1 (ix1 d)) (fun d => x2 (ix1 d)) d
            * x3 (ix2 d (⟨1024 + 64 * h.val + j.val, by omega⟩ : Fin 3072)))
          + x4 (ix1 (⟨1024 + 64 * h.val + j.val, by omega⟩ : Fin 3072)) := by
  unfold out0_6
  rw [View.canon_unit_zero hz4]
  simp only [View.ld_unit_zero (S := S1x512x1024) hz3, View.ld_unit_zero (S := S1024) hz1, View.ld_unit_zero (S := S1024x3072) hz2,
    View.ld_unit_zero (S := S3072) hz1]
  rw [pay2_apply _ u h r j (⟨1024 + 64 * h.val + j.val, by omega⟩ : Fin 3072) rfl, pay4_apply]

/-- WHAT POINT `t` WRITES BACK is block `t` of `G6`. -/
theorem flushed6_eq (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6]
  funext y
  obtain ⟨u, h, r, j, rfl⟩ : ∃ (u : Fin 1) (h : Fin 16) (r : Fin 512) (j : Fin 64), y = ix4 u h r j :=
    ⟨y 0, y 1, y 2, y 3, eq_ix4 (n0 := 1) (n1 := 16) (n2 := 512) (n3 := 64) y⟩
  rw [View.read_apply, emb6]
  show out0_6 (iblk0 V c 0 t) (iblk0 V c 1 t) (iblk0 V c 2 t) (iblk0 V c 3 t) (iblk0 V c 4 t) (ix4 u h r j) = _
  rw [out0_6_apply]
  simp only [iblk_x, iblk_g, iblk_b, iblk_w, iblk_bias]
  rfl

/-- An index of the array is in point `t`'s block iff each coordinate is in the block's range on its axis. -/
theorem mem_blk6 (t : Fin cfg0.N) (i : S2x16x2048x64.Idx) :
    i ∈ ((cfg0.win 6).blk t).view.set ↔ ∀ a : Fin 4, win0_6.index t a * S1x16x512x64.size a ≤ (i a).val ∧ (i a).val < win0_6.index t a * S1x16x512x64.size a + S1x16x512x64.size a := by
  show i ∈ ((View.whole main_v2_1).slice (win0_6.rect t)).set ↔ _
  rw [View.set_slice_whole, Rect.mem_set_unit]
  exact Iff.rfl

/-- Every entry of the array is in some point's block: entry `(b, h, s, j)` in point `4 b + s / 512`'s. -/
theorem cover6 (i : S2x16x2048x64.Idx) : ∃ t : Fin cfg0.N, (cfg0.win 6).flush t = true ∧ i ∈ ((cfg0.win 6).blk t).view.set := by
  have h0 : (i 0).val < 2 := (i 0).isLt
  have h1 : (i 1).val < 16 := (i 1).isLt
  have h2 : (i 2).val < 2048 := (i 2).isLt
  have h3 : (i 3).val < 64 := (i 3).isLt
  refine ⟨⟨4 * (i 0).val + (i 2).val / 512, lt_of_lt_of_eq (show 4 * (i 0).val + (i 2).val / 512 < 8 by omega) N_0.symm⟩, flush0_6 _, ?_⟩
  rw [mem_blk6]
  obtain ⟨-, -, -, -, -, -, -, -, e0, e1, e2, e3⟩ := idx_facts6 ⟨4 * (i 0).val + (i 2).val / 512, lt_of_lt_of_eq (show 4 * (i 0).val + (i 2).val / 512 < 8 by omega) N_0.symm⟩
  intro a
  match a with
  | ⟨0, _⟩ => show win0_6.index _ (0 : Fin 4) * 1 ≤ (i 0).val ∧ (i 0).val < win0_6.index _ (0 : Fin 4) * 1 + 1; simp only at e0; omega
  | ⟨1, _⟩ => show win0_6.index _ (1 : Fin 4) * 16 ≤ (i 1).val ∧ (i 1).val < win0_6.index _ (1 : Fin 4) * 16 + 16; omega
  | ⟨2, _⟩ => show win0_6.index _ (2 : Fin 4) * 512 ≤ (i 2).val ∧ (i 2).val < win0_6.index _ (2 : Fin 4) * 512 + 512; simp only at e2; omega
  | ⟨3, _⟩ => show win0_6.index _ (3 : Fin 4) * 64 ≤ (i 3).val ∧ (i 3).val < win0_6.index _ (3 : Fin 4) * 64 + 64; omega

/-- THE K ARRAY after the region. -/
theorem final6 (c : Dev nD) : (dat0 V c).arrAt 6 cfg0.N = G6 V c :=
  (dat0 V c).arrAt_eq_of_cover 6 (G6 V c) (fun t _ => flushed6_eq V c t) cover6

/-! ## Output window 7: the v array -/

/-- Point `t`'s block of window 7 sits at batch `t / 4`, rows `512 (t % 4) …` of the array, all heads and features. -/
theorem emb7 (t : Fin cfg0.N) (u : Fin 1) (h : Fin 16) (r : Fin 512) (j : Fin 64) :
    ((cfg0.win 7).blk t).view.emb (ix4 u h r j)
      = ix4 (⟨t.val / 4, by have := pt_lt t; omega⟩ : Fin 2) h (⟨512 * (t.val % 4) + r.val, by omega⟩ : Fin 2048) j := by
  obtain ⟨-, -, -, -, -, -, -, -, e0, e1, e2, e3⟩ := idx_facts7 t
  funext a
  apply Fin.ext
  match a with
  | ⟨0, _⟩ => show win0_7.index t (0 : Fin 4) * 1 + 1 * u.val = t.val / 4; omega
  | ⟨1, _⟩ => show win0_7.index t (1 : Fin 4) * 16 + 1 * h.val = h.val; omega
  | ⟨2, _⟩ => show win0_7.index t (2 : Fin 4) * 512 + 1 * r.val = 512 * (t.val % 4) + r.val; omega
  | ⟨3, _⟩ => show win0_7.index t (3 : Fin 4) * 64 + 1 * j.val = j.val; omega

/-- What the v array holds after the region, as one function of the arrays the region finds. -/
abbrev G7 (c : Dev nD) : S2x16x2048x64.Idx → EReal :=
  Gof (fun h j => ⟨2048 + 64 * h.val + j.val, by omega⟩) (V c main_arg0) (V c main_arg2) (V c main_arg3) (V c main_v1) (V c main_arg5)

/-- What the body leaves in window 7's buffer, at a local index, from the five input blocks. -/
theorem out0_7_apply (x0 : Vec Ideal S1x512x1024 .f32) (x1 x2 : Vec Ideal S1024 .f32) (x3 : Vec Ideal S1024x3072 .bf16) (x4 : Vec Ideal S3072 .f32)
    (u : Fin 1) (h : Fin 16) (r : Fin 512) (j : Fin 64) :
    out0_7 x0 x1 x2 x3 x4 (ix4 u h r j)
      = (∑ d : Fin 1024, Cert.Spec.lnRow (fun d => x0 (ix3 (0 : Fin 1) r d)) (fun d => x1 (ix1 d)) (fun d => x2 (ix1 d)) d
            * x3 (ix2 d (⟨2048 + 64 * h.val + j.val, by omega⟩ : Fin 3072)))
          + x4 (ix1 (⟨2048 + 64 * h.val + j.val, by omega⟩ : Fin 3072)) := by
  unfold out0_7
  rw [View.canon_unit_zero hz4]
  simp only [View.ld_unit_zero (S := S1x512x1024) hz3, View.ld_unit_zero (S := S1024) hz1, View.ld_unit_zero (S := S1024x3072) hz2,
    View.ld_unit_zero (S := S3072) hz1]
  rw [pay3_apply _ u h r j (⟨2048 + 64 * h.val + j.val, by omega⟩ : Fin 3072) rfl, pay4_apply]

/-- WHAT POINT `t` WRITES BACK is block `t` of `G7`. -/
theorem flushed7_eq (c : Dev nD) (t : Fin cfg0.N) :
    (dat0 V c).flushed 7 t = ((cfg0.win 7).blk t).view.read (Elt Ideal) (G7 V c) := by
  show (cfg0.win 7).cut (grid0.coords t) ((dat0 V c).after 7 t) = _
  rw [after0_7]
  funext y
  obtain ⟨u, h, r, j, rfl⟩ : ∃ (u : Fin 1) (h : Fin 16) (r : Fin 512) (j : Fin 64), y = ix4 u h r j :=
    ⟨y 0, y 1, y 2, y 3, eq_ix4 (n0 := 1) (n1 := 16) (n2 := 512) (n3 := 64) y⟩
  rw [View.read_apply, emb7]
  show out0_7 (iblk0 V c 0 t) (iblk0 V c 1 t) (iblk0 V c 2 t) (iblk0 V c 3 t) (iblk0 V c 4 t) (ix4 u h r j) = _
  rw [out0_7_apply]
  simp only [iblk_x, iblk_g, iblk_b, iblk_w, iblk_bias]
  rfl

/-- An index of the array is in point `t`'s block iff each coordinate is in the block's range on its axis. -/
theorem mem_blk7 (t : Fin cfg0.N) (i : S2x16x2048x64.Idx) :
    i ∈ ((cfg0.win 7).blk t).view.set ↔ ∀ a : Fin 4, win0_7.index t a * S1x16x512x64.size a ≤ (i a).val ∧ (i a).val < win0_7.index t a * S1x16x512x64.size a + S1x16x512x64.size a := by
  show i ∈ ((View.whole main_v2_2).slice (win0_7.rect t)).set ↔ _
  rw [View.set_slice_whole, Rect.mem_set_unit]
  exact Iff.rfl

/-- Every entry of the array is in some point's block: entry `(b, h, s, j)` in point `4 b + s / 512`'s. -/
theorem cover7 (i : S2x16x2048x64.Idx) : ∃ t : Fin cfg0.N, (cfg0.win 7).flush t = true ∧ i ∈ ((cfg0.win 7).blk t).view.set := by
  have h0 : (i 0).val < 2 := (i 0).isLt
  have h1 : (i 1).val < 16 := (i 1).isLt
  have h2 : (i 2).val < 2048 := (i 2).isLt
  have h3 : (i 3).val < 64 := (i 3).isLt
  refine ⟨⟨4 * (i 0).val + (i 2).val / 512, lt_of_lt_of_eq (show 4 * (i 0).val + (i 2).val / 512 < 8 by omega) N_0.symm⟩, flush0_7 _, ?_⟩
  rw [mem_blk7]
  obtain ⟨-, -, -, -, -, -, -, -, e0, e1, e2, e3⟩ := idx_facts7 ⟨4 * (i 0).val + (i 2).val / 512, lt_of_lt_of_eq (show 4 * (i 0).val + (i 2).val / 512 < 8 by omega) N_0.symm⟩
  intro a
  match a with
  | ⟨0, _⟩ => show win0_7.index _ (0 : Fin 4) * 1 ≤ (i 0).val ∧ (i 0).val < win0_7.index _ (0 : Fin 4) * 1 + 1; simp only at e0; omega
  | ⟨1, _⟩ => show win0_7.index _ (1 : Fin 4) * 16 ≤ (i 1).val ∧ (i 1).val < win0_7.index _ (1 : Fin 4) * 16 + 16; omega
  | ⟨2, _⟩ => show win0_7.index _ (2 : Fin 4) * 512 ≤ (i 2).val ∧ (i 2).val < win0_7.index _ (2 : Fin 4) * 512 + 512; simp only at e2; omega
  | ⟨3, _⟩ => show win0_7.index _ (3 : Fin 4) * 64 ≤ (i 3).val ∧ (i 3).val < win0_7.index _ (3 : Fin 4) * 64 + 64; omega

/-- THE V ARRAY after the region. -/
theorem final7 (c : Dev nD) : (dat0 V c).arrAt 7 cfg0.N = G7 V c :=
  (dat0 V c).arrAt_eq_of_cover 7 (G7 V c) (fun t _ => flushed7_eq V c t) cover7

/-! ## The three arrays, entry by entry -/

theorem q_arr (c : Dev nD) (b : Fin 2) (h : Fin 16) (s : Fin 2048) (j : Fin 64) :
    (dat0 (F := Ideal) V c).arrAt 5 cfg0.N (ix4 b h s j)
      = (∑ d : Fin 1024, Cert.Spec.lnRow (fun d => V c main_arg0 (ix3 b s d)) (fun d => V c main_arg2 (ix1 d)) (fun d => V c main_arg3 (ix1 d)) d
            * V c main_v1 (ix2 d ⟨64 * h.val + j.val, by omega⟩))
          + V c main_arg5 (ix1 ⟨64 * h.val + j.val, by omega⟩) := by
  rw [final5]
  show qkvAt _ _ _ _ _ (⟨0 + 64 * h.val + j.val, _⟩ : Fin 3072) b s = _
  rw [show (⟨0 + 64 * h.val + j.val, by omega⟩ : Fin 3072) = ⟨64 * h.val + j.val, by omega⟩ from
    Fin.ext (by show 0 + 64 * h.val + j.val = 64 * h.val + j.val; omega)]
  rfl

theorem k_arr (c : Dev nD) (b : Fin 2) (h : Fin 16) (s : Fin 2048) (j : Fin 64) :
    (dat0 (F := Ideal) V c).arrAt 6 cfg0.N (ix4 b h s j)
      = (∑ d : Fin 1024, Cert.Spec.lnRow (fun d => V c main_arg0 (ix3 b s d)) (fun d => V c main_arg2 (ix1 d)) (fun d => V c main_arg3 (ix1 d)) d
            * V c main_v1 (ix2 d ⟨1024 + 64 * h.val + j.val, by omega⟩))
          + V c main_arg5 (ix1 ⟨1024 + 64 * h.val + j.val, by omega⟩) := by
  rw [final6]
  rfl

theorem v_arr (c : Dev nD) (b : Fin 2) (h : Fin 16) (s : Fin 2048) (j : Fin 64) :
    (dat0 (F := Ideal) V c).arrAt 7 cfg0.N (ix4 b h s j)
      = (∑ d : Fin 1024, Cert.Spec.lnRow (fun d => V c main_arg0 (ix3 b s d)) (fun d => V c main_arg2 (ix1 d)) (fun d => V c main_arg3 (ix1 d)) d
            * V c main_v1 (ix2 d ⟨2048 + 64 * h.val + j.val, by omega⟩))
          + V c main_arg5 (ix1 ⟨2048 + 64 * h.val + j.val, by omega⟩) := by
  rw [final7]
  rfl

end Cert.KernelIdeal.Hand.First

end
-- ==== Proof.KI.Glue0.lean ====
/-
  The first region's three results are the specification's query, key and value.

  After the first region, entry (b, h, s, j) of each result array is the LayerNorm of row (b, s) of the activations
  against one column of the projection weights the region reads, plus the bias there: column 64·h + j for the query,
  1024 + 64·h + j for the key, 2048 + 64·h + j for the value. The region reads the arguments as launched, and its
  weights are the projection argument transposed, so entry (d, e) of what it reads is entry (e, d) of the argument:
  the sum over the features d is the specification's fused projection at that column.
-/
import proofs.«146015_j42408507080997_2_alg».proof.Proof.KI.Entry
import proofs.«146015_j42408507080997_2_alg».proof.Proof.KI.V0
import proofs.«146015_j42408507080997_2_alg».proof.Proof.Spec
import proofs.«146015_j42408507080997_2_alg».proof.Proof.RefSpec

set_option maxRecDepth 16384

noncomputable section

namespace Cert.KernelIdeal.Hand

open Cert.KernelIdeal.Hand.First

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ) (ρ : Dev nD → PrngReg)

/-- A row's LayerNorm against column `col` of the weights the first region reads, plus the bias there, is the
    specification's fused projection at `col`. -/
theorem qkv_glue (c : Dev nD) (b : Fin 2) (s : Fin 2048) (col : Fin 3072) :
    (∑ d : Fin 1024, Cert.Spec.lnRow (fun d => V1 m ρ c main_arg0 (ix3 b s d)) (fun d => V1 m ρ c main_arg2 (ix1 d))
          (fun d => V1 m ρ c main_arg3 (ix1 d)) d * V1 m ρ c main_v1 (ix2 d col))
        + V1 m ρ c main_arg5 (ix1 col)
      = Cert.Spec.qkv (Cert.ReferenceIdeal.Hand.arr3 (m ((c : Thread nD τ).loc main_arg0) : S2x2048x1024.Idx → EReal))
        (Cert.ReferenceIdeal.Hand.arr1 (m ((c : Thread nD τ).loc main_arg2) : S1024.Idx → EReal))
        (Cert.ReferenceIdeal.Hand.arr1 (m ((c : Thread nD τ).loc main_arg3) : S1024.Idx → EReal))
        (Cert.ReferenceIdeal.Hand.arr2 (m ((c : Thread nD τ).loc main_arg4) : S3072x1024.Idx → EReal))
        (Cert.ReferenceIdeal.Hand.arr1 (m ((c : Thread nD τ).loc main_arg5) : S3072.Idx → EReal)) b s col := by
  rw [V1_arg0, V1_arg2, V1_arg3, V1_arg5]
  unfold Cert.Spec.qkv Cert.Spec.xn
  refine congrArg (fun t => t + _) (Finset.sum_congr rfl fun d _ => ?_)
  rw [V1_v1]

/-- The first result is the query. -/
theorem q_spec (c : Dev nD) (b : Fin 2) (h : Fin 16) (s : Fin 2048) (j : Fin 64) :
    (V3 m ρ c main_v2_0 : S2x16x2048x64.Idx → EReal) (ix4 b h s j)
      = Cert.Spec.q (Cert.ReferenceIdeal.Hand.arr3 (m ((c : Thread nD τ).loc main_arg0) : S2x2048x1024.Idx → EReal))
        (Cert.ReferenceIdeal.Hand.arr1 (m ((c : Thread nD τ).loc main_arg2) : S1024.Idx → EReal))
        (Cert.ReferenceIdeal.Hand.arr1 (m ((c : Thread nD τ).loc main_arg3) : S1024.Idx → EReal))
        (Cert.ReferenceIdeal.Hand.arr2 (m ((c : Thread nD τ).loc main_arg4) : S3072x1024.Idx → EReal))
        (Cert.ReferenceIdeal.Hand.arr1 (m ((c : Thread nD τ).loc main_arg5) : S3072.Idx → EReal)) b h s j := by
  rw [V3_q, q_arr (V1 m ρ) c b h s j]
  exact qkv_glue m ρ c b s _

/-- The second result is the key. -/
theorem k_spec (c : Dev nD) (b : Fin 2) (h : Fin 16) (s : Fin 2048) (j : Fin 64) :
    (V3 m ρ c main_v2_1 : S2x16x2048x64.Idx → EReal) (ix4 b h s j)
      = Cert.Spec.kk (Cert.ReferenceIdeal.Hand.arr3 (m ((c : Thread nD τ).loc main_arg0) : S2x2048x1024.Idx → EReal))
        (Cert.ReferenceIdeal.Hand.arr1 (m ((c : Thread nD τ).loc main_arg2) : S1024.Idx → EReal))
        (Cert.ReferenceIdeal.Hand.arr1 (m ((c : Thread nD τ).loc main_arg3) : S1024.Idx → EReal))
        (Cert.ReferenceIdeal.Hand.arr2 (m ((c : Thread nD τ).loc main_arg4) : S3072x1024.Idx → EReal))
        (Cert.ReferenceIdeal.Hand.arr1 (m ((c : Thread nD τ).loc main_arg5) : S3072.Idx → EReal)) b h s j := by
  rw [V3_k, k_arr (V1 m ρ) c b h s j]
  have e : (⟨1024 + 64 * h.val + j.val, by have := h.isLt; have := j.isLt; omega⟩ : Fin 3072) = Cert.Spec.colK h j :=
    Fin.ext (by show 1024 + 64 * h.val + j.val = 1024 + (64 * h.val + j.val); omega)
  rw [e]
  exact qkv_glue m ρ c b s _

/-- The third result is the value. -/
theorem v_spec (c : Dev nD) (b : Fin 2) (h : Fin 16) (s : Fin 2048) (j : Fin 64) :
    (V3 m ρ c main_v2_2 : S2x16x2048x64.Idx → EReal) (ix4 b h s j)
      = Cert.Spec.v (Cert.ReferenceIdeal.Hand.arr3 (m ((c : Thread nD τ).loc main_arg0) : S2x2048x1024.Idx → EReal))
        (Cert.ReferenceIdeal.Hand.arr1 (m ((c : Thread nD τ).loc main_arg2) : S1024.Idx → EReal))
        (Cert.ReferenceIdeal.Hand.arr1 (m ((c : Thread nD τ).loc main_arg3) : S1024.Idx → EReal))
        (Cert.ReferenceIdeal.Hand.arr2 (m ((c : Thread nD τ).loc main_arg4) : S3072x1024.Idx → EReal))
        (Cert.ReferenceIdeal.Hand.arr1 (m ((c : Thread nD τ).loc main_arg5) : S3072.Idx → EReal)) b h s j := by
  rw [V3_v, v_arr (V1 m ρ) c b h s j]
  have e : (⟨2048 + 64 * h.val + j.val, by have := h.isLt; have := j.isLt; omega⟩ : Fin 3072) = Cert.Spec.colV h j :=
    Fin.ext (by show 2048 + 64 * h.val + j.val = 2048 + (64 * h.val + j.val); omega)
  rw [e]
  exact qkv_glue m ρ c b s _

end Cert.KernelIdeal.Hand

end
-- ==== Proof.KI.R1v.lean ====
import proofs.«146015_j42408507080997_2_alg».proof.Proof.KI.R1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the found pieces are, over the payloads

The head's rows of the key and value blocks and the head's rows of the projection weights are what the body loads
through its point-dependent rectangles: `View.ld` of the block at that rectangle. -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- One head's term added to the first accumulator: the out-projection, by the head's 64 rows of the weights, of the
    head's context (the softmax of the scaled scores of the query block against the head's keys, times the head's
    values), added to what the accumulator held. -/
def headAcc0 (i : grid1.Coords) (x0 : Vec F S1x1x512x64 .f32) (x1 : Vec F S1x16x2048x64 .f32) (x2 : Vec F S1x16x2048x64 .bf16)
    (x4 : Vec F S1024x1024 .bf16) (prev : Vec F S512x1024 .f32) : Vec F S512x1024 .f32 :=
  k1_pay1 (k1_pay8 x0 (View.ld x1 (Rect.unit (k1_off1 i) S1x1x2048x64.size (k1_off1_inb i))) (View.ld x2 (Rect.unit (k1_off1 i) S1x1x2048x64.size (k1_off1_inb i))) (View.ld x4 (Rect.unit (k1_off2 i) S64x1024.size (k1_off2_inb i))) prev)

/-- One head's term added to the second accumulator: the head's softmax probabilities added to what it held. -/
def headAcc1 (i : grid1.Coords) (x0 : Vec F S1x1x512x64 .f32) (x1 : Vec F S1x16x2048x64 .f32)
    (prev : Vec F S512x2048 .f32) : Vec F S512x2048 .f32 :=
  k1_pay2 (k1_pay7 x0 (View.ld x1 (Rect.unit (k1_off1 i) S1x1x2048x64.size (k1_off1_inb i)))) prev

theorem sout1_B_0_eq (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) :
    sout1_B_0 c i arg3 harg3 arg4 harg4 arg5 harg5 arg6 harg6 arg7 harg7 arg8 harg8 arg9 harg9 arg10 harg10 arg11 harg11 arg12 harg12 hc0 hc1 x0 x1 x2 x3 x4 x5 xs0 xs1 = headAcc0 i x0 x1 x2 x4 xs0 := by
  unfold sout1_B_0 headAcc0
  rw [View.read_writes_eq_canon _ _ _ (scover1_B_0 c i arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun1_B
  dsimp only
  sl_unfold_words
  rw [View.canon_unit_zero hz2]
  simp only [View.readAt_eq_ld, harg3.read_unread, harg4.read_unread, harg5.read_unread, harg6.read_unread, harg7.read_unread, harg8.read_unread, harg11.read_unread, harg12.read_unread, View.ld_unit_zero (S := S1x1x512x64) hz4, View.ld_unit_zero (S := S512x1024) hz2, View.ld_unit_zero (S := S512x2048) hz2, View.ld_unit_zero (S := S1x512x1024) hz3, View.ld_unit_zero (S := S1024) hz1, View.readCov_unit_zero (S := S512x1024) _ hz2, View.readCov_unit_zero (S := S512x2048) _ hz2]
  try rfl

theorem sout1_B_1_eq (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) :
    sout1_B_1 c i arg3 harg3 arg4 harg4 arg5 harg5 arg6 harg6 arg7 harg7 arg8 harg8 arg9 harg9 arg10 harg10 arg11 harg11 arg12 harg12 hc0 hc1 x0 x1 x2 x3 x4 x5 xs0 xs1 = headAcc1 i x0 x1 xs1 := by
  unfold sout1_B_1 headAcc1
  rw [View.read_writes_eq_canon _ _ _ (scover1_B_1 c i arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun1_B
  dsimp only
  sl_unfold_words
  rw [View.canon_unit_zero hz2]
  simp only [View.readAt_eq_ld, harg3.read_unread, harg4.read_unread, harg5.read_unread, harg6.read_unread, harg7.read_unread, harg8.read_unread, harg11.read_unread, harg12.read_unread, View.ld_unit_zero (S := S1x1x512x64) hz4, View.ld_unit_zero (S := S512x1024) hz2, View.ld_unit_zero (S := S512x2048) hz2, View.ld_unit_zero (S := S1x512x1024) hz3, View.ld_unit_zero (S := S1024) hz1, View.readCov_unit_zero (S := S512x1024) _ hz2, View.readCov_unit_zero (S := S512x2048) _ hz2]
  try rfl

theorem sout1_A_0_eq (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) :
    sout1_A_0 c i arg3 harg3 arg4 harg4 arg5 harg5 arg6 harg6 arg7 harg7 arg8 harg8 arg9 harg9 arg10 harg10 arg11 harg11 arg12 harg12 hc0 hc1 x0 x1 x2 x3 x4 x5 = headAcc0 i x0 x1 x2 x4 (k1_pay5 (F := F)) := by
  unfold sout1_A_0 headAcc0
  rw [View.read_writes_eq_canon _ _ _ (scover1_A_0 c i arg3 harg3 arg4 harg4 arg5 harg5 arg6 harg6 arg7 harg7 arg8 harg8 arg9 harg9 arg10 harg10 arg11 harg11 arg12 harg12 hc0 hc1 x0 x1 x2 x3 x4 x5)]
  unfold kernelRun1_A
  dsimp only
  sl_unfold_words
  rw [View.canon_cons_unit_zero (S := S512x1024) hz2]
  simp only [View.readAt_eq_ld, harg3.read_unread, harg4.read_unread, harg5.read_unread, harg6.read_unread, harg7.read_unread, harg8.read_unread, harg11.read_unread, harg12.read_unread, View.ld_unit_zero (S := S1x1x512x64) hz4, View.ld_unit_zero (S := S512x1024) hz2, View.ld_unit_zero (S := S512x2048) hz2, View.ld_unit_zero (S := S1x512x1024) hz3, View.ld_unit_zero (S := S1024) hz1, View.readCov_unit_zero (S := S512x1024) _ hz2, View.readCov_unit_zero (S := S512x2048) _ hz2]
  try rfl

theorem sout1_A_1_eq (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : cond1_0 i) (hc1 : ¬cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) :
    sout1_A_1 c i arg3 harg3 arg4 harg4 arg5 harg5 arg6 harg6 arg7 harg7 arg8 harg8 arg9 harg9 arg10 harg10 arg11 harg11 arg12 harg12 hc0 hc1 x0 x1 x2 x3 x4 x5 = headAcc1 i x0 x1 (k1_pay6 (F := F)) := by
  unfold sout1_A_1 headAcc1
  rw [View.read_writes_eq_canon _ _ _ (scover1_A_1 c i arg3 harg3 arg4 harg4 arg5 harg5 arg6 harg6 arg7 harg7 arg8 harg8 arg9 harg9 arg10 harg10 arg11 harg11 arg12 harg12 hc0 hc1 x0 x1 x2 x3 x4 x5)]
  unfold kernelRun1_A
  dsimp only
  sl_unfold_words
  rw [View.canon_cons_unit_zero (S := S512x2048) hz2]
  simp only [View.readAt_eq_ld, harg3.read_unread, harg4.read_unread, harg5.read_unread, harg6.read_unread, harg7.read_unread, harg8.read_unread, harg11.read_unread, harg12.read_unread, View.ld_unit_zero (S := S1x1x512x64) hz4, View.ld_unit_zero (S := S512x1024) hz2, View.ld_unit_zero (S := S512x2048) hz2, View.ld_unit_zero (S := S1x512x1024) hz3, View.ld_unit_zero (S := S1024) hz1, View.readCov_unit_zero (S := S512x1024) _ hz2, View.readCov_unit_zero (S := S512x2048) _ hz2]
  try rfl

theorem sout1_C_0_eq (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) :
    sout1_C_0 c i arg3 harg3 arg4 harg4 arg5 harg5 arg6 harg6 arg7 harg7 arg8 harg8 arg9 harg9 arg10 harg10 arg11 harg11 arg12 harg12 hc0 hc1 x0 x1 x2 x3 x4 x5 xs0 xs1 = headAcc0 i x0 x1 x2 x4 xs0 := by
  unfold sout1_C_0 headAcc0
  rw [View.read_writes_eq_canon _ _ _ (scover1_C_0 c i arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun1_C
  dsimp only
  sl_unfold_words
  rw [View.canon_unit_zero hz2]
  simp only [View.readAt_eq_ld, harg3.read_unread, harg4.read_unread, harg5.read_unread, harg6.read_unread, harg7.read_unread, harg8.read_unread, harg11.read_unread, harg12.read_unread, View.ld_unit_zero (S := S1x1x512x64) hz4, View.ld_unit_zero (S := S512x1024) hz2, View.ld_unit_zero (S := S512x2048) hz2, View.ld_unit_zero (S := S1x512x1024) hz3, View.ld_unit_zero (S := S1024) hz1, View.readCov_unit_zero (S := S512x1024) _ hz2, View.readCov_unit_zero (S := S512x2048) _ hz2]
  try rfl

theorem sout1_C_1_eq (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) :
    sout1_C_1 c i arg3 harg3 arg4 harg4 arg5 harg5 arg6 harg6 arg7 harg7 arg8 harg8 arg9 harg9 arg10 harg10 arg11 harg11 arg12 harg12 hc0 hc1 x0 x1 x2 x3 x4 x5 xs0 xs1 = headAcc1 i x0 x1 xs1 := by
  unfold sout1_C_1 headAcc1
  rw [View.read_writes_eq_canon _ _ _ (scover1_C_1 c i arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun1_C
  dsimp only
  sl_unfold_words
  rw [View.canon_unit_zero hz2]
  simp only [View.readAt_eq_ld, harg3.read_unread, harg4.read_unread, harg5.read_unread, harg6.read_unread, harg7.read_unread, harg8.read_unread, harg11.read_unread, harg12.read_unread, View.ld_unit_zero (S := S1x1x512x64) hz4, View.ld_unit_zero (S := S512x1024) hz2, View.ld_unit_zero (S := S512x2048) hz2, View.ld_unit_zero (S := S1x512x1024) hz3, View.ld_unit_zero (S := S1024) hz1, View.readCov_unit_zero (S := S512x1024) _ hz2, View.readCov_unit_zero (S := S512x2048) _ hz2]
  try rfl

theorem out1_C_7_eq (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) :
    out1_C_7 c i arg3 harg3 arg4 harg4 arg5 harg5 arg6 harg6 arg7 harg7 arg8 harg8 arg9 harg9 arg10 harg10 arg11 harg11 arg12 harg12 hc0 hc1 x0 x1 x2 x3 x4 x5 xs0 xs1 = k1_pay3 (headAcc1 i x0 x1 xs1) := by
  unfold out1_C_7 headAcc1
  rw [View.read_writes_eq_canon _ _ _ (cover1_C_7 c i arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun1_C
  dsimp only
  sl_unfold_words
  rw [View.canon_unit_zero hz3]
  simp only [View.readAt_eq_ld, harg3.read_unread, harg4.read_unread, harg5.read_unread, harg6.read_unread, harg7.read_unread, harg8.read_unread, harg11.read_unread, harg12.read_unread, View.ld_unit_zero (S := S1x1x512x64) hz4, View.ld_unit_zero (S := S512x1024) hz2, View.ld_unit_zero (S := S512x2048) hz2, View.ld_unit_zero (S := S1x512x1024) hz3, View.ld_unit_zero (S := S1024) hz1, View.readCov_unit_zero (S := S512x1024) _ hz2, View.readCov_unit_zero (S := S512x2048) _ hz2]
  try rfl

theorem out1_C_6_eq (c : Dev nD) (i : grid1.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S1x512x2048 .f32) (harg10 : arg10.IsWhole) (arg11 : Memref sig .tc .vmem S512x1024 .f32) (harg11 : arg11.IsWhole) (arg12 : Memref sig .tc .vmem S512x2048 .f32) (harg12 : arg12.IsWhole) (hc0 : ¬cond1_0 i) (hc1 : cond1_1 i)
    (x0 : Vec F S1x1x512x64 .f32) (x1 : Vec F S1x16x2048x64 .f32) (x2 : Vec F S1x16x2048x64 .bf16) (x3 : Vec F S1x512x1024 .f32) (x4 : Vec F S1024x1024 .bf16) (x5 : Vec F S1024 .f32) (xs0 : Vec F S512x1024 .f32) (xs1 : Vec F S512x2048 .f32) :
    out1_C_6 c i arg3 harg3 arg4 harg4 arg5 harg5 arg6 harg6 arg7 harg7 arg8 harg8 arg9 harg9 arg10 harg10 arg11 harg11 arg12 harg12 hc0 hc1 x0 x1 x2 x3 x4 x5 xs0 xs1 = k1_pay4 (headAcc0 i x0 x1 x2 x4 xs0) x5 x3 := by
  unfold out1_C_6 headAcc0
  rw [View.read_writes_eq_canon _ _ _ (cover1_C_6 c i arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun1_C
  dsimp only
  sl_unfold_words
  rw [View.canon_unit_zero hz3]
  simp only [View.readAt_eq_ld, harg3.read_unread, harg4.read_unread, harg5.read_unread, harg6.read_unread, harg7.read_unread, harg8.read_unread, harg11.read_unread, harg12.read_unread, View.ld_unit_zero (S := S1x1x512x64) hz4, View.ld_unit_zero (S := S512x1024) hz2, View.ld_unit_zero (S := S512x2048) hz2, View.ld_unit_zero (S := S1x512x1024) hz3, View.ld_unit_zero (S := S1024) hz1, View.readCov_unit_zero (S := S512x1024) _ hz2, View.readCov_unit_zero (S := S512x2048) _ hz2]
  try rfl

/-! ## The same at a grid point, over the input blocks -/

-- the TensorCore's buffer contents when the region is entered
variable (V : (c : Dev nD) → (b : Ref sig .tc) → Buf (Elt F) ((c : Thread nD τ).loc b))

/-- Input window 0's block at point `t`, at the type the payloads take it. -/
abbrev qB1 (c : Dev nD) (t : Fin cfg1.N) : Vec F S1x1x512x64 .f32 := iblk1 V c 0 t
/-- Input window 1's block at point `t`, at the type the payloads take it. -/
abbrev kB1 (c : Dev nD) (t : Fin cfg1.N) : Vec F S1x16x2048x64 .f32 := iblk1 V c 1 t
/-- Input window 2's block at point `t`, at the type the payloads take it. -/
abbrev vB1 (c : Dev nD) (t : Fin cfg1.N) : Vec F S1x16x2048x64 .bf16 := iblk1 V c 2 t
/-- Input window 3's block at point `t`, at the type the payloads take it. -/
abbrev xB1 (c : Dev nD) (t : Fin cfg1.N) : Vec F S1x512x1024 .f32 := iblk1 V c 3 t
/-- Input window 4's block at point `t`, at the type the payloads take it. -/
abbrev wB1 (c : Dev nD) (t : Fin cfg1.N) : Vec F S1024x1024 .bf16 := iblk1 V c 4 t
/-- Input window 5's block at point `t`, at the type the payloads take it. -/
abbrev bB1 (c : Dev nD) (t : Fin cfg1.N) : Vec F S1024 .f32 := iblk1 V c 5 t

set_option maxHeartbeats 1600000 in
/-- After a point of the first head: both accumulators restart from the zero blocks. -/
theorem scAt1_first (c : Dev nD) (t : Fin cfg1.N) (h0 : t.val % 16 = 0) :
    scAt1 V c t.val t.isLt = (headAcc0 (grid1.coords t) (qB1 V c t) (kB1 V c t) (vB1 V c t) (wB1 V c t) (k1_pay5 (F := F)), headAcc1 (grid1.coords t) (qB1 V c t) (kB1 V c t) (k1_pay6 (F := F))) := by
  rw [scAt1_A V c t h0]
  exact congrArg₂ Prod.mk
    (sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (not15_of_0 t h0) (iblk1 V c 0 t) (iblk1 V c 1 t) (iblk1 V c 2 t) (iblk1 V c 3 t) (iblk1 V c 4 t) (iblk1 V c 5 t))
    (sout1_A_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (not15_of_0 t h0) (iblk1 V c 0 t) (iblk1 V c 1 t) (iblk1 V c 2 t) (iblk1 V c 3 t) (iblk1 V c 4 t) (iblk1 V c 5 t))

set_option maxHeartbeats 1600000 in
/-- After a point of any other head: each accumulator is the point before's plus this head's term. -/
theorem scAt1_next (c : Dev nD) (t : Fin cfg1.N) (h0 : ¬t.val % 16 = 0) :
    scAt1 V c t.val t.isLt = (headAcc0 (grid1.coords t) (qB1 V c t) (kB1 V c t) (vB1 V c t) (wB1 V c t) (scAt1 V c (t.val - 1) (Nat.lt_of_le_of_lt (Nat.sub_le _ _) t.isLt)).1, headAcc1 (grid1.coords t) (qB1 V c t) (kB1 V c t) (scAt1 V c (t.val - 1) (Nat.lt_of_le_of_lt (Nat.sub_le _ _) t.isLt)).2) := by
  by_cases h1 : t.val % 16 = 15
  · rw [scAt1_C V c t h0 h1]
    exact congrArg₂ Prod.mk
      (sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2)
      (sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2)
  · rw [scAt1_B V c t h0 h1]
    exact congrArg₂ Prod.mk
      (sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2)
      (sout1_B_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2)

set_option maxHeartbeats 1600000 in
/-- What output window 6's staging buffer holds after a point of the last head: the first accumulator after this
    head's term, plus the bias row, plus the block of `x`. -/
theorem after1_6_last (c : Dev nD) (t : Fin cfg1.N) (h1 : t.val % 16 = 15) :
    (dat1 V c).after 6 t = k1_pay4 (headAcc0 (grid1.coords t) (qB1 V c t) (kB1 V c t) (vB1 V c t) (wB1 V c t) (scAt1 V c (t.val - 1) (Nat.lt_of_le_of_lt (Nat.sub_le _ _) t.isLt)).1) (bB1 V c t) (xB1 V c t) := by
  have h0 : ¬t.val % 16 = 0 := by omega
  rw [after1_6, outAt1_6_C V c t h0 h1]
  exact out1_C_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2

set_option maxHeartbeats 1600000 in
/-- What output window 7's staging buffer holds after a point of the last head: the second accumulator after this
    head's term, times one sixteenth. -/
theorem after1_7_last (c : Dev nD) (t : Fin cfg1.N) (h1 : t.val % 16 = 15) :
    (dat1 V c).after 7 t = k1_pay3 (headAcc1 (grid1.coords t) (qB1 V c t) (kB1 V c t) (scAt1 V c (t.val - 1) (Nat.lt_of_le_of_lt (Nat.sub_le _ _) t.isLt)).2) := by
  have h0 : ¬t.val % 16 = 0 := by omega
  rw [after1_7, outAt1_7_C V c t h0 h1]
  exact out1_C_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (scAt1 V c (t.val - 1) (Nat.lt_of_le_of_lt (Nat.sub_le _ _) t.isLt)).1 (scAt1 V c (t.val - 1) (Nat.lt_of_le_of_lt (Nat.sub_le _ _) t.isLt)).2

end Cert.KernelIdeal.Hand

end
-- ==== Proof.KI.R1x.lean ====
import proofs.«146015_j42408507080997_2_alg».proof.Proof.KI.R1v
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The loaded slices, read at an index

The body loads one head's 2048 rows of the key and value blocks and the head's 64 rows of the projection weights
through rectangles whose offsets are the head index: coordinate `a` of the slice is coordinate `off a + a` of the block. -/

/-- The head's rows of a key (or value) block at `(0, 0, n, j)`: the block at `(0, h, n, j)`, `h` the point's head. -/
theorem ld_k1_off1_apply {e : EltTy} (i : grid1.Coords) (x : Vec F S1x16x2048x64 e) (n : Fin 2048) (j : Fin 64) :
    View.ld x (Rect.unit (k1_off1 i) S1x1x2048x64.size (k1_off1_inb i)) (ValueIdx.ix4 (0 : Fin 1) (0 : Fin 1) n j)
      = x (ValueIdx.ix4 (0 : Fin 1) (⟨(i 2).val, (i 2).isLt⟩ : Fin 16) n j) := by
  show x _ = x _
  refine congrArg x (funext fun a => Fin.ext ?_)
  have hoff := k1_off1_eq i
  match a with
  | ⟨0, _⟩ => show (k1_off1 i) 0 + 1 * 0 = 0; rw [hoff]; rfl
  | ⟨1, _⟩ => show (k1_off1 i) 1 + 1 * 0 = (i 2).val; rw [hoff]; show (i 2).val + 1 * 0 = (i 2).val; omega
  | ⟨2, _⟩ => show (k1_off1 i) 2 + 1 * n.val = n.val; rw [hoff]; show 0 + 1 * n.val = n.val; omega
  | ⟨3, _⟩ => show (k1_off1 i) 3 + 1 * j.val = j.val; rw [hoff]; show 0 + 1 * j.val = j.val; omega

/-- The head's 64 rows of the projection weights at `(j, e)`: the weights at `(64 h + j, e)`. -/
theorem ld_k1_off2_apply {el : EltTy} (i : grid1.Coords) (x : Vec F S1024x1024 el) (j : Fin 64) (e : Fin 1024) :
    View.ld x (Rect.unit (k1_off2 i) S64x1024.size (k1_off2_inb i)) (ValueIdx.ix2 j e)
      = x (ValueIdx.ix2 (⟨64 * (i 2).val + j.val, by have h : (i 2).val < 16 := (i 2).isLt; omega⟩ : Fin 1024) e) := by
  show x _ = x _
  refine congrArg x (funext fun a => Fin.ext ?_)
  have hoff := k1_off2_eq i
  match a with
  | ⟨0, _⟩ => show (k1_off2 i) 0 + 1 * j.val = 64 * (i 2).val + j.val; rw [hoff]; show 64 * (i 2).val + 1 * j.val = 64 * (i 2).val + j.val; omega
  | ⟨1, _⟩ => show (k1_off2 i) 1 + 1 * e.val = e.val; rw [hoff]; show 0 + 1 * e.val = e.val; omega

end Cert.KernelIdeal.Hand

end
-- ==== Proof.KI.V1Pay.lean ====
import proofs.«146015_j42408507080997_2_alg».proof.Proof.Gen.KernelIdeal.Skeleton
import proofs.«146015_j42408507080997_2_alg».proof.Proof.RowSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! # The second region's stored values, read at an index

Every value the attention kernel stores, as a function of the vectors it loaded, read at one index on the extended
reals: the softmax weights of one head, the head's contribution to the output projection added to the running sum, the
running sum of the weights, and the two blocks written at the last head. -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

end Layout

/-! ## One head's scores -/

/-- The float word of 0.125, the scale of the scores. -/
abbrev wEighth : EReal := Ideal.ofBits .f32 0x3E000000#32
/-- The float word of 0.0625, the weight of one head in the mean over the sixteen. -/
abbrev wSixteenth : EReal := Ideal.ofBits .f32 0x3D800000#32

/-- One query row's scaled scores against a head's 2048 keys. -/
def scoreRow (q : FVec Ideal S1x1x512x64 .f32) (k : FVec Ideal S1x1x2048x64 .f32) (r : Fin 512) : Fin 2048 → EReal := fun n =>
  (∑ j : Fin 64, q (ix4 (0 : Fin 1) (0 : Fin 1) r j) * k (ix4 (0 : Fin 1) (0 : Fin 1) n j)) * wEighth

/-- The scaled scores as the kernel computes them: the query block times the transposed key block, times 0.125. -/
def scoreVec (v3 : FVec Ideal S1x1x512x64 .f32) (v6 : FVec Ideal S1x1x2048x64 .f32) : FVec Ideal S512x2048 .f32 :=
  mulf (matmul dot_S512x64_S2048x64_S512x2048_1_1_0_0_n_n (some .fp32) (shapeCast S512x64 v3 shapeCasts_S1x1x512x64_S512x64)
      (shapeCast S2048x64 v6 shapeCasts_S1x1x2048x64_S2048x64) (constant S512x2048 .f32 0x00000000#32))
    (broadcast S512x2048 (Scalar.ofBits .f32 0x3E000000#32))

theorem qk_lhs0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qk_lhs1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qk_rhs1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The kernel's scores at `(r, n)` are the scaled inner product of query row `r` and key row `n`. -/
theorem scoreVec_apply (v3 : FVec Ideal S1x1x512x64 .f32) (v6 : FVec Ideal S1x1x2048x64 .f32) (r : Fin 512) (n : Fin 2048) :
    scoreVec v3 v6 (ix2 r n) = scoreRow v3 v6 r n := by
  unfold scoreVec scoreRow
  show (_ : EReal) * wEighth = _
  refine congrArg (· * wEighth) ?_
  refine (Ideal.matmul_constant_zero_apply _ _ _ _ _).trans ?_
  rw [← Equiv.sum_comp (contrEquiv1 dot_S512x64_S2048x64_S512x2048_1_1_0_0_n_n 64 rfl rfl).symm]
  refine Finset.sum_congr rfl fun j _ => ?_
  have hk := contrEquiv1_symm_val dot_S512x64_S2048x64_S512x2048_1_1_0_0_n_n 64 rfl rfl j
  have el : dot_S512x64_S2048x64_S512x2048_1_1_0_0_n_n.lhsIdx (ix2 r n)
      ((contrEquiv1 dot_S512x64_S2048x64_S512x2048_1_1_0_0_n_n 64 rfl rfl).symm j) = ix2 r j := funext fun a => Fin.ext (by
    match a with
    | ⟨0, _⟩ => exact qk_lhs0 _ _
    | ⟨1, _⟩ => exact (qk_lhs1 _ _).trans hk)
  have er : dot_S512x64_S2048x64_S512x2048_1_1_0_0_n_n.rhsIdx (ix2 r n)
      ((contrEquiv1 dot_S512x64_S2048x64_S512x2048_1_1_0_0_n_n 64 rfl rfl).symm j) = ix2 n j := funext fun a => Fin.ext (by
    match a with
    | ⟨0, _⟩ => exact qk_rhs0 _ _
    | ⟨1, _⟩ => exact (qk_rhs1 _ _).trans hk)
  rw [el, er, shapeCast_11ab_ab_apply, shapeCast_11ab_ab_apply]

/-! ## The softmax of a block's rows -/

/-- The softmax of the 512 rows of a block of scores, as the kernel spells it: the row maximum folded from −∞, the
exponentials of the differences, their row sum, the quotient. -/
def softmaxVec (s : FVec Ideal S512x2048 .f32) : FVec Ideal S512x2048 .f32 :=
  divf (exp (subf s (broadcastTo S512x2048 (shapeCast S512x1 (multiReduction .maximumf [1] S512 s 0xFF800000#32 reduces_S512x2048_S512 (.inl rfl) rfl) shapeCasts_S512_S512x1) broadcasts_S512x1_S512x2048)))
    (broadcastTo S512x2048 (shapeCast S512x1 (multiReduction .add [1] S512 (exp (subf s (broadcastTo S512x2048 (shapeCast S512x1 (multiReduction .maximumf [1] S512 s 0xFF800000#32 reduces_S512x2048_S512 (.inl rfl) rfl) shapeCasts_S512_S512x1) broadcasts_S512x1_S512x2048))) 0x00000000#32 reduces_S512x2048_S512 (.inl rfl) rfl) shapeCasts_S512_S512x1) broadcasts_S512x1_S512x2048)

/-- The lane maximum of row `r` is the row's maximum folded from −∞. -/
theorem rowMaxVec_apply (s : FVec Ideal S512x2048 .f32) (r : Fin 512) :
    multiReduction .maximumf [1] S512 s 0xFF800000#32 reduces_S512x2048_S512 (.inl rfl) rfl (ix1 r)
      = Cert.Spec.rowMax (fun n => s (ix2 r n)) := by
  refine (Ideal.multiReduction_maximumf_single s 0xFF800000#32 reduces_S512x2048_S512 (.inl rfl) rfl (ix1 r)).trans ?_
  have e : (s ∘ reduces_S512x2048_S512.lift (ix1 r)) = fun n : Fin 2048 => s (ix2 r n) :=
    funext fun n => congrArg s (funext fun a => Fin.ext (by match a with | ⟨0, _⟩ => rfl | ⟨1, _⟩ => rfl))
  rw [e]; rfl

/-- The lane sum of row `r` is the sum over the row. -/
theorem rowSumVec_apply (s : FVec Ideal S512x2048 .f32) (r : Fin 512) :
    multiReduction .add [1] S512 s 0x00000000#32 reduces_S512x2048_S512 (.inl rfl) rfl (ix1 r)
      = ∑ n : Fin 2048, s (ix2 r n) := by
  refine (Ideal.multiReduction_add_single s 0x00000000#32 reduces_S512x2048_S512 (.inl rfl) rfl (ix1 r)).trans ?_
  exact Finset.sum_congr rfl fun n _ => congrArg s (funext fun a => Fin.ext (by match a with | ⟨0, _⟩ => rfl | ⟨1, _⟩ => rfl))

/-- The kernel's softmax at `(r, n)` is the softmax of row `r` at `n`. -/
theorem softmaxVec_apply (s : FVec Ideal S512x2048 .f32) (r : Fin 512) (n : Fin 2048) :
    softmaxVec s (ix2 r n) = Cert.Spec.softmaxRow (fun k => s (ix2 r k)) n := by
  have hmax : ∀ k : Fin 2048, broadcastTo S512x2048 (shapeCast S512x1 (multiReduction .maximumf [1] S512 s 0xFF800000#32 reduces_S512x2048_S512 (.inl rfl) rfl) shapeCasts_S512_S512x1) broadcasts_S512x1_S512x2048 (ix2 r k)
      = Cert.Spec.rowMax (fun n => s (ix2 r n)) := fun k => by
    rw [broadcastTo_a1_ab_apply, shapeCast_a_a1_apply, rowMaxVec_apply]
  have hexp : ∀ k : Fin 2048, exp (subf s (broadcastTo S512x2048 (shapeCast S512x1 (multiReduction .maximumf [1] S512 s 0xFF800000#32 reduces_S512x2048_S512 (.inl rfl) rfl) shapeCasts_S512_S512x1) broadcasts_S512x1_S512x2048)) (ix2 r k)
      = Cert.Spec.expRow (fun n => s (ix2 r n)) k := fun k => by
    show Ideal.exp (s (ix2 r k) - _) = _
    rw [hmax k]; rfl
  unfold softmaxVec Cert.Spec.softmaxRow
  show Ideal.div _ _ = _
  rw [hexp n, broadcastTo_a1_ab_apply, shapeCast_a_a1_apply, rowSumVec_apply]
  exact congrArg (Ideal.div _) (Finset.sum_congr rfl fun k _ => hexp k)

/-- The weights payload is the softmax of the scores. -/
theorem k1_pay7_eq (v3 : FVec Ideal S1x1x512x64 .f32) (v6 : FVec Ideal S1x1x2048x64 .f32) :
    k1_pay7 (F := Ideal) v3 v6 = softmaxVec (scoreVec v3 v6) := rfl

/-- One head's softmax weights at `(r, n)`: the softmax over the keys of query row `r`'s scaled scores, at key `n`. -/
theorem k1_pay7_apply (v3 : FVec Ideal S1x1x512x64 .f32) (v6 : FVec Ideal S1x1x2048x64 .f32) (r : Fin 512) (n : Fin 2048) :
    k1_pay7 (F := Ideal) v3 v6 (ix2 r n) = Cert.Spec.softmaxRow (scoreRow v3 v6 r) n := by
  rw [k1_pay7_eq, softmaxVec_apply]
  exact congrArg (fun f => Cert.Spec.softmaxRow f n) (funext fun k => scoreVec_apply v3 v6 r k)

/-! ## The head's context rows and their projection -/

theorem pv_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The weights times the value block into the zero accumulator, at `(r, c)`: the sum over the keys. -/
theorem pv_apply (x : FVec Ideal S512x2048 .bf16) (y : FVec Ideal S2048x64 .bf16) (r : Fin 512) (c : Fin 64) :
    matmul dot_S512x2048_S2048x64_S512x64_1_0_0_1_n_n none x y (constant S512x64 .f32 0x00000000#32) (ix2 r c) = ∑ k : Fin 2048, x (ix2 r k) * y (ix2 k c) := by
  refine (Ideal.matmul_constant_zero_apply _ none x y (ix2 r c)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r c) ((contrEquiv1 dot_S512x2048_S2048x64_S512x64_1_0_0_1_n_n 2048 rfl rfl).symm k) = ix2 r k := funext fun a => Fin.ext (by
    match a with
    | ⟨0, _⟩ => exact pv_lhs0 _ _
    | ⟨1, _⟩ => exact (pv_lhs1 _ _).trans hk)
  have er : dot_S512x2048_S2048x64_S512x64_1_0_0_1_n_n.rhsIdx (ix2 r c) ((contrEquiv1 dot_S512x2048_S2048x64_S512x64_1_0_0_1_n_n 2048 rfl rfl).symm k) = ix2 k c := funext fun a => Fin.ext (by
    match a with
    | ⟨0, _⟩ => exact (pv_rhs0 _ _).trans hk
    | ⟨1, _⟩ => exact pv_rhs1 _ _)
  rw [el, er]

theorem po_lhs0 (i : S512x1024.Idx) (q : dot_S512x64_S64x1024_S512x1024_1_0_0_1_n_n.contr.Idx) : (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem po_lhs1 (i : S512x1024.Idx) (q : dot_S512x64_S64x1024_S512x1024_1_0_0_1_n_n.contr.Idx) : (dot_S512x64_S64x1024_S512x1024_1_0_0_1_n_n.lhsIdx i q 1).val = (q ⟨0, by decide⟩).val :=
  dot_S512x64_S64x1024_S512x1024_1_0_0_1_n_n.lhsIdx_val_of_single rfl i q
theorem po_rhs0 (i : S512x1024.Idx) (q : dot_S512x64_S64x1024_S512x1024_1_0_0_1_n_n.contr.Idx) : (dot_S512x64_S64x1024_S512x1024_1_0_0_1_n_n.rhsIdx i q 0).val = (q ⟨0, by decide⟩).val :=
  dot_S512x64_S64x1024_S512x1024_1_0_0_1_n_n.rhsIdx_val_of_single rfl i q
theorem po_rhs1 (i : S512x1024.Idx) (q : dot_S512x64_S64x1024_S512x1024_1_0_0_1_n_n.contr.Idx) : (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- The context rows times the head's 64 rows of the output projection into the zero accumulator, at `(r, c)`. -/
theorem po_apply (x : FVec Ideal S512x64 .bf16) (y : FVec Ideal S64x1024 .bf16) (r : Fin 512) (c : Fin 1024) :
    matmul dot_S512x64_S64x1024_S512x1024_1_0_0_1_n_n none x y (constant S512x1024 .f32 0x00000000#32) (ix2 r c) = ∑ k : Fin 64, x (ix2 r k) * y (ix2 k c) := by
  refine (Ideal.matmul_constant_zero_apply _ none x y (ix2 r c)).trans ?_
  rw [← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 r c) ((contrEquiv1 dot_S512x64_S64x1024_S512x1024_1_0_0_1_n_n 64 rfl rfl).symm k) = ix2 r k := funext fun a => Fin.ext (by
    match a with
    | ⟨0, _⟩ => exact po_lhs0 _ _
    | ⟨1, _⟩ => exact (po_lhs1 _ _).trans hk)
  have er : dot_S512x64_S64x1024_S512x1024_1_0_0_1_n_n.rhsIdx (ix2 r c) ((contrEquiv1 dot_S512x64_S64x1024_S512x1024_1_0_0_1_n_n 64 rfl rfl).symm k) = ix2 k c := funext fun a => Fin.ext (by
    match a with
    | ⟨0, _⟩ => exact (po_rhs0 _ _).trans hk
    | ⟨1, _⟩ => exact po_rhs1 _ _)
  rw [el, er]

/-- The running output sum after one head, at `(r, e)`: what the scratch held plus the head's context row `r` — the
weights against the head's values — projected by the head's 64 rows of the output weight, at column `e`. The two
roundings to bf16 on the way are the identity on the extended reals. -/
theorem k1_pay8_apply (v3 : FVec Ideal S1x1x512x64 .f32) (v6 : FVec Ideal S1x1x2048x64 .f32) (v9 : FVec Ideal S1x1x2048x64 .bf16)
    (v28 : FVec Ideal S64x1024 .bf16) (v30 : FVec Ideal S512x1024 .f32) (r : Fin 512) (e : Fin 1024) :
    k1_pay8 (F := Ideal) v3 v6 v9 v28 v30 (ix2 r e)
      = v30 (ix2 r e) + ∑ j : Fin 64, (∑ k : Fin 2048, k1_pay7 (F := Ideal) v3 v6 (ix2 r k) * v9 (ix4 (0 : Fin 1) (0 : Fin 1) k j)) * v28 (ix2 j e) := by
  unfold k1_pay8
  show v30 (ix2 r e) + matmul (F := Ideal) dot_S512x64_S64x1024_S512x1024_1_0_0_1_n_n none _ _ (constant S512x1024 .f32 0x00000000#32) (ix2 r e) = _
  refine congrArg (v30 (ix2 r e) + ·) ?_
  refine (po_apply _ _ r e).trans ?_
  refine Finset.sum_congr rfl fun j _ => ?_
  rw [shapeCast_self]
  refine congrArg (· * v28 (ix2 j e)) ?_
  show matmul (F := Ideal) dot_S512x2048_S2048x64_S512x64_1_0_0_1_n_n none _ _ (constant S512x64 .f32 0x00000000#32) (ix2 r j) = _
  refine (pv_apply _ _ r j).trans ?_
  refine Finset.sum_congr rfl fun k _ => ?_
  rw [shapeCast_11ab_ab_apply]
  rfl

/-! ## The accumulations and the two blocks written at the last head -/

/-- The running output sum is stored as computed. -/
theorem k1_pay1_eq {F : FTy → Type} [FloatOps F] (v33 : FVec F S512x1024 .f32) : k1_pay1 v33 = v33 :=
  shapeCast_self _ _

/-- The running sum of the weights: what the scratch held plus the head's weights. -/
theorem k1_pay2_apply (v22 : FVec Ideal S512x2048 .f32) (v37 : FVec Ideal S512x2048 .f32) (i : S512x2048.Idx) :
    k1_pay2 (F := Ideal) v22 v37 i = v37 i + v22 i := by
  unfold k1_pay2
  rw [shapeCast_self]
  rfl

/-- The mean of the weights over the sixteen heads: the running sum times 0.0625. -/
theorem k1_pay3_apply (v45 : FVec Ideal S512x2048 .f32) (u : Fin 1) (r : Fin 512) (n : Fin 2048) :
    k1_pay3 (F := Ideal) v45 (ix3 u r n) = v45 (ix2 r n) * wSixteenth := by
  unfold k1_pay3
  exact shapeCast_ab_1ab_apply _ _ u r n

/-- The layer's output block: the projected sum plus the projection's bias plus the residual input. -/
theorem k1_pay4_apply (v51 : FVec Ideal S512x1024 .f32) (v52 : FVec Ideal S1024 .f32) (v56 : FVec Ideal S1x512x1024 .f32)
    (u : Fin 1) (r : Fin 512) (e : Fin 1024) :
    k1_pay4 (F := Ideal) v51 v52 v56 (ix3 u r e) = v51 (ix2 r e) + v52 (ix1 e) + v56 (ix3 (0 : Fin 1) r e) := by
  unfold k1_pay4
  refine (shapeCast_ab_1ab_apply _ _ u r e).trans ?_
  show v51 (ix2 r e) + broadcastTo S512x1024 _ broadcasts_S1x1024_S512x1024 (ix2 r e) + shapeCast S512x1024 v56 shapeCasts_S1x512x1024_S512x1024 (ix2 r e) = _
  rw [broadcastTo_1b_ab_apply, shapeCast_a_1a_apply, shapeCast_1ab_ab_apply]

/-- The output scratch is cleared with zeros at the first head. -/
theorem k1_pay5_apply (i : S512x1024.Idx) : k1_pay5 (F := Ideal) i = 0 := by
  unfold k1_pay5
  rw [shapeCast_self]
  exact Ideal.ofBits_zero_f32

/-- The weights scratch is cleared with zeros at the first head. -/
theorem k1_pay6_apply (i : S512x2048.Idx) : k1_pay6 (F := Ideal) i = 0 := by
  unfold k1_pay6
  rw [shapeCast_self]
  exact Ideal.ofBits_zero_f32

end Cert.KernelIdeal.Hand

end
-- ==== Proof.KI.V1Idx.lean ====
import proofs.«146015_j42408507080997_2_alg».proof.Proof.KI.R1x
import proofs.«146015_j42408507080997_2_alg».proof.Proof.KI.V1Pay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # The second region's blocks, read off their arrays

The grid is batch × query tile × head: point `t` is `64·b + 16·qi + h`. Each input window's block at a point is read
where its index map puts it: the query block at (b, h, 512·qi …), the key and value slabs at batch b (the head's slice
is taken by the body), the residual input at (b, 512·qi …), the projection weight and its bias whole. -/

/-- The head coordinate of a grid point. -/
theorem coords1_2 : ∀ t : Fin cfg1.N, (grid1.coords t 2).val = t.val % 16 :=
  (by decide +kernel : ∀ t : Fin grid1.N, (grid1.coords t 2).val = t.val % 16)

/-- The query window's block index at a point. -/
theorem idx1_0 : ∀ t : Fin cfg1.N, win1_0.index t (0 : Fin 4) = t.val / 64 ∧ win1_0.index t (1 : Fin 4) = t.val % 16
    ∧ win1_0.index t (2 : Fin 4) = t.val / 16 % 4 ∧ win1_0.index t (3 : Fin 4) = 0 :=
  (by decide +kernel : ∀ t : Fin grid1.N, _)
/-- The key window's block index at a point. -/
theorem idx1_1 : ∀ t : Fin cfg1.N, win1_1.index t (0 : Fin 4) = t.val / 64 ∧ win1_1.index t (1 : Fin 4) = 0
    ∧ win1_1.index t (2 : Fin 4) = 0 ∧ win1_1.index t (3 : Fin 4) = 0 :=
  (by decide +kernel : ∀ t : Fin grid1.N, _)
/-- The value window's block index at a point. -/
theorem idx1_2 : ∀ t : Fin cfg1.N, win1_2.index t (0 : Fin 4) = t.val / 64 ∧ win1_2.index t (1 : Fin 4) = 0
    ∧ win1_2.index t (2 : Fin 4) = 0 ∧ win1_2.index t (3 : Fin 4) = 0 :=
  (by decide +kernel : ∀ t : Fin grid1.N, _)
/-- The residual input window's block index at a point. -/
theorem idx1_3 : ∀ t : Fin cfg1.N, win1_3.index t (0 : Fin 3) = t.val / 64 ∧ win1_3.index t (1 : Fin 3) = t.val / 16 % 4
    ∧ win1_3.index t (2 : Fin 3) = 0 :=
  (by decide +kernel : ∀ t : Fin grid1.N, _)
/-- The projection weight's block index at a point. -/
theorem idx1_4 : ∀ t : Fin cfg1.N, win1_4.index t (0 : Fin 2) = 0 ∧ win1_4.index t (1 : Fin 2) = 0 :=
  (by decide +kernel : ∀ t : Fin grid1.N, _)
/-- The projection bias's block index at a point. -/
theorem idx1_5 : ∀ t : Fin cfg1.N, win1_5.index t (0 : Fin 1) = 0 :=
  (by decide +kernel : ∀ t : Fin grid1.N, _)
/-- The output window's block index at a point. -/
theorem idx1_6 : ∀ t : Fin cfg1.N, win1_6.index t (0 : Fin 3) = t.val / 64 ∧ win1_6.index t (1 : Fin 3) = t.val / 16 % 4
    ∧ win1_6.index t (2 : Fin 3) = 0 :=
  (by decide +kernel : ∀ t : Fin grid1.N, _)
/-- The mean-weights window's block index at a point. -/
theorem idx1_7 : ∀ t : Fin cfg1.N, win1_7.index t (0 : Fin 3) = t.val / 64 ∧ win1_7.index t (1 : Fin 3) = t.val / 16 % 4
    ∧ win1_7.index t (2 : Fin 3) = 0 :=
  (by decide +kernel : ∀ t : Fin grid1.N, _)

variable {F : FTy → Type} [FloatOps F]
-- the TensorCore's buffer contents when the region is entered
variable (V : (c : Dev nD) → (b : Ref sig .tc) → Buf (Elt F) ((c : Thread nD τ).loc b))

/-- The six arrays the region reads, at their literal shapes. -/
abbrev aQ (c : Dev nD) : S2x16x2048x64.Idx → Elt F .f32 := V c main_v2_0
abbrev aK (c : Dev nD) : S2x16x2048x64.Idx → Elt F .f32 := V c main_v2_1
abbrev aV (c : Dev nD) : S2x16x2048x64.Idx → Elt F .bf16 := V c main_v2_2
abbrev aX (c : Dev nD) : S2x2048x1024.Idx → Elt F .f32 := V c main_arg0
abbrev aW (c : Dev nD) : S1024x1024.Idx → Elt F .bf16 := V c main_v4
abbrev aB (c : Dev nD) : S1024.Idx → Elt F .f32 := V c main_arg7

/-- The query block at point `64·b + 16·qi + h` is rows `512·qi …` of head `h` of batch `b`. -/
theorem qB1_apply (c : Dev nD) (t : Fin cfg1.N) (b : Fin 2) (qi : Fin 4) (h : Fin 16)
    (ht : t.val = 64 * b.val + 16 * qi.val + h.val) (u u' : Fin 1) (r : Fin 512) (j : Fin 64) :
    qB1 V c t (ix4 u u' r j) = aQ V c (ix4 b h ⟨512 * qi.val + r.val, by omega⟩ j) := by
  obtain ⟨e0, e1, e2, e3⟩ := idx1_0 t
  show V c main_v2_0 (((cfg1.win 0).blk t).view.emb (ix4 u u' r j)) = V c main_v2_0 _
  refine congrArg (V c main_v2_0) (funext fun a => Fin.ext ?_)
  match a with
  | ⟨0, _⟩ => show win1_0.index t (0 : Fin 4) * 1 + 1 * u.val = b.val; omega
  | ⟨1, _⟩ => show win1_0.index t (1 : Fin 4) * 1 + 1 * u'.val = h.val; omega
  | ⟨2, _⟩ => show win1_0.index t (2 : Fin 4) * 512 + 1 * r.val = 512 * qi.val + r.val; omega
  | ⟨3, _⟩ => show win1_0.index t (3 : Fin 4) * 64 + 1 * j.val = j.val; omega

/-- The key block at a point of batch `b` is the batch's whole slab. -/
theorem kB1_apply (c : Dev nD) (t : Fin cfg1.N) (b : Fin 2) (qi : Fin 4) (h : Fin 16)
    (ht : t.val = 64 * b.val + 16 * qi.val + h.val) (u : Fin 1) (hh : Fin 16) (n : Fin 2048) (j : Fin 64) :
    kB1 V c t (ix4 u hh n j) = aK V c (ix4 b hh n j) := by
  obtain ⟨e0, e1, e2, e3⟩ := idx1_1 t
  show V c main_v2_1 (((cfg1.win 1).blk t).view.emb (ix4 u hh n j)) = V c main_v2_1 _
  refine congrArg (V c main_v2_1) (funext fun a => Fin.ext ?_)
  match a with
  | ⟨0, _⟩ => show win1_1.index t (0 : Fin 4) * 1 + 1 * u.val = b.val; omega
  | ⟨1, _⟩ => show win1_1.index t (1 : Fin 4) * 16 + 1 * hh.val = hh.val; omega
  | ⟨2, _⟩ => show win1_1.index t (2 : Fin 4) * 2048 + 1 * n.val = n.val; omega
  | ⟨3, _⟩ => show win1_1.index t (3 : Fin 4) * 64 + 1 * j.val = j.val; omega

/-- The value block at a point of batch `b` is the batch's whole slab. -/
theorem vB1_apply (c : Dev nD) (t : Fin cfg1.N) (b : Fin 2) (qi : Fin 4) (h : Fin 16)
    (ht : t.val = 64 * b.val + 16 * qi.val + h.val) (u : Fin 1) (hh : Fin 16) (n : Fin 2048) (j : Fin 64) :
    vB1 V c t (ix4 u hh n j) = aV V c (ix4 b hh n j) := by
  obtain ⟨e0, e1, e2, e3⟩ := idx1_2 t
  show V c main_v2_2 (((cfg1.win 2).blk t).view.emb (ix4 u hh n j)) = V c main_v2_2 _
  refine congrArg (V c main_v2_2) (funext fun a => Fin.ext ?_)
  match a with
  | ⟨0, _⟩ => show win1_2.index t (0 : Fin 4) * 1 + 1 * u.val = b.val; omega
  | ⟨1, _⟩ => show win1_2.index t (1 : Fin 4) * 16 + 1 * hh.val = hh.val; omega
  | ⟨2, _⟩ => show win1_2.index t (2 : Fin 4) * 2048 + 1 * n.val = n.val; omega
  | ⟨3, _⟩ => show win1_2.index t (3 : Fin 4) * 64 + 1 * j.val = j.val; omega

/-- The residual input's block at point `64·b + 16·qi + h` is rows `512·qi …` of batch `b`. -/
theorem xB1_apply (c : Dev nD) (t : Fin cfg1.N) (b : Fin 2) (qi : Fin 4) (h : Fin 16)
    (ht : t.val = 64 * b.val + 16 * qi.val + h.val) (u : Fin 1) (r : Fin 512) (e : Fin 1024) :
    xB1 V c t (ix3 u r e) = aX V c (ix3 b ⟨512 * qi.val + r.val, by omega⟩ e) := by
  obtain ⟨e0, e1, e2⟩ := idx1_3 t
  show V c main_arg0 (((cfg1.win 3).blk t).view.emb (ix3 u r e)) = V c main_arg0 _
  refine congrArg (V c main_arg0) (funext fun a => Fin.ext ?_)
  match a with
  | ⟨0, _⟩ => show win1_3.index t (0 : Fin 3) * 1 + 1 * u.val = b.val; omega
  | ⟨1, _⟩ => show win1_3.index t (1 : Fin 3) * 512 + 1 * r.val = 512 * qi.val + r.val; omega
  | ⟨2, _⟩ => show win1_3.index t (2 : Fin 3) * 1024 + 1 * e.val = e.val; omega

/-- The projection weight's block at any point is the whole matrix. -/
theorem wB1_apply (c : Dev nD) (t : Fin cfg1.N) (p : Fin 1024) (e : Fin 1024) :
    wB1 V c t (ix2 p e) = aW V c (ix2 p e) := by
  obtain ⟨e0, e1⟩ := idx1_4 t
  show V c main_v4 (((cfg1.win 4).blk t).view.emb (ix2 p e)) = V c main_v4 _
  refine congrArg (V c main_v4) (funext fun a => Fin.ext ?_)
  match a with
  | ⟨0, _⟩ => show win1_4.index t (0 : Fin 2) * 1024 + 1 * p.val = p.val; omega
  | ⟨1, _⟩ => show win1_4.index t (1 : Fin 2) * 1024 + 1 * e.val = e.val; omega

/-- The projection bias's block at any point is the whole vector. -/
theorem bB1_apply (c : Dev nD) (t : Fin cfg1.N) (e : Fin 1024) :
    bB1 V c t (ix1 e) = aB V c (ix1 e) := by
  have e0 := idx1_5 t
  show V c main_arg7 (((cfg1.win 5).blk t).view.emb (ix1 e)) = V c main_arg7 _
  refine congrArg (V c main_arg7) (funext fun a => Fin.ext ?_)
  match a with
  | ⟨0, _⟩ => show win1_5.index t (0 : Fin 1) * 1024 + 1 * e.val = e.val; omega

end Cert.KernelIdeal.Hand

end
-- ==== Proof.KI.V1Fold.lean ====
import proofs.«146015_j42408507080997_2_alg».proof.Proof.KI.V1Idx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # One head's step of the output accumulator, in the arrays' entries

At point `64·b + 16·qi + h` the body adds to the running output sum of the 512 query rows `512·qi …` of batch `b` the
contribution of head `h`: the softmax over the 2048 keys of the scaled scores, against the head's values, projected by
the head's 64 rows of the output weight. -/

section AnyF
variable {F : FTy → Type} [FloatOps F]
variable (V : (c : Dev nD) → (b : Ref sig .tc) → Buf (Elt F) ((c : Thread nD τ).loc b))

/-- The head's coordinate at a point, as the head. -/
theorem head_eq (c : Dev nD) (t : Fin cfg1.N) (b : Fin 2) (qi : Fin 4) (h : Fin 16) (ht : t.val = 64 * b.val + 16 * qi.val + h.val) : (⟨(grid1.coords t 2).val, (grid1.coords t 2).isLt⟩ : Fin 16) = h :=
  Fin.ext (by show (grid1.coords t 2).val = h.val; rw [coords1_2]; omega)

/-- The head's keys, as the body loads them, are the key array's entries of head `h` of batch `b`. -/
theorem kHead_apply (c : Dev nD) (t : Fin cfg1.N) (b : Fin 2) (qi : Fin 4) (h : Fin 16) (ht : t.val = 64 * b.val + 16 * qi.val + h.val) (n : Fin 2048) (j : Fin 64) :
    View.ld (kB1 V c t) (Rect.unit (k1_off1 (grid1.coords t)) S1x1x2048x64.size (k1_off1_inb (grid1.coords t))) (ix4 (0 : Fin 1) (0 : Fin 1) n j) = aK V c (ix4 b h n j) := by
  rw [ld_k1_off1_apply, kB1_apply V c t b qi h ht, head_eq c t b qi h ht]

/-- The head's values, as the body loads them, are the value array's entries of head `h` of batch `b`. -/
theorem vHead_apply (c : Dev nD) (t : Fin cfg1.N) (b : Fin 2) (qi : Fin 4) (h : Fin 16) (ht : t.val = 64 * b.val + 16 * qi.val + h.val) (n : Fin 2048) (j : Fin 64) :
    View.ld (vB1 V c t) (Rect.unit (k1_off1 (grid1.coords t)) S1x1x2048x64.size (k1_off1_inb (grid1.coords t))) (ix4 (0 : Fin 1) (0 : Fin 1) n j) = aV V c (ix4 b h n j) := by
  rw [ld_k1_off1_apply, vB1_apply V c t b qi h ht, head_eq c t b qi h ht]

/-- The head's rows of the projection weight, as the body loads them, are rows `64·h …` of the weight. -/
theorem wHead_apply (c : Dev nD) (t : Fin cfg1.N) (b : Fin 2) (qi : Fin 4) (h : Fin 16) (ht : t.val = 64 * b.val + 16 * qi.val + h.val) (j : Fin 64) (e : Fin 1024) :
    View.ld (wB1 V c t) (Rect.unit (k1_off2 (grid1.coords t)) S64x1024.size (k1_off2_inb (grid1.coords t))) (ix2 j e) = aW V c (ix2 ⟨64 * h.val + j.val, by omega⟩ e) := by
  rw [ld_k1_off2_apply, wB1_apply]
  exact congrArg (fun p => aW V c (ix2 p e)) (Fin.ext (by
    show 64 * (grid1.coords t 2).val + j.val = 64 * h.val + j.val
    rw [coords1_2]; omega))

end AnyF

section AtIdeal
variable (V : (c : Dev nD) → (b : Ref sig .tc) → Buf (Elt Ideal) ((c : Thread nD τ).loc b))

/-- The scaled scores of query row `s` of head `h` of batch `b` against the head's 2048 keys. -/
def scRow (c : Dev nD) (b : Fin 2) (h : Fin 16) (s : Fin 2048) : Fin 2048 → EReal := fun n =>
  (∑ j : Fin 64, aQ V c (ix4 b h s j) * aK V c (ix4 b h n j)) * wEighth

/-- Head `h`'s term of output row `s` of batch `b` at column `e`: the softmax weights against the head's values,
projected by the head's 64 rows of the output weight. -/
def headTerm (c : Dev nD) (b : Fin 2) (h : Fin 16) (s : Fin 2048) (e : Fin 1024) : EReal :=
  ∑ j : Fin 64, (∑ k : Fin 2048, Cert.Spec.softmaxRow (scRow V c b h s) k * aV V c (ix4 b h k j))
    * aW V c (ix2 ⟨64 * h.val + j.val, by omega⟩ e)

/-- The softmax weights the body computes at a point are those of the arrays' entries. -/
theorem pay7_point (c : Dev nD) (t : Fin cfg1.N) (b : Fin 2) (qi : Fin 4) (h : Fin 16) (ht : t.val = 64 * b.val + 16 * qi.val + h.val) (r : Fin 512) (k : Fin 2048) :
    k1_pay7 (F := Ideal) (qB1 V c t) (View.ld (kB1 V c t) (Rect.unit (k1_off1 (grid1.coords t)) S1x1x2048x64.size (k1_off1_inb (grid1.coords t)))) (ix2 r k)
      = Cert.Spec.softmaxRow (scRow V c b h ⟨512 * qi.val + r.val, by omega⟩) k := by
  refine (k1_pay7_apply _ _ r k).trans ?_
  refine congrArg (fun f => Cert.Spec.softmaxRow f k) (funext fun n => ?_)
  show (∑ j : Fin 64, qB1 V c t (ix4 (0 : Fin 1) (0 : Fin 1) r j) * View.ld (kB1 V c t) (Rect.unit (k1_off1 (grid1.coords t)) S1x1x2048x64.size (k1_off1_inb (grid1.coords t))) (ix4 (0 : Fin 1) (0 : Fin 1) n j)) * wEighth = _
  refine congrArg (· * wEighth) (Finset.sum_congr rfl fun j _ => ?_)
  rw [qB1_apply V c t b qi h ht, kHead_apply V c t b qi h ht]

/-- One head's step of the output accumulator at an entry: what it held plus the head's term. -/
theorem headAcc0_point (c : Dev nD) (t : Fin cfg1.N) (b : Fin 2) (qi : Fin 4) (h : Fin 16) (ht : t.val = 64 * b.val + 16 * qi.val + h.val) (prev : FVec Ideal S512x1024 .f32) (r : Fin 512) (e : Fin 1024) :
    headAcc0 (F := Ideal) (grid1.coords t) (qB1 V c t) (kB1 V c t) (vB1 V c t) (wB1 V c t) prev (ix2 r e)
      = prev (ix2 r e) + headTerm V c b h ⟨512 * qi.val + r.val, by omega⟩ e := by
  unfold headAcc0
  rw [k1_pay1_eq]
  refine (k1_pay8_apply _ _ _ _ _ r e).trans ?_
  refine congrArg (prev (ix2 r e) + ·) ?_
  unfold headTerm
  refine Finset.sum_congr rfl fun j _ => ?_
  rw [wHead_apply V c t b qi h ht]
  refine congrArg (· * aW V c (ix2 ⟨64 * h.val + j.val, by omega⟩ e)) ?_
  refine Finset.sum_congr rfl fun k _ => ?_
  rw [pay7_point V c t b qi h ht, vHead_apply V c t b qi h ht]

end AtIdeal

/-! # The output accumulator over the 16 heads of one run

The points `16·q … 16·q + 15` (`q = 4·b + qi`) share the batch and the query tile and run through the heads: the first
stores zeros and adds head 0's term, each later one adds its head's term. -/

section Fold
variable (V : (c : Dev nD) → (b : Ref sig .tc) → Buf (Elt Ideal) ((c : Thread nD τ).loc b))

/-- The output accumulator after point `n`. -/
def acc0 (c : Dev nD) (n : ℕ) (hn : n < cfg1.N) : FVec Ideal S512x1024 .f32 := (scAt1 V c n hn).1

/-- What a first-head point leaves in it: head 0's step from the zero block. -/
def reset0 (c : Dev nD) (n : ℕ) (hn : n < cfg1.N) : FVec Ideal S512x1024 .f32 :=
  headAcc0 (F := Ideal) (grid1.coords ⟨n, hn⟩) (qB1 V c ⟨n, hn⟩) (kB1 V c ⟨n, hn⟩) (vB1 V c ⟨n, hn⟩) (wB1 V c ⟨n, hn⟩) (k1_pay5 (F := Ideal))

/-- What any other point leaves in it: its head's step from what the point before left. -/
def step0 (c : Dev nD) (n : ℕ) (hn : n < cfg1.N) (prev : FVec Ideal S512x1024 .f32) : FVec Ideal S512x1024 .f32 :=
  headAcc0 (F := Ideal) (grid1.coords ⟨n, hn⟩) (qB1 V c ⟨n, hn⟩) (kB1 V c ⟨n, hn⟩) (vB1 V c ⟨n, hn⟩) (wB1 V c ⟨n, hn⟩) prev

theorem acc0_reset (c : Dev nD) (n : ℕ) (hn : n < cfg1.N) (h0 : n % 16 = 0) : acc0 V c n hn = reset0 V c n hn :=
  congrArg Prod.fst (scAt1_first V c ⟨n, hn⟩ h0)

theorem acc0_step (c : Dev nD) (n : ℕ) (hn : n + 1 < cfg1.N) (h0 : ¬(n + 1) % 16 = 0) :
    acc0 V c (n + 1) hn = step0 V c (n + 1) hn (acc0 V c n (Nat.lt_of_succ_lt hn)) :=
  congrArg Prod.fst (scAt1_next V c ⟨n + 1, hn⟩ h0)

/-- Point `n`'s addend to the run of batch `b`, query tile `qi`, at an entry of the block: the term of head
`n − 16·(4·b + qi)` (zero off the run, where it is never used). -/
def addend0 (c : Dev nD) (b : Fin 2) (qi : Fin 4) (n : ℕ) (i : S512x1024.Idx) : EReal :=
  if hm : n - 16 * (4 * b.val + qi.val) < 16 then
    headTerm V c b ⟨n - 16 * (4 * b.val + qi.val), hm⟩ ⟨512 * qi.val + (i 0).val, by have := idx2_lt0 i; omega⟩ ⟨(i 1).val, idx2_lt1 i⟩
  else 0

/-- A point of the run adds its head's term. -/
theorem step0_apply (c : Dev nD) (b : Fin 2) (qi : Fin 4) (n : ℕ) (hn : n < cfg1.N) (hlo : 16 * (4 * b.val + qi.val) ≤ n)
    (hhi : n ≤ 16 * (4 * b.val + qi.val) + 15) (prev : FVec Ideal S512x1024 .f32) (i : S512x1024.Idx) :
    step0 V c n hn prev i = prev i + addend0 V c b qi n i := by
  obtain ⟨r, e, rfl⟩ : ∃ (r : Fin 512) (e : Fin 1024), i = ix2 r e := ⟨i 0, i 1, eq_ix2 i⟩
  have hm : n - 16 * (4 * b.val + qi.val) < 16 := by omega
  unfold step0 addend0
  rw [dif_pos hm]
  exact headAcc0_point V c ⟨n, hn⟩ b qi ⟨n - 16 * (4 * b.val + qi.val), hm⟩ (by show n = 64 * b.val + 16 * qi.val + (n - 16 * (4 * b.val + qi.val)); omega) prev r e

/-- THE RUN: after its point `16·q + j` the accumulator holds the zero plus the terms of heads `0 … j`. -/
theorem acc0_run (c : Dev nD) (b : Fin 2) (qi : Fin 4) (j : ℕ) (hj : j < 16) (hn : 16 * (4 * b.val + qi.val) + j < cfg1.N)
    (i : S512x1024.Idx) :
    acc0 V c (16 * (4 * b.val + qi.val) + j) hn i
      = 0 + ∑ s ∈ Finset.range (j + 1), addend0 V c b qi (16 * (4 * b.val + qi.val) + s) i := by
  rw [Pipeline.eq_accAt (acc0 V c) 16 (reset0 V c) (step0 V c) (fun n h hm => acc0_reset V c n h hm)
    (fun n h hne => acc0_step V c n h hne) (4 * b.val + qi.val) j hj hn]
  refine Pipeline.accAt_add_apply (ι := S512x1024.Idx) (β := EReal) (reset0 V c) (step0 V c) (fun _ => 0) (addend0 V c b qi)
    (16 * (4 * b.val + qi.val)) 15 (fun h i => ?_) (fun n h acc i hlo hhi => ?_) j (by omega) hn i
  · refine (step0_apply V c b qi _ h (le_refl _) (by omega) (k1_pay5 (F := Ideal)) i).trans ?_
    rw [k1_pay5_apply]
  · exact step0_apply V c b qi n h (by omega) hhi acc i

/-- After the run's last point: the sum over the 16 heads of the heads' terms. -/
theorem acc0_last (c : Dev nD) (b : Fin 2) (qi : Fin 4) (hn : 16 * (4 * b.val + qi.val) + 15 < cfg1.N) (r : Fin 512) (e : Fin 1024) :
    acc0 V c (16 * (4 * b.val + qi.val) + 15) hn (ix2 r e)
      = ∑ h : Fin 16, headTerm V c b h ⟨512 * qi.val + r.val, by omega⟩ e := by
  rw [acc0_run V c b qi 15 (by omega) hn, zero_add, Finset.sum_range]
  refine Finset.sum_congr rfl fun h _ => ?_
  have hm : 16 * (4 * b.val + qi.val) + h.val - 16 * (4 * b.val + qi.val) < 16 := by omega
  unfold addend0
  rw [dif_pos hm]
  exact congrArg (fun x => headTerm V c b x ⟨512 * qi.val + r.val, by omega⟩ e) (Fin.ext (by show 16 * (4 * b.val + qi.val) + h.val - 16 * (4 * b.val + qi.val) = h.val; omega))

end Fold

end Cert.KernelIdeal.Hand

end
-- ==== Proof.KI.V1.lean ====
import proofs.«146015_j42408507080997_2_alg».proof.Proof.KI.V1Fold

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # The output array after the region

The block written back at the last head's point of a run holds, per row, the sum of the 16 heads' terms plus the
projection's bias plus the residual input; the 8 runs' blocks tile the array. -/

section Final
variable (V : (c : Dev nD) → (b : Ref sig .tc) → Buf (Elt Ideal) ((c : Thread nD τ).loc b))

/-- Output row `s` of batch `b` at column `e`. -/
def outVal (c : Dev nD) (b : Fin 2) (s : Fin 2048) (e : Fin 1024) : EReal :=
  (∑ h : Fin 16, headTerm V c b h s e) + aB V c (ix1 e) + aX V c (ix3 b s e)

/-- The output array's contents. -/
def outArr (c : Dev nD) : S2x2048x1024.Idx → EReal := fun i => outVal V c (i 0) (i 1) (i 2)

theorem acc0_congr (c : Dev nD) (n m : ℕ) (hn : n < cfg1.N) (hm : m < cfg1.N) (e : n = m) : acc0 V c n hn = acc0 V c m hm := by
  subst e; rfl

/-- WHAT A LAST-HEAD POINT WRITES BACK is its block of the output array's contents. -/
theorem flushed6_eq (c : Dev nD) (t : Fin cfg1.N) (hf : (cfg1.win 6).flush t = true) :
    (dat1 (F := Ideal) V c).flushed 6 t = ((cfg1.win 6).blk t).view.read (Elt Ideal) (outArr V c) := by
  have h15 : t.val % 16 = 15 := (flush1_6 t).mp hf
  have hN : cfg1.N = 128 := N_1
  have hlt := t.isLt
  obtain ⟨b, qi, ht⟩ : ∃ (b : Fin 2) (qi : Fin 4), t.val = 64 * b.val + 16 * qi.val + 15 :=
    ⟨⟨t.val / 64, by omega⟩, ⟨t.val / 16 % 4, by omega⟩, by show t.val = 64 * (t.val / 64) + 16 * (t.val / 16 % 4) + 15; omega⟩
  obtain ⟨e0, e1, e2⟩ := idx1_6 t
  show (cfg1.win 6).cut (grid1.coords t) ((dat1 V c).after 6 t) = _
  rw [after1_6_last V c t h15]
  funext y
  obtain ⟨u, r, e, rfl⟩ : ∃ (u : Fin 1) (r : Fin 512) (e : Fin 1024), y = ix3 u r e := ⟨y 0, y 1, y 2, eq_ix3 y⟩
  have hacc : headAcc0 (F := Ideal) (grid1.coords t) (qB1 V c t) (kB1 V c t) (vB1 V c t) (wB1 V c t)
      (scAt1 V c (t.val - 1) (Nat.lt_of_le_of_lt (Nat.sub_le _ _) t.isLt)).1 = acc0 V c t.val t.isLt :=
    (congrArg Prod.fst (scAt1_next V c t (by omega))).symm
  rw [hacc]
  have hemb : (((cfg1.win 6).blk t).view.emb (ix3 u r e) : S2x2048x1024.Idx) = ix3 b ⟨512 * qi.val + r.val, by omega⟩ e :=
    funext fun a => Fin.ext (by
      match a with
      | ⟨0, _⟩ => show win1_6.index t (0 : Fin 3) * 1 + 1 * u.val = b.val; omega
      | ⟨1, _⟩ => show win1_6.index t (1 : Fin 3) * 512 + 1 * r.val = 512 * qi.val + r.val; omega
      | ⟨2, _⟩ => show win1_6.index t (2 : Fin 3) * 1024 + 1 * e.val = e.val; omega)
  show k1_pay4 (F := Ideal) (acc0 V c t.val t.isLt) (bB1 V c t) (xB1 V c t) (ix3 u r e)
    = outArr V c (((cfg1.win 6).blk t).view.emb (ix3 u r e))
  rw [hemb]
  refine (k1_pay4_apply _ _ _ u r e).trans ?_
  show _ = outVal V c b ⟨512 * qi.val + r.val, by omega⟩ e
  unfold outVal
  rw [bB1_apply, xB1_apply V c t b qi (15 : Fin 16) ht,
    acc0_congr V c t.val (16 * (4 * b.val + qi.val) + 15) t.isLt (by omega) (by omega), acc0_last]

/-- Every row of the output array is in the block of its run's last-head point. -/
theorem cover6 (i : S2x2048x1024.Idx) :
    ∃ t : Fin cfg1.N, (cfg1.win 6).flush t = true ∧ i ∈ ((cfg1.win 6).blk t).view.set := by
  have hN : cfg1.N = 128 := N_1
  have h0 : (i 0).val < 2 := (i 0).isLt
  have h1 : (i 1).val < 2048 := (i 1).isLt
  have h2 : (i 2).val < 1024 := (i 2).isLt
  have hT : 64 * (i 0).val + 16 * ((i 1).val / 512) + 15 < cfg1.N := by omega
  have e0 : win1_6.index ⟨_, hT⟩ (0 : Fin 3) = (64 * (i 0).val + 16 * ((i 1).val / 512) + 15) / 64 := (idx1_6 ⟨_, hT⟩).1
  have e1 : win1_6.index ⟨_, hT⟩ (1 : Fin 3) = (64 * (i 0).val + 16 * ((i 1).val / 512) + 15) / 16 % 4 := (idx1_6 ⟨_, hT⟩).2.1
  have e2 : win1_6.index ⟨_, hT⟩ (2 : Fin 3) = 0 := (idx1_6 ⟨_, hT⟩).2.2
  refine ⟨⟨_, hT⟩, (flush1_6 _).mpr (by show (64 * (i 0).val + 16 * ((i 1).val / 512) + 15) % 16 = 15; omega), ?_⟩
  show i ∈ ((View.whole main_v5_0).slice (win1_6.rect ⟨_, hT⟩)).set
  rw [View.set_slice_whole, Rect.mem_set_unit]
  intro a
  match a with
  | ⟨0, _⟩ =>
    show win1_6.index ⟨_, hT⟩ (0 : Fin 3) * 1 ≤ (i 0).val ∧ (i 0).val < win1_6.index ⟨_, hT⟩ (0 : Fin 3) * 1 + 1
    omega
  | ⟨1, _⟩ =>
    show win1_6.index ⟨_, hT⟩ (1 : Fin 3) * 512 ≤ (i 1).val ∧ (i 1).val < win1_6.index ⟨_, hT⟩ (1 : Fin 3) * 512 + 512
    omega
  | ⟨2, _⟩ =>
    show win1_6.index ⟨_, hT⟩ (2 : Fin 3) * 1024 ≤ (i 2).val ∧ (i 2).val < win1_6.index ⟨_, hT⟩ (2 : Fin 3) * 1024 + 1024
    omega

/-- THE OUTPUT ARRAY after the region. -/
theorem out_arr_eq (c : Dev nD) : (dat1 (F := Ideal) V c).arrAt 6 cfg1.N = outArr V c :=
  (dat1 (F := Ideal) V c).arrAt_eq_of_cover 6 (outArr V c) (fun t hf => flushed6_eq V c t hf) cover6

/-- THE OUTPUT ARRAY after the region, entry by entry: the sum over the 16 heads of the head's softmax weights against
its values, projected by the head's rows of the output weight, plus the projection's bias, plus the residual input. -/
theorem out_arr (c : Dev nD) (b : Fin 2) (s : Fin 2048) (e : Fin 1024) :
    ((dat1 (F := Ideal) V c).arrAt 6 cfg1.N (ix3 b s e) : EReal)
      = (∑ h : Fin 16, ∑ j : Fin 64,
          (∑ k : Fin 2048, Cert.Spec.softmaxRow (fun n => (∑ j' : Fin 64, aQ V c (ix4 b h s j') * aK V c (ix4 b h n j'))
              * Ideal.ofBits .f32 0x3E000000#32) k * aV V c (ix4 b h k j))
            * aW V c (ix2 ⟨64 * h.val + j.val, by omega⟩ e))
        + aB V c (ix1 e) + aX V c (ix3 b s e) :=
  congrFun (out_arr_eq V c) (ix3 b s e)

end Final

end Cert.KernelIdeal.Hand

end
-- ==== Proof.Algebra.lean ====
/-
  The small algebra the two sides of the attention layer differ by, on the extended reals.
  * Dividing by 8 is multiplying by 1/8, and dividing by 16 is multiplying by 1/16, for EVERY extended real (the
    infinities included): the divisor is a nonzero real, so the quotient is the product with its reciprocal.  The four
    numbers are the values of the 32-bit float words the programs spell them with.
  * A sum over the 1024 columns of the concatenated heads is the sum over the 16 heads of the sums over each head's 64
    columns: column n is column n mod 64 of head n div 64 (a re-indexing of a finite sum in a commutative monoid; nothing
    about finiteness of the terms is used).
-/
import Idealize.ShloMosaic.PureOps.Ideal
import Idealize.ShloMosaic.PureOps.Ideal.Laws

noncomputable section

namespace Cert.Spec

open Idealize.ShloMosaic

/-- The float word `0x41000000` is the real 8. -/
theorem ofBits_8 : Ideal.ofBits .f32 0x41000000#32 = ((8 : ℝ) : EReal) := by
  simp [Ideal.ofBits, Ideal.ieee, -EReal.coe_mul]; norm_num

/-- The float word `0x3E000000` is the real 1/8. -/
theorem ofBits_eighth : Ideal.ofBits .f32 0x3E000000#32 = ((1 / 8 : ℝ) : EReal) := by
  simp [Ideal.ofBits, Ideal.ieee, -EReal.coe_mul]; norm_num

/-- The float word `0x41800000` is the real 16. -/
theorem ofBits_16 : Ideal.ofBits .f32 0x41800000#32 = ((16 : ℝ) : EReal) := by
  simp [Ideal.ofBits, Ideal.ieee, -EReal.coe_mul]; norm_num

/-- The float word `0x3D800000` is the real 1/16. -/
theorem ofBits_sixteenth : Ideal.ofBits .f32 0x3D800000#32 = ((1 / 16 : ℝ) : EReal) := by
  simp [Ideal.ofBits, Ideal.ieee, -EReal.coe_mul]; norm_num

/-- Dividing by the word of 8 is multiplying by the word of 1/8, on every extended real. -/
theorem div_8 (x : EReal) :
    Ideal.div x (Ideal.ofBits .f32 0x41000000#32) = x * Ideal.ofBits .f32 0x3E000000#32 := by
  rw [ofBits_8, ofBits_eighth, Ideal.div_coe (by norm_num : (8 : ℝ) ≠ 0)]

/-- Dividing by the word of 16 is multiplying by the word of 1/16, on every extended real. -/
theorem div_16 (x : EReal) :
    Ideal.div x (Ideal.ofBits .f32 0x41800000#32) = x * Ideal.ofBits .f32 0x3D800000#32 := by
  rw [ofBits_16, ofBits_sixteenth, Ideal.div_coe (by norm_num : (16 : ℝ) ≠ 0)]

/-- A sum over the 1024 concatenated columns, head by head: column `64 h + j` is column `j` of head `h`. -/
theorem sum_heads {M : Type*} [AddCommMonoid M] (g : Fin 1024 → M) :
    ∑ n : Fin 1024, g n = ∑ h : Fin 16, ∑ j : Fin 64, g ⟨64 * h.val + j.val, by omega⟩ := by
  rw [← Fintype.sum_prod_type' (f := fun (h : Fin 16) (j : Fin 64) => g ⟨64 * h.val + j.val, by omega⟩)]
  refine (Fintype.sum_equiv (finProdFinEquiv (m := 16) (n := 64)) _ _ fun x => ?_).symm
  obtain ⟨h, j⟩ := x
  refine congrArg g (Fin.ext ?_)
  simp only [finProdFinEquiv_apply_val]
  omega

end Cert.Spec

end
-- ==== Proof.SpecBridge.lean ====
/-
  The same layer in the arrangement the kernel computes it in, proved equal to the specification.

  Three differences, none of which needs the entries to be finite:
  * the scores are the contraction TIMES the word of 1/8 where the specification divides by the word of 8, and the
    averaged weights the head sum TIMES the word of 1/16 where it divides by the word of 16: a quotient by a nonzero
    real is the product with its reciprocal on every extended real;
  * the output projection is summed head by head — over the 16 heads, over each head's 64 context columns — where the
    specification sums over the 1024 concatenated columns: column 64·h + j is component j of head h, so the two are one
    finite sum re-indexed;
  * a quantity accumulated over the 16 heads arrives as a starting value plus a sum over a range of naturals; it is the
    sum over the heads.
-/
import proofs.«146015_j42408507080997_2_alg».proof.Proof.Spec
import proofs.«146015_j42408507080997_2_alg».proof.Proof.Algebra

noncomputable section

open scoped BigOperators

namespace Cert.Spec

open Idealize.ShloMosaic

/-- The float word of 1/8. -/
abbrev wEighth : EReal := Ideal.ofBits .f32 0x3E000000#32
/-- The float word of 1/16. -/
abbrev wSixteenth : EReal := Ideal.ofBits .f32 0x3D800000#32

/-! ## The kernel's arrangement -/

/-- The scores as a product with 1/8. -/
def scK (x : Fin 2 → Fin 2048 → Fin 1024 → EReal) (γ β : Fin 1024 → EReal)
    (W : Fin 3072 → Fin 1024 → EReal) (bias : Fin 3072 → EReal)
    (b : Fin 2) (h : Fin 16) (s k : Fin 2048) : EReal :=
  (∑ j : Fin 64, q x γ β W bias b h s j * kk x γ β W bias b h k j) * wEighth

/-- The attention probabilities of those scores. -/
def pK (x : Fin 2 → Fin 2048 → Fin 1024 → EReal) (γ β : Fin 1024 → EReal)
    (W : Fin 3072 → Fin 1024 → EReal) (bias : Fin 3072 → EReal)
    (b : Fin 2) (h : Fin 16) (s : Fin 2048) : Fin 2048 → EReal :=
  softmaxRow (fun k => scK x γ β W bias b h s k)

/-- The context from those probabilities. -/
def ctxK (x : Fin 2 → Fin 2048 → Fin 1024 → EReal) (γ β : Fin 1024 → EReal)
    (W : Fin 3072 → Fin 1024 → EReal) (bias : Fin 3072 → EReal)
    (b : Fin 2) (h : Fin 16) (s : Fin 2048) (j : Fin 64) : EReal :=
  ∑ k : Fin 2048, pK x γ β W bias b h s k * v x γ β W bias b h k j

/-- The output with the projection summed head by head: head `h`'s 64 context columns meet rows
    64·h … 64·h + 63 of the output weights. -/
def outK (x : Fin 2 → Fin 2048 → Fin 1024 → EReal) (γ β : Fin 1024 → EReal)
    (W : Fin 3072 → Fin 1024 → EReal) (bias : Fin 3072 → EReal)
    (Wo : Fin 1024 → Fin 1024 → EReal) (ob : Fin 1024 → EReal)
    (b : Fin 2) (s : Fin 2048) (e : Fin 1024) : EReal :=
  (∑ h : Fin 16, ∑ j : Fin 64,
      ctxK x γ β W bias b h s j * Wo e ⟨64 * h.val + j.val, by have := h.isLt; have := j.isLt; omega⟩) + ob e + x b s e

/-- The averaged attention weights as a product with 1/16. -/
def attnK (x : Fin 2 → Fin 2048 → Fin 1024 → EReal) (γ β : Fin 1024 → EReal)
    (W : Fin 3072 → Fin 1024 → EReal) (bias : Fin 3072 → EReal)
    (b : Fin 2) (s k : Fin 2048) : EReal :=
  (∑ h : Fin 16, pK x γ β W bias b h s k) * wSixteenth

/-! ## It is the specification -/

theorem scK_eq (x : Fin 2 → Fin 2048 → Fin 1024 → EReal) (γ β : Fin 1024 → EReal)
    (W : Fin 3072 → Fin 1024 → EReal) (bias : Fin 3072 → EReal)
    (b : Fin 2) (h : Fin 16) (s k : Fin 2048) :
    scK x γ β W bias b h s k = sc x γ β W bias b h s k :=
  (div_8 _).symm

theorem pK_eq (x : Fin 2 → Fin 2048 → Fin 1024 → EReal) (γ β : Fin 1024 → EReal)
    (W : Fin 3072 → Fin 1024 → EReal) (bias : Fin 3072 → EReal)
    (b : Fin 2) (h : Fin 16) (s : Fin 2048) :
    pK x γ β W bias b h s = p x γ β W bias b h s :=
  congrArg softmaxRow (funext fun k => scK_eq x γ β W bias b h s k)

theorem ctxK_eq (x : Fin 2 → Fin 2048 → Fin 1024 → EReal) (γ β : Fin 1024 → EReal)
    (W : Fin 3072 → Fin 1024 → EReal) (bias : Fin 3072 → EReal)
    (b : Fin 2) (h : Fin 16) (s : Fin 2048) (j : Fin 64) :
    ctxK x γ β W bias b h s j = ctx x γ β W bias b h s j := by
  unfold ctxK ctx
  rw [pK_eq]

/-- Column 64·h + j of the concatenated context belongs to head h … -/
theorem headOf_col (h : Fin 16) (j : Fin 64) (hlt : 64 * h.val + j.val < 1024) :
    headOf ⟨64 * h.val + j.val, hlt⟩ = h :=
  Fin.ext (by show (64 * h.val + j.val) / 64 = h.val; have := j.isLt; omega)

/-- … and is its component j. -/
theorem compOf_col (h : Fin 16) (j : Fin 64) (hlt : 64 * h.val + j.val < 1024) :
    compOf ⟨64 * h.val + j.val, hlt⟩ = j :=
  Fin.ext (by show (64 * h.val + j.val) % 64 = j.val; have := j.isLt; omega)

theorem outK_eq (x : Fin 2 → Fin 2048 → Fin 1024 → EReal) (γ β : Fin 1024 → EReal)
    (W : Fin 3072 → Fin 1024 → EReal) (bias : Fin 3072 → EReal)
    (Wo : Fin 1024 → Fin 1024 → EReal) (ob : Fin 1024 → EReal)
    (b : Fin 2) (s : Fin 2048) (e : Fin 1024) :
    outK x γ β W bias Wo ob b s e = out x γ β W bias Wo ob b s e := by
  unfold outK out
  rw [sum_heads (fun n => ctx x γ β W bias b (headOf n) s (compOf n) * Wo e n)]
  refine congrArg (fun t => t + ob e + x b s e)
    (Finset.sum_congr rfl fun h _ => Finset.sum_congr rfl fun j _ => ?_)
  rw [headOf_col, compOf_col, ctxK_eq]

theorem attnK_eq (x : Fin 2 → Fin 2048 → Fin 1024 → EReal) (γ β : Fin 1024 → EReal)
    (W : Fin 3072 → Fin 1024 → EReal) (bias : Fin 3072 → EReal)
    (b : Fin 2) (s k : Fin 2048) :
    attnK x γ β W bias b s k = attnW x γ β W bias b s k := by
  unfold attnK attnW
  rw [div_16]
  exact congrArg (fun t => t * wSixteenth) (Finset.sum_congr rfl fun h _ => congrFun (pK_eq x γ β W bias b h s) k)

/-! ## A sum accumulated point by point is the sum over the heads -/

/-- A sum over the first `n` naturals of a function defined on `Fin n` (and anything past it) is the sum over `Fin n`. -/
theorem sum_range_dite {M : Type*} [AddCommMonoid M] (n : Nat) (f : Fin n → M) :
    ∑ i ∈ Finset.range n, (if h : i < n then f ⟨i, h⟩ else 0) = ∑ i : Fin n, f i := by
  rw [Finset.sum_range]
  exact Finset.sum_congr rfl fun i _ => dif_pos i.isLt

/-- From zero, the same. -/
theorem zero_add_sum_range_dite {M : Type*} [AddCommMonoid M] (n : Nat) (f : Fin n → M) :
    (0 : M) + ∑ i ∈ Finset.range n, (if h : i < n then f ⟨i, h⟩ else 0) = ∑ i : Fin n, f i := by
  rw [zero_add, sum_range_dite]

/-- A sum over the `n` naturals from `b` on, of a function of the natural, is the sum over `Fin n` of it at `b + i`. -/
theorem sum_range_shift {M : Type*} [AddCommMonoid M] (n b : Nat) (g : Nat → M) :
    ∑ i ∈ Finset.range n, g (b + i) = ∑ i : Fin n, g (b + i.val) :=
  Finset.sum_range fun i => g (b + i)

/-- The 16 heads: from zero, the sum over the points `b, …, b + 15` is the sum over the heads. -/
theorem zero_add_sum_heads_range {M : Type*} [AddCommMonoid M] (b : Nat) (g : Nat → M) :
    (0 : M) + ∑ i ∈ Finset.range (15 + 1), g (b + i) = ∑ h : Fin 16, g (b + h.val) := by
  rw [zero_add]
  exact sum_range_shift 16 b g

/-- The 16 heads, for a function of the head. -/
theorem zero_add_sum_heads_dite (f : Fin 16 → EReal) :
    (0 : EReal) + ∑ n ∈ Finset.range 16, (if h : n < 16 then f ⟨n, h⟩ else 0) = ∑ h : Fin 16, f h :=
  zero_add_sum_range_dite 16 f

end Cert.Spec

end
-- ==== Proof.KI.V1Attn.lean ====
import proofs.«146015_j42408507080997_2_alg».proof.Proof.KI.R1x
import proofs.«146015_j42408507080997_2_alg».proof.Proof.KI.V1Pay
import proofs.«146015_j42408507080997_2_alg».proof.Proof.RowSpec
import proofs.«146015_j42408507080997_2_alg».proof.Proof.SpecBridge
import Idealize.ShloMosaic.Lib.ValueIdx
import Idealize.ShloMosaic.Lib.Pipeline.Value

set_option maxRecDepth 16384

noncomputable section

namespace Cert.KernelIdeal.Hand.Attn

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

-- the TensorCore's buffer contents when the region is entered
variable (V : (c : Dev nD) → (b : Ref sig .tc) → Buf (Elt Ideal) ((c : Thread nD τ).loc b))

/-! # The attention-weights array after the second region

Point `t` of the grid is batch `t / 64`, query tile `t / 16 % 4`, head `t % 16`. -/

/-- The grid's coordinates and the block indices of the query window, the key window and the weights window at a
    point, decided over the grid. -/
theorem idx_facts : ∀ t : Fin cfg1.N,
    ((grid1.coords t) 2).val = t.val % 16
    ∧ win1_0.index t (0 : Fin 4) = t.val / 64 ∧ win1_0.index t (1 : Fin 4) = t.val % 16
    ∧ win1_0.index t (2 : Fin 4) = t.val / 16 % 4 ∧ win1_0.index t (3 : Fin 4) = 0
    ∧ win1_1.index t (0 : Fin 4) = t.val / 64 ∧ win1_1.index t (1 : Fin 4) = 0
    ∧ win1_1.index t (2 : Fin 4) = 0 ∧ win1_1.index t (3 : Fin 4) = 0
    ∧ win1_7.index t (0 : Fin 3) = t.val / 64 ∧ win1_7.index t (1 : Fin 3) = t.val / 16 % 4
    ∧ win1_7.index t (2 : Fin 3) = 0 :=
  (by decide +kernel : ∀ t : Fin grid1.N, _)

/-- The query block of point `t` at row `r`, component `j`: the query array at the point's batch and head, row
    `512 · tile + r`. -/
theorem qB1_apply (c : Dev nD) (t : Fin cfg1.N) (r : Fin 512) (j : Fin 64) (b : Fin 2) (h : Fin 16) (s : Fin 2048)
    (hb : b.val = t.val / 64) (hh : h.val = t.val % 16) (hs : s.val = 512 * (t.val / 16 % 4) + r.val) :
    qB1 V c t (ix4 (0 : Fin 1) (0 : Fin 1) r j) = V c main_v2_0 (ix4 b h s j) := by
  show V c main_v2_0 (((cfg1.win 0).blk t).view.emb (ix4 (0 : Fin 1) (0 : Fin 1) r j)) = V c main_v2_0 (ix4 b h s j)
  refine congrArg (V c main_v2_0) (funext fun a => Fin.ext ?_)
  obtain ⟨-, e0, e1, e2, e3, -⟩ := idx_facts t
  match a with
  | ⟨0, _⟩ => show win1_0.index t (0 : Fin 4) * 1 + 1 * 0 = b.val; omega
  | ⟨1, _⟩ => show win1_0.index t (1 : Fin 4) * 1 + 1 * 0 = h.val; omega
  | ⟨2, _⟩ => show win1_0.index t (2 : Fin 4) * 512 + 1 * r.val = s.val; omega
  | ⟨3, _⟩ => show win1_0.index t (3 : Fin 4) * 64 + 1 * j.val = j.val; omega

/-- The key block of point `t` at head `h`, key `n`, component `j`: the key array at the point's batch. -/
theorem kB1_apply (c : Dev nD) (t : Fin cfg1.N) (h : Fin 16) (n : Fin 2048) (j : Fin 64) (b : Fin 2)
    (hb : b.val = t.val / 64) :
    kB1 V c t (ix4 (0 : Fin 1) h n j) = V c main_v2_1 (ix4 b h n j) := by
  show V c main_v2_1 (((cfg1.win 1).blk t).view.emb (ix4 (0 : Fin 1) h n j)) = V c main_v2_1 (ix4 b h n j)
  refine congrArg (V c main_v2_1) (funext fun a => Fin.ext ?_)
  obtain ⟨-, -, -, -, -, e0, e1, e2, e3, -⟩ := idx_facts t
  match a with
  | ⟨0, _⟩ => show win1_1.index t (0 : Fin 4) * 1 + 1 * 0 = b.val; omega
  | ⟨1, _⟩ => show win1_1.index t (1 : Fin 4) * 16 + 1 * h.val = h.val; omega
  | ⟨2, _⟩ => show win1_1.index t (2 : Fin 4) * 2048 + 1 * n.val = n.val; omega
  | ⟨3, _⟩ => show win1_1.index t (3 : Fin 4) * 64 + 1 * j.val = j.val; omega

/-! ## The running sum of the weights over a query tile's sixteen heads -/

/-- One head's softmax weights, as the body computes them at point `n` (zero past the grid: never read). -/
def headW (c : Dev nD) (n : Nat) : S512x2048.Idx → EReal := fun i =>
  if hn : n < cfg1.N then
    k1_pay7 (F := Ideal) (qB1 V c ⟨n, hn⟩) (View.ld (kB1 V c ⟨n, hn⟩) (Rect.unit (k1_off1 (grid1.coords ⟨n, hn⟩)) S1x1x2048x64.size (k1_off1_inb (grid1.coords ⟨n, hn⟩)))) i
  else 0

/-- What the first head leaves in the second scratch buffer, -/
abbrev aReset (c : Dev nD) (n : Nat) (hn : n < cfg1.N) : S512x2048.Idx → EReal :=
  headAcc1 (grid1.coords ⟨n, hn⟩) (qB1 V c ⟨n, hn⟩) (kB1 V c ⟨n, hn⟩) (k1_pay6 (F := Ideal))
/-- and a later head over what the head before left. -/
abbrev gStep (c : Dev nD) (n : Nat) (hn : n < cfg1.N) (acc : S512x2048.Idx → EReal) : S512x2048.Idx → EReal :=
  headAcc1 (grid1.coords ⟨n, hn⟩) (qB1 V c ⟨n, hn⟩) (kB1 V c ⟨n, hn⟩) acc

theorem aReset_apply (c : Dev nD) (n : Nat) (hn : n < cfg1.N) (i : S512x2048.Idx) :
    aReset V c n hn i = 0 + headW V c n i := by
  show k1_pay2 (F := Ideal) _ _ i = _
  refine (k1_pay2_apply _ _ i).trans ?_
  rw [k1_pay6_apply]
  unfold headW
  rw [dif_pos hn]

theorem gStep_apply (c : Dev nD) (n : Nat) (hn : n < cfg1.N) (acc : S512x2048.Idx → EReal) (i : S512x2048.Idx) :
    gStep V c n hn acc i = acc i + headW V c n i := by
  show k1_pay2 (F := Ideal) _ _ i = _
  refine (k1_pay2_apply _ _ i).trans ?_
  unfold headW
  rw [dif_pos hn]

/-- After the last head of a tile the second scratch buffer holds the sum of the sixteen heads' weights. -/
theorem acc1_last (c : Dev nD) (t : Fin cfg1.N) (h15 : t.val % 16 = 15) (i : S512x2048.Idx) :
    (scAt1 V c t.val t.isLt).2 i = ∑ h : Fin 16, headW V c (16 * (t.val / 16) + h.val) i := by
  have ht : 16 * (t.val / 16) + 15 = t.val := by omega
  have hlt : 16 * (t.val / 16) + 15 < cfg1.N := by rw [ht]; exact t.isLt
  have same : ∀ (u : Nat) (hu : u < cfg1.N), u = t.val → (scAt1 V c u hu).2 = (scAt1 V c t.val t.isLt).2 :=
    fun u hu e => by subst e; rfl
  rw [← same _ hlt ht]
  rw [Pipeline.eq_accAt (fun n hn => (scAt1 V c n hn).2) 16 (aReset V c) (gStep V c)
    (fun n h h0 => congrArg Prod.snd (scAt1_first V c ⟨n, h⟩ h0))
    (fun n h hne => congrArg Prod.snd (scAt1_next V c ⟨n + 1, h⟩ hne))
    (t.val / 16) 15 (by decide) hlt]
  rw [Pipeline.accAt_add_apply (aReset V c) (gStep V c) (fun _ => (0 : EReal)) (headW V c) (16 * (t.val / 16)) 15
    (fun h i => aReset_apply V c _ h i) (fun n h acc i _ _ => gStep_apply V c n h acc i) 15 (le_refl _) hlt i]
  exact Cert.Spec.zero_add_sum_heads_range (16 * (t.val / 16)) (fun n => headW V c n i)

/-- The query and key arrays the region finds, at the type their entries are read at. -/
abbrev Qarr (c : Dev nD) : S2x16x2048x64.Idx → EReal := V c main_v2_0
abbrev Karr (c : Dev nD) : S2x16x2048x64.Idx → EReal := V c main_v2_1

/-! ## One head's weights from the query and key arrays -/

/-- The weights the body computes at point `p`, at query row `r` and key `n`: the softmax over the keys of the scaled
    inner products of the query row with the head's keys, read off the query and key arrays. -/
theorem headW_apply (c : Dev nD) (p : Nat) (hp : p < cfg1.N) (r : Fin 512) (n : Fin 2048) (b : Fin 2) (h : Fin 16) (s : Fin 2048)
    (hb : b.val = p / 64) (hh : h.val = p % 16) (hs : s.val = 512 * (p / 16 % 4) + r.val) :
    headW V c p (ix2 r n)
      = Cert.Spec.softmaxRow (fun n' => (∑ j : Fin 64, Qarr V c (ix4 b h s j) * Karr V c (ix4 b h n' j)) * Ideal.ofBits .f32 0x3E000000#32) n := by
  unfold headW
  rw [dif_pos hp]
  refine (k1_pay7_apply _ _ r n).trans ?_
  refine congrArg (fun f => Cert.Spec.softmaxRow f n) (funext fun n' => ?_)
  unfold scoreRow
  refine congrArg (· * wEighth) (Finset.sum_congr rfl fun j _ => ?_)
  have hc2 : (⟨((grid1.coords ⟨p, hp⟩) 2).val, ((grid1.coords ⟨p, hp⟩) 2).isLt⟩ : Fin 16) = h :=
    Fin.ext (by show ((grid1.coords ⟨p, hp⟩) 2).val = h.val; rw [(idx_facts ⟨p, hp⟩).1]; exact hh.symm)
  refine congrArg₂ (· * ·) (qB1_apply V c ⟨p, hp⟩ r j b h s hb hh hs) ?_
  refine (ld_k1_off1_apply (grid1.coords ⟨p, hp⟩) (kB1 V c ⟨p, hp⟩) n' j).trans ?_
  rw [hc2]
  exact kB1_apply V c ⟨p, hp⟩ h n' j b hb

/-! ## The array -/

/-- The attention weights averaged over the sixteen heads, from the query and key arrays the region finds. -/
def attnG (c : Dev nD) (b : Fin 2) (s k : Fin 2048) : EReal :=
  (∑ h : Fin 16, Cert.Spec.softmaxRow (fun n => (∑ j : Fin 64, Qarr V c (ix4 b h s j) * Karr V c (ix4 b h n j)) * Ideal.ofBits .f32 0x3E000000#32) k) * Ideal.ofBits .f32 0x3D800000#32

/-- The same as one array. -/
def attnArr (c : Dev nD) : S2x2048x2048.Idx → EReal := fun i => attnG V c (i 0) (i 1) (i 2)

/-- What the last head of a tile stores into the weights window, at `(u, r, n)`. -/
theorem stored7_apply (c : Dev nD) (t : Fin cfg1.N) (h15 : t.val % 16 = 15) (u : Fin 1) (r : Fin 512) (n : Fin 2048)
    (b : Fin 2) (s : Fin 2048) (hb : b.val = t.val / 64) (hs : s.val = 512 * (t.val / 16 % 4) + r.val) :
    (dat1 V c).after 7 t (ix3 u r n) = attnG V c b s n := by
  have h0 : ¬t.val % 16 = 0 := by omega
  rw [after1_7_last V c t h15]
  refine (k1_pay3_apply _ u r n).trans ?_
  unfold attnG
  refine congrArg (· * wSixteenth) ?_
  have e := congrArg Prod.snd (scAt1_next V c t h0)
  refine (congrFun e.symm (ix2 r n)).trans ?_
  rw [acc1_last V c t h15 (ix2 r n)]
  refine Finset.sum_congr rfl fun h _ => ?_
  have hh : h.val < 16 := h.isLt
  exact headW_apply V c (16 * (t.val / 16) + h.val) (lt_of_lt_of_eq (by have := lt_of_lt_of_eq t.isLt (show cfg1.N = 128 from N_1); omega) (show (128 : ℕ) = cfg1.N from N_1.symm)) r n b h s
    (by omega) (by omega) (by omega)

/-- WHAT POINT `t` WRITES BACK is block `t` of the array of averaged weights. -/
theorem flushed7_eq (c : Dev nD) (t : Fin cfg1.N) (hf : (cfg1.win 7).flush t = true) :
    (dat1 V c).flushed 7 t = ((cfg1.win 7).blk t).view.read (Elt Ideal) (attnArr V c) := by
  have h15 : t.val % 16 = 15 := (flush1_7 t).mp hf
  have hN : t.val < 128 := lt_of_lt_of_eq t.isLt (show cfg1.N = 128 from N_1)
  obtain ⟨-, -, -, -, -, -, -, -, -, e0, e1, e2⟩ := idx_facts t
  show (fun y : S1x512x2048.Idx => (dat1 V c).after 7 t y) = (fun y : S1x512x2048.Idx => attnArr V c (((cfg1.win 7).blk t).view.emb y))
  funext y
  have hy0 : (y 0).val < 1 := (y 0).isLt
  have hy1 : (y 1).val < 512 := (y 1).isLt
  have hy : y = ix3 (y 0) (y 1) (y 2) := eq_ix3 y
  have hemb : ((cfg1.win 7).blk t).view.emb y
      = ix3 (⟨t.val / 64, by omega⟩ : Fin 2) (⟨512 * (t.val / 16 % 4) + (y 1).val, by omega⟩ : Fin 2048) (y 2) := by
    funext a; apply Fin.ext
    match a with
    | ⟨0, _⟩ => show win1_7.index t (0 : Fin 3) * 1 + 1 * (y 0).val = t.val / 64; omega
    | ⟨1, _⟩ => show win1_7.index t (1 : Fin 3) * 512 + 1 * (y 1).val = 512 * (t.val / 16 % 4) + (y 1).val; omega
    | ⟨2, _⟩ => show win1_7.index t (2 : Fin 3) * 2048 + 1 * (y 2).val = (y 2).val; omega
  rw [hemb]
  show (dat1 V c).after 7 t y = attnG V c _ _ (y 2)
  exact (congrArg ((dat1 V c).after 7 t) hy).trans (stored7_apply V c t h15 (y 0) (y 1) (y 2) _ _ rfl rfl)

/-- An index of the array is in point `t`'s block iff each coordinate is in the block's range on its axis. -/
theorem mem_blk7 (t : Fin cfg1.N) (i : S2x2048x2048.Idx) :
    i ∈ ((cfg1.win 7).blk t).view.set ↔ ∀ a : Fin 3, win1_7.index t a * S1x512x2048.size a ≤ (i a).val ∧ (i a).val < win1_7.index t a * S1x512x2048.size a + S1x512x2048.size a := by
  show i ∈ ((View.whole main_v5_1).slice (win1_7.rect t)).set ↔ _
  rw [View.set_slice_whole, Rect.mem_set_unit]
  exact Iff.rfl

/-- Every index of the array is in the block some last-head point writes back: the point of its batch and query tile. -/
theorem cover7 (i : S2x2048x2048.Idx) :
    ∃ t : Fin cfg1.N, (cfg1.win 7).flush t = true ∧ i ∈ ((cfg1.win 7).blk t).view.set := by
  have h0 : (i 0).val < 2 := (i 0).isLt
  have h1 : (i 1).val < 2048 := (i 1).isLt
  have h2 : (i 2).val < 2048 := (i 2).isLt
  obtain ⟨t, ht⟩ : ∃ t : Fin cfg1.N, t.val = 64 * (i 0).val + 16 * ((i 1).val / 512) + 15 :=
    ⟨⟨64 * (i 0).val + 16 * ((i 1).val / 512) + 15, by rw [show cfg1.N = 128 from N_1]; omega⟩, rfl⟩
  obtain ⟨-, -, -, -, -, -, -, -, -, e0, e1, e2⟩ := idx_facts t
  refine ⟨t, (flush1_7 t).mpr (by omega), ?_⟩
  rw [mem_blk7]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 512 ≤ (i 1).val ∧ (i 1).val < win1_7.index t (1 : Fin 3) * 512 + 512; omega
  | ⟨2, _⟩ => show win1_7.index t (2 : Fin 3) * 2048 ≤ (i 2).val ∧ (i 2).val < win1_7.index t (2 : Fin 3) * 2048 + 2048; omega

/-- THE ARRAY after the region: the averaged weights, everywhere. -/
theorem attn_final (c : Dev nD) : (dat1 V c).arrAt 7 cfg1.N = attnArr V c :=
  (dat1 V c).arrAt_eq_of_cover 7 (attnArr V c) (fun t hf => flushed7_eq V c t hf) cover7

/-- The attention-weights array after the second region, entry by entry: the mean over the sixteen heads of the
    softmax, over the keys, of the scaled inner products of the query row with the head's keys. -/
theorem attn_arr (c : Dev nD) (b : Fin 2) (s k : Fin 2048) :
    (dat1 (F := Ideal) V c).arrAt 7 cfg1.N (ValueIdx.ix3 b s k)
      = (∑ h : Fin 16, Cert.Spec.softmaxRow (fun n => (∑ j : Fin 64, Qarr V c (ValueIdx.ix4 b h s j) * Karr V c (ValueIdx.ix4 b h n j)) * Ideal.ofBits .f32 0x3E000000#32) k) * Ideal.ofBits .f32 0x3D800000#32 := by
  rw [attn_final V c]
  rfl

/-- The same for any names of the two arrays. -/
theorem attn_arr_of (c : Dev nD) (Q K : S2x16x2048x64.Idx → EReal) (hQ : (V c main_v2_0 : S2x16x2048x64.Idx → EReal) = Q)
    (hK : (V c main_v2_1 : S2x16x2048x64.Idx → EReal) = K) (b : Fin 2) (s k : Fin 2048) :
    (dat1 (F := Ideal) V c).arrAt 7 cfg1.N (ValueIdx.ix3 b s k)
      = (∑ h : Fin 16, Cert.Spec.softmaxRow (fun n => (∑ j : Fin 64, Q (ValueIdx.ix4 b h s j) * K (ValueIdx.ix4 b h n j)) * Ideal.ofBits .f32 0x3E000000#32) k) * Ideal.ofBits .f32 0x3D800000#32 := by
  subst hQ; subst hK
  exact attn_arr V c b s k

end Cert.KernelIdeal.Hand.Attn

end
-- ==== Proof.KI.Final.lean ====
/-
  The algebraic conjunct: the idealized kernel and the idealized reference end with equal results.
  Both results are one specification of the launch memory's argument arrays: the reference's by reading its operations one
  at a time, the kernel's by reading what its two regions write back and regrouping the sums head by head.
-/
import proofs.«146015_j42408507080997_2_alg».proof.Defs
import proofs.«146015_j42408507080997_2_alg».proof.Proof.Gen.KernelIdeal
import proofs.«146015_j42408507080997_2_alg».proof.Proof.Gen.ReferenceIdeal
import proofs.«146015_j42408507080997_2_alg».proof.Proof.Gen.Pre_finite_inputs
import proofs.«146015_j42408507080997_2_alg».proof.Proof.Gen.ReferenceIdeal.Read
import proofs.«146015_j42408507080997_2_alg».proof.Proof.KI.Entry
import proofs.«146015_j42408507080997_2_alg».proof.Proof.RefSpec
import proofs.«146015_j42408507080997_2_alg».proof.Proof.KI.Glue0
import proofs.«146015_j42408507080997_2_alg».proof.Proof.KI.V1
import proofs.«146015_j42408507080997_2_alg».proof.Proof.KI.V1Attn
import proofs.«146015_j42408507080997_2_alg».proof.Proof.SpecBridge
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Cert.ReferenceIdeal.Hand (arr1 arr2 arr3)

variable (m : (ℓ : Loc nD τ sig) → Buf (Elt Ideal) ℓ) (ρ : Dev nD → PrngReg)

/-- The layer's first result as a function of the launch memory: the specification at the argument arrays. -/
def specOut (c : Dev nD) : S2x2048x1024.Idx → EReal := fun i =>
  Cert.Spec.out (arr3 (m ((c : Thread nD τ).loc main_arg0))) (arr1 (m ((c : Thread nD τ).loc main_arg2))) (arr1 (m ((c : Thread nD τ).loc main_arg3)))
    (arr2 (m ((c : Thread nD τ).loc main_arg4))) (arr1 (m ((c : Thread nD τ).loc main_arg5))) (arr2 (m ((c : Thread nD τ).loc main_arg6)))
    (arr1 (m ((c : Thread nD τ).loc main_arg7))) (i 0) (i 1) (i 2)

/-- The layer's second result (the head-averaged attention weights) as a function of the launch memory. -/
def specAttn (c : Dev nD) : S2x2048x2048.Idx → EReal := fun i =>
  Cert.Spec.attnW (arr3 (m ((c : Thread nD τ).loc main_arg0))) (arr1 (m ((c : Thread nD τ).loc main_arg2))) (arr1 (m ((c : Thread nD τ).loc main_arg3)))
    (arr2 (m ((c : Thread nD τ).loc main_arg4))) (arr1 (m ((c : Thread nD τ).loc main_arg5))) (i 0) (i 1) (i 2)

/-! ## The two results, at the specification

After the second region the first result holds, at (b, s, e), the head-by-head sum of context times output weights plus
the bias plus the input, over the queries, keys and values the first region left — which are the specification's; so it is
the specification's output in the kernel's arrangement, which equals the specification's own.  Likewise the second result. -/

theorem kernel_out (c : Dev nD) : (dat1 (V3 m ρ) c).arrAt 6 cfg1.N = specOut m c := by
  funext i
  obtain ⟨b, s, e, rfl⟩ : ∃ (b : Fin 2) (s : Fin 2048) (e : Fin 1024), i = ix3 b s e := ⟨i 0, i 1, i 2, eq_ix3 i⟩
  rw [out_arr (V3 m ρ) c b s e]
  simp only [q_spec m ρ c, k_spec m ρ c, v_spec m ρ c, V3_v4 m ρ c, V3_arg7 m ρ c, V3_arg0 m ρ c]
  unfold specOut
  rw [← Cert.Spec.outK_eq]
  rfl

theorem kernel_attn (c : Dev nD) : (dat1 (V3 m ρ) c).arrAt 7 cfg1.N = specAttn m c := by
  funext i
  obtain ⟨b, s, k, rfl⟩ : ∃ (b : Fin 2) (s : Fin 2048) (k : Fin 2048), i = ix3 b s k := ⟨i 0, i 1, i 2, eq_ix3 i⟩
  rw [Attn.attn_arr (V3 m ρ) c b s k]
  simp only [q_spec m ρ c, k_spec m ρ c]
  unfold specAttn
  rw [← Cert.Spec.attnK_eq]
  rfl

/-- The idealized kernel and the idealized reference, run from memories that agree on the arguments, end with the same two
    results: each is the specification at the argument arrays. -/
theorem algebraic : Cert.algebraic_KernelIdeal_ReferenceIdeal := by
  intro m ρ m' ρ' _ hagree
  refine ⟨fun c => specOut m c, fun c => specAttn m c, ?_, ?_⟩
  · refine (θ_run Cert.KernelIdeal.defs _ _).mono (fun r h c => ⟨(h c).1.trans (kernel_out m ρ c), (h c).2.1.trans (kernel_attn m ρ c), (h c).2.2⟩)
      (run_vals (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v58_eq, Cert.ReferenceIdeal.Hand.ref_out,
        (hagree c).1, (hagree c).2.2.1, (hagree c).2.2.2.1, (hagree c).2.2.2.2.1, (hagree c).2.2.2.2.2.1, (hagree c).2.2.2.2.2.2.1, (hagree c).2.2.2.2.2.2.2]
      rfl
    · rw [(h c).2.1, Cert.ReferenceIdeal.Read.val_main_v61_eq, Cert.ReferenceIdeal.Hand.ref_attnW,
        (hagree c).1, (hagree c).2.2.1, (hagree c).2.2.2.1, (hagree c).2.2.2.2.1, (hagree c).2.2.2.2.2.1]
      rfl

end Cert.KernelIdeal.Hand

end
-- ==== Proof.lean ====
/-
  The certificate of a pre-LayerNorm self-attention layer computed by two kernel regions against its plain reference.

  Frames. The program is a host stretch (the projection weights transposed), the first region, a host stretch (the output
  weights transposed) and the second region.  Each region's run is read off its own kernel: the first region's body loads
  its five input blocks and stores its three output blocks whole; the second region's body keeps two accumulators in
  scratch across the sixteen head steps of a query tile, zeroing them at the first step and storing the two output blocks
  at the last, so its invariant names what the accumulators hold after each grid point.  The two regions are chained
  through the contents of the unscoped buffers at the four boundaries, and every argument array is read back through that
  chain to its launch contents.  The same text serves the program read at machine words and read at extended reals.  The
  reference's frame is its run with the results dropped.

  Values, at the extended reals.  After the first region the three head-major arrays hold the LayerNorm of each row times
  the transposed projection weights plus the bias, column 64 h + j of the query, key and value thirds going to head h,
  component j.  After the second region the first result holds, at (b, s, e), the sum over the heads of the head's context
  row times its 64 rows of the transposed output weights, plus the output bias and the input; the second holds the sum over
  the heads of the softmax weights times 1/16.  The reference computes the same quantities over the 1024 concatenated
  columns, dividing by 8 and by 16 where the kernel multiplies by 1/8 and 1/16: a quotient by a nonzero real is the product
  with its reciprocal on every extended real, and a finite sum may be regrouped head by head, so the two results agree
  entry by entry; no finiteness of the inputs is used.
-/
import proofs.«146015_j42408507080997_2_alg».proof.Defs
import proofs.«146015_j42408507080997_2_alg».proof.Proof.Gen.Kernel
import proofs.«146015_j42408507080997_2_alg».proof.Proof.Gen.KernelIdeal
import proofs.«146015_j42408507080997_2_alg».proof.Proof.Gen.ReferenceIdeal
import proofs.«146015_j42408507080997_2_alg».proof.Proof.Gen.Pre_finite_inputs
import proofs.«146015_j42408507080997_2_alg».proof.Proof.Gen.ReferenceIdeal.Run
import proofs.«146015_j42408507080997_2_alg».proof.Proof.K.Run
import proofs.«146015_j42408507080997_2_alg».proof.Proof.KI.Run
import proofs.«146015_j42408507080997_2_alg».proof.Proof.KI.Final
import Idealize.ShloMosaic.Adequacy
import Idealize.ShloMosaic.Init

noncomputable section

namespace Cert.Proof

open Idealize.ShloMosaic Idealize.SL.Sem

/-- The program read at machine words runs to the end and leaves its arguments as launched. -/
theorem frame_k : Cert.frame_Kernel := fun m ρ _ => Cert.Kernel.Hand.frame m ρ

/-- The program read at extended reals runs to the end and leaves its arguments as launched. -/
theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the specification's two results. -/
theorem algebraic : Cert.algebraic_KernelIdeal_ReferenceIdeal := Cert.KernelIdeal.Hand.algebraic

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
